-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S10000x32 : Shape := ⟨2, ![10000, 32]⟩
abbrev S10000x16 : Shape := ⟨2, ![10000, 16]⟩
abbrev S400x10000 : Shape := ⟨2, ![400, 10000]⟩
abbrev S400x32 : Shape := ⟨2, ![400, 32]⟩
abbrev S400x16 : Shape := ⟨2, ![400, 16]⟩
abbrev S400 : Shape := ⟨1, ![400]⟩
abbrev S400x1 : Shape := ⟨2, ![400, 1]⟩

abbrev nBuf : Space → Nat
  | .hbm => 11
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S10000x32, .f32⟩
  | .hbm, ⟨9, _⟩ => ⟨S10000x16, .f32⟩
  | .hbm, ⟨10, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S400x32, .f32⟩
  | .local _ .vmem, ⟨7, _⟩ => ⟨S400x32, .f32⟩
  | .local _ .vmem, ⟨8, _⟩ => ⟨S1x32, .f32⟩
  | .local _ .vmem, ⟨9, _⟩ => ⟨S32x16, .f32⟩
  | .local _ .vmem, ⟨10, _⟩ => ⟨S400x16, .f32⟩
  | .local _ .vmem, ⟨11, _⟩ => ⟨S400x16, .f32⟩
  | .local _ .vmem, ⟨12, _⟩ => ⟨S400x10000, .f32⟩
  | .local _ .vmem, ⟨13, _⟩ => ⟨S400x10000, .f32⟩
  | .local _ .vmem, ⟨14, _⟩ => ⟨S10000x16, .f32⟩
  | .local _ .vmem, ⟨15, _⟩ => ⟨S400x16, .f32⟩
  | .local _ .vmem, ⟨16, _⟩ => ⟨S400x16, .f32⟩
  | .local _ .vmem, ⟨17, _⟩ => ⟨S1x16, .f32⟩
  | .local _ .vmem, ⟨18, _⟩ => ⟨S400x16, .f32⟩
  | .local _ .vmem, ⟨19, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  reduces_S400x32_S400 : S400x32.Reduces [1] S400
  shapeCasts_S400_S400x1 : S400.ShapeCasts S400x1
  broadcasts_S400x1_S400x32 : S400x1.Broadcasts S400x32
  inb_S32x16_S32x16_0_0 : ∀ a, (![0, 0] : Fin 2 → Nat) a + S32x16.size a ≤ S32x16.size a
  h_S32x16 : 0 < S32x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S400x16_S400x16 : S400x16.ShapeCasts S400x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  broadcasts_S400x1_S400x16 : S400x1.Broadcasts S400x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .f32 = 32 ∨ (Rect.block (s := S10000x32) S400x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x16.size a ≤ S10000x16.size a
  hwx1_5 : ∀ i : grid1.Coords, EltTy.bits .f32 = 32 ∨ (Rect.block (s := S10000x16) S400x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S400x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩
abbrev S10000x32 : Shape := ⟨2, ![10000, 32]⟩
abbrev S1x32 : Shape := ⟨2, ![1, 32]⟩
abbrev S10000 : Shape := ⟨1, ![10000]⟩
abbrev S10000x1 : Shape := ⟨2, ![10000, 1]⟩
abbrev S10000x16 : Shape := ⟨2, ![10000, 16]⟩
abbrev S1x16 : Shape := ⟨2, ![1, 16]⟩

abbrev nBuf : Space → Nat
  | .hbm => 63
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S10000x10000, .i32⟩
  | .hbm, ⟨7, _⟩ => ⟨S10000x10000, .i32⟩
  | .hbm, ⟨8, _⟩ => ⟨S_, .i32⟩
  | .hbm, ⟨9, _⟩ => ⟨S10000x10000, .i32⟩
  | .hbm, ⟨10, _⟩ => ⟨S10000x10000, .i32⟩
  | .hbm, ⟨11, _⟩ => ⟨S10000x10000, .i1⟩
  | .hbm, ⟨12, _⟩ => ⟨S10000x10000, .f32⟩
  | .hbm, ⟨13, _⟩ => ⟨S10000x10000, .f32⟩
  | .hbm, ⟨14, _⟩ => ⟨S10000x32, .f32⟩
  | .hbm, ⟨15, _⟩ => ⟨S10000x32, .f32⟩
  | .hbm, ⟨16, _⟩ => ⟨S1x32, .f32⟩
  | .hbm, ⟨17, _⟩ => ⟨S10000x32, .f32⟩
  | .hbm, ⟨18, _⟩ => ⟨S10000x32, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .f32⟩
  | .hbm, ⟨25, _⟩ => ⟨S10000x32, .f32⟩
  | .hbm, ⟨26, _⟩ => ⟨S10000x32, .f32⟩
  | .hbm, ⟨27, _⟩ => ⟨S10000x32, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S_, .f32⟩
  | .hbm, ⟨33, _⟩ => ⟨S10000x32, .f32⟩
  | .hbm, ⟨34, _⟩ => ⟨S10000x32, .f32⟩
  | .hbm, ⟨35, _⟩ => ⟨S_, .f32⟩
  | .hbm, ⟨36, _⟩ => ⟨S10000x1, .f32⟩
  | .hbm, ⟨37, _⟩ => ⟨S10000x1, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S10000x16, .f32⟩
  | .hbm, ⟨44, _⟩ => ⟨S10000x16, .f32⟩
  | .hbm, ⟨45, _⟩ => ⟨S1x16, .f32⟩
  | .hbm, ⟨46, _⟩ => ⟨S10000x16, .f32⟩
  | .hbm, ⟨47, _⟩ => ⟨S10000x16, .f32⟩
  | .hbm, ⟨48, _⟩ => ⟨S_, .f32⟩
  | .hbm, ⟨49, _⟩ => ⟨S10000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S10000x1, .f32⟩
  | .hbm, ⟨54, _⟩ => ⟨S10000x16, .f32⟩
  | .hbm, ⟨55, _⟩ => ⟨S10000x16, .f32⟩
  | .hbm, ⟨56, _⟩ => ⟨S10000x16, .f32⟩
  | .hbm, ⟨57, _⟩ => ⟨S_, .f32⟩
  | .hbm, ⟨58, _⟩ => ⟨S10000, .f32⟩
  | .hbm, ⟨59, _⟩ => ⟨S10000x1, .f32⟩
  | .hbm, ⟨60, _⟩ => ⟨S10000x1, .f32⟩
  | .hbm, ⟨61, _⟩ => ⟨S10000x16, .f32⟩
  | .hbm, ⟨62, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x32_0_1 : S10000x1.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  bcast_S_S10000 : S_.BroadcastsInDim S10000 (![] : Fin 0 → Fin S10000.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.IdealRegion0.lean ====
import proofs.«168926_g35270271435312_cont_8to1_b_957_4_alg».proof.Proof.Gen.KernelIdeal.Launch
import proofs.«168926_g35270271435312_cont_8to1_b_957_4_alg».proof.Proof.Gen.KernelIdeal.Skeleton
import proofs.«168926_g35270271435312_cont_8to1_b_957_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel: the feature matrix times the first weight matrix, at one grid point, every block a whole array -/

section
variable (V : (c : Dev nD) → (b : Ref sig .tc) → Buf (Elt F) ((c : Thread nD τ).loc b))

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-- The result's staging buffer after the body: one store of the body's value of the loaded blocks. -/
def out0_2 (x0 : Vec F S10000x128 .f32) (x1 : Vec F S128x32 .f32) : Vec F S10000x32 .f32 :=
  View.canon [⟨r0_2, k0_pay1 (View.ld x0 r0_0) (View.ld x1 r0_1)⟩]

/-- The one store covers the buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

set_option maxHeartbeats 1000000 in
/-- The body on whole staging buffers, the inputs' at given contents and the result's at anything, leaves the inputs' as
    they were and the result's at `out0_2` of them. -/
theorem sound_kernel0 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__support_body arg0 harg0 arg1 harg1 arg2 harg2) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the kernel finds them; after the body each input's buffer
    at its block and the result's at the body's value of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealRegion1.lean ====
import proofs.«168926_g35270271435312_cont_8to1_b_957_4_alg».proof.Proof.Gen.KernelIdeal.Launch
import proofs.«168926_g35270271435312_cont_8to1_b_957_4_alg».proof.Proof.Gen.KernelIdeal.Skeleton
import proofs.«168926_g35270271435312_cont_8to1_b_957_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel: the first layer on 25 blocks of 400 rows. Windows 1 and 2 read ONE array (the whole feature matrix, and the point's 400 rows of it), each at half of its share -/

section
variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or kept from an earlier point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S400x32 := Rect.unit (s := S400x32) ![0, 0] S400x32.size inb_S400x32_S400x32_0_0
abbrev r1_3 : Rect S1x32 := Rect.unit (s := S1x32) ![0, 0] S1x32.size inb_S1x32_S1x32_0_0
abbrev r1_4 : Rect S32x16 := Rect.unit (s := S32x16) ![0, 0] S32x16.size inb_S32x16_S32x16_0_0
abbrev r1_5 : Rect S400x16 := Rect.unit (s := S400x16) ![0, 0] S400x16.size inb_S400x16_S400x16_0_0

/-- The result's staging buffer after the body: one store of the body's value of the loaded blocks. -/
def out1_5 (x0 : Vec F S400x10000 .f32) (x1 : Vec F S10000x32 .f32) (x2 : Vec F S400x32 .f32) (x3 : Vec F S1x32 .f32) (x4 : Vec F S32x16 .f32) : Vec F S400x16 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S400x16 .f32) (y : S400x16.Idx) :
    ∃ pc ∈ ([⟨r1_5, p0⟩] : List (View.Piece (Elt F) S400x16 .f32)), y ∈ pc.1.set :=
  View.cover_of_tiled [⟨r1_5, p0⟩] S400x16.size (by rfl) y

set_option maxHeartbeats 1000000 in
/-- The body on whole staging buffers, the inputs' at given contents and the result's at anything, leaves the inputs' as
    they were and the result's at `out1_5` of them. -/
theorem sound_kernel1 (c : Dev nD) (E : Set ℕ) (i : grid1.Coords) (arg0 : Memref sig .tc .vmem S400x10000 .f32) (harg0 : arg0.IsWhole) (arg1 : Memref sig .tc .vmem S10000x32 .f32) (harg1 : arg1.IsWhole) (arg2 : Memref sig .tc .vmem S400x32 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S400x16 .f32) (harg5 : arg5.IsWhole)
    (x0 : Vec F S400x10000 .f32) (x1 : Vec F S10000x32 .f32) (x2 : Vec F S400x32 .f32) (x3 : Vec F S1x32 .f32) (x4 : Vec F S32x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__layer1_body i arg0 harg0 arg1 harg1 arg2 harg2 arg3 harg3 arg4 harg4 arg5 harg5) K := by
  simp only [cc1__layer1_body_eq_skeleton]; unfold cc1__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the kernel finds them; after the body each input's buffer
    at its block and the result's at the body's value of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.IdealRegion2.lean ====
import proofs.«168926_g35270271435312_cont_8to1_b_957_4_alg».proof.Proof.Gen.KernelIdeal.Launch
import proofs.«168926_g35270271435312_cont_8to1_b_957_4_alg».proof.Proof.Gen.KernelIdeal.Skeleton
import proofs.«168926_g35270271435312_cont_8to1_b_957_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel: the second layer on 25 blocks of 400 rows. Windows 1 and 2 read ONE array (the whole first-layer result, and the point's 400 rows of it), each at half of its share -/

section
variable (V : (c : Dev nD) → (b : Ref sig .tc) → Buf (Elt F) ((c : Thread nD τ).loc b))

/-- Window `w`'s block at point `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or kept from an earlier point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x16 := Rect.unit (s := S10000x16) ![0, 0] S10000x16.size inb_S10000x16_S10000x16_0_0
abbrev r2_2 : Rect S400x16 := Rect.unit (s := S400x16) ![0, 0] S400x16.size inb_S400x16_S400x16_0_0
abbrev r2_3 : Rect S1x16 := Rect.unit (s := S1x16) ![0, 0] S1x16.size inb_S1x16_S1x16_0_0
abbrev r2_4 : Rect S400x16 := Rect.unit (s := S400x16) ![0, 0] S400x16.size inb_S400x16_S400x16_0_0

/-- The result's staging buffer after the body: one store of the body's value of the loaded blocks. -/
def out2_4 (x0 : Vec F S400x10000 .f32) (x1 : Vec F S10000x16 .f32) (x2 : Vec F S400x16 .f32) (x3 : Vec F S1x16 .f32) : Vec F S400x16 .f32 :=
  View.canon [⟨r2_4, k2_pay1 (View.ld x0 r2_0) (View.ld x1 r2_1) (View.ld x2 r2_2) (View.ld x3 r2_3)⟩]

/-- The one store covers the buffer. -/
theorem cover2_4 (p0 : Vec F S400x16 .f32) (y : S400x16.Idx) :
    ∃ pc ∈ ([⟨r2_4, p0⟩] : List (View.Piece (Elt F) S400x16 .f32)), y ∈ pc.1.set :=
  View.cover_of_tiled [⟨r2_4, p0⟩] S400x16.size (by rfl) y

set_option maxHeartbeats 1000000 in
/-- The body on whole staging buffers, the inputs' at given contents and the result's at anything, leaves the inputs' as
    they were and the result's at `out2_4` of them. -/
theorem sound_kernel2 (c : Dev nD) (E : Set ℕ) (i : grid2.Coords) (arg0 : Memref sig .tc .vmem S400x10000 .f32) (harg0 : arg0.IsWhole) (arg1 : Memref sig .tc .vmem S10000x16 .f32) (harg1 : arg1.IsWhole) (arg2 : Memref sig .tc .vmem S400x16 .f32) (harg2 : arg2.IsWhole) (arg3 : Memref sig .tc .vmem S1x16 .f32) (harg3 : arg3.IsWhole) (arg4 : Memref sig .tc .vmem S400x16 .f32) (harg4 : arg4.IsWhole)
    (x0 : Vec F S400x10000 .f32) (x1 : Vec F S10000x16 .f32) (x2 : Vec F S400x16 .f32) (x3 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__layer2_body i arg0 harg0 arg1 harg1 arg2 harg2 arg3 harg3 arg4 harg4) K := by
  simp only [cc2__layer2_body_eq_skeleton]; unfold cc2__layer2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this pipeline on core `c`: the arrays as the kernel finds them; after the body each input's buffer
    at its block and the result's at the body's value of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.IdealVals.lean ====
import proofs.«168926_g35270271435312_cont_8to1_b_957_4_alg».proof.Proof.Gen.KernelIdeal.Launch
import proofs.«168926_g35270271435312_cont_8to1_b_957_4_alg».proof.Proof.Gen.KernelIdeal.Skeleton
import proofs.«168926_g35270271435312_cont_8to1_b_957_4_alg».proof.Proof.Gen.KernelIdeal.Points
import proofs.«168926_g35270271435312_cont_8to1_b_957_4_alg».proof.Proof.IdealRegion0
import proofs.«168926_g35270271435312_cont_8to1_b_957_4_alg».proof.Proof.IdealRegion1
import proofs.«168926_g35270271435312_cont_8to1_b_957_4_alg».proof.Proof.IdealRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of the core's unscoped buffers at each boundary of the run

  The launch memory; after the two reshapes of the biases; after each kernel, its result array at what the kernel's
  write-backs leave and every other buffer as before. Each kernel's proof data are stated at the contents it is entered
  from. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its result array at what its one write-back leaves. -/
def W2 (c : Dev nD) : Valuation τ sig (Elt F) :=
  Function.update (W1 m ρ c) (Proc.devRef .tc main_v2) ((dat0 (V1 m ρ) c).arrAt 2 cfg0.N)
abbrev V2 : (c : Dev nD) → (b : Ref sig .tc) → Buf (Elt F) ((c : Thread nD τ).loc b) := fun c b => W2 m ρ c b
/-- After the second kernel. -/
def W3 (c : Dev nD) : Valuation τ sig (Elt F) :=
  Function.update (W2 m ρ c) (Proc.devRef .tc main_v3) ((dat1 (V2 m ρ) c).arrAt 5 cfg1.N)
abbrev V3 : (c : Dev nD) → (b : Ref sig .tc) → Buf (Elt F) ((c : Thread nD τ).loc b) := fun c b => W3 m ρ c b
/-- After the third kernel. -/
def W4 (c : Dev nD) : Valuation τ sig (Elt F) :=
  Function.update (W3 m ρ c) (Proc.devRef .tc main_v4) ((dat2 (V3 m ρ) c).arrAt 4 cfg2.N)
abbrev V4 : (c : Dev nD) → (b : Ref sig .tc) → Buf (Elt F) ((c : Thread nD τ).loc b) := fun c b => W4 m ρ c b

theorem V2_same (c : Dev nD) : V2 m ρ c main_v2 = (dat0 (V1 m ρ) c).arrAt 2 cfg0.N := by
  show W2 m ρ c (Proc.devRef .tc main_v2) = _; unfold W2; exact Function.update_self _ _ _
theorem W2_of_ne (c : Dev nD) (b : Ref sig .tc) (h : b ≠ main_v2) : W2 m ρ c (Proc.devRef .tc b) = W1 m ρ c (Proc.devRef .tc b) := by
  unfold W2; exact Function.update_of_ne (StableHlo.devRef_ne_of_ne h) _ _
theorem V2_of_ne (c : Dev nD) (b : Ref sig .tc) (h : b ≠ main_v2) : V2 m ρ c b = V1 m ρ c b := W2_of_ne m ρ c b h
theorem V3_same (c : Dev nD) : V3 m ρ c main_v3 = (dat1 (V2 m ρ) c).arrAt 5 cfg1.N := by
  show W3 m ρ c (Proc.devRef .tc main_v3) = _; unfold W3; exact Function.update_self _ _ _
theorem W3_of_ne (c : Dev nD) (b : Ref sig .tc) (h : b ≠ main_v3) : W3 m ρ c (Proc.devRef .tc b) = W2 m ρ c (Proc.devRef .tc b) := by
  unfold W3; exact Function.update_of_ne (StableHlo.devRef_ne_of_ne h) _ _
theorem V3_of_ne (c : Dev nD) (b : Ref sig .tc) (h : b ≠ main_v3) : V3 m ρ c b = V2 m ρ c b := W3_of_ne m ρ c b h
theorem V4_same (c : Dev nD) : V4 m ρ c main_v4 = (dat2 (V3 m ρ) c).arrAt 4 cfg2.N := by
  show W4 m ρ c (Proc.devRef .tc main_v4) = _; unfold W4; exact Function.update_self _ _ _
theorem W4_of_ne (c : Dev nD) (b : Ref sig .tc) (h : b ≠ main_v4) : W4 m ρ c (Proc.devRef .tc b) = W3 m ρ c (Proc.devRef .tc b) := by
  unfold W4; exact Function.update_of_ne (StableHlo.devRef_ne_of_ne h) _ _
theorem V4_of_ne (c : Dev nD) (b : Ref sig .tc) (h : b ≠ main_v4) : V4 m ρ c b = V3 m ρ c b := W4_of_ne m ρ c b h

end Cert.KernelIdeal.Hand

end
-- ==== Proof.IdealShare.lean ====
import proofs.«168926_g35270271435312_cont_8to1_b_957_4_alg».proof.Proof.Gen.KernelIdeal.Launch
import proofs.«168926_g35270271435312_cont_8to1_b_957_4_alg».proof.Proof.Gen.KernelIdeal.Skeleton
import proofs.«168926_g35270271435312_cont_8to1_b_957_4_alg».proof.Proof.Gen.KernelIdeal.Points
import proofs.«168926_g35270271435312_cont_8to1_b_957_4_alg».proof.Proof.IdealRegion1
import proofs.«168926_g35270271435312_cont_8to1_b_957_4_alg».proof.Proof.IdealRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernels whose windows share an array: the arrays in and out of the core's unscoped buffers

  The second and third kernels each read ONE array through two windows (the whole array, and the point's rows of it).
  At the kernel's entry that array's full share is split in two halves, one per window; at the exit — both windows are
  inputs, so the array is as entered — the halves are joined again. Every other array is held whole throughout. -/

section
variable (V : (c : Dev nD) → (b : Ref sig .tc) → Buf (Elt F) ((c : Thread nD τ).loc b))

/-- At the kernel's entry the core's unscoped buffers are the kernel's arrays — the one array that two windows read split
    into two halves of its share, one per window — and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 (by decide) c (V c)]
  refine sep_mono ?_ .rfl
  unfold Pipeline.arrBufs Dat.arrays
  rw [bigSep_eq_bigSepL_of_eq [main_arg1, main_v2, main_v0, main_arg4, main_v3] (by decide) (by decide), bigSep_W1]
  have hs : ∀ w : Fin cfg1.W, (cfg1.win w).arr.view.set = Finset.univ := fun w => (arr_whole1 w).set_eq_univ
  rw [hs 0, hs 1, hs 3, hs 4, hs 5]
  beta_reduce
  have eL : (bigSepL [main_arg1, main_v2, main_v0, main_arg4, main_v3] fun b => ((c : Thread nD τ).loc b ↦{fullShare} V c b : sProp 𝕄))
      = iprop(((c : Thread nD τ).loc main_arg1 ↦{fullShare} V c main_arg1) ∗ ((c : Thread nD τ).loc main_v2 ↦{fullShare} V c main_v2) ∗ ((c : Thread nD τ).loc main_v0 ↦{fullShare} V c main_v0) ∗ ((c : Thread nD τ).loc main_arg4 ↦{fullShare} V c main_arg4) ∗ ((c : Thread nD τ).loc main_v3 ↦{fullShare} V c main_v3)) := rfl
  have e0 : (View.loc (c : Thread nD τ) (cfg1.win 0).arr.view ↦{(dat1 V c).share 0} (dat1 V c).arrAt 0 0 : sProp 𝕄)
      = ((c : Thread nD τ).loc main_arg1 ↦{fullShare} V c main_arg1) := rfl
  have e1 : (View.loc (c : Thread nD τ) (cfg1.win 1).arr.view ↦{(dat1 V c).share 1} (dat1 V c).arrAt 1 0 : sProp 𝕄)
      = ((c : Thread nD τ).loc main_v2 ↦{fullShare.left} V c main_v2) := rfl
  have e2 : (View.loc (c : Thread nD τ) (cfg1.win 2).arr.view ↦{(dat1 V c).share 2} (dat1 V c).arrAt 2 0 : sProp 𝕄)
      = ((c : Thread nD τ).loc main_v2 ↦{fullShare.right} V c main_v2) := rfl
  have e3 : (View.loc (c : Thread nD τ) (cfg1.win 3).arr.view ↦{(dat1 V c).share 3} (dat1 V c).arrAt 3 0 : sProp 𝕄)
      = ((c : Thread nD τ).loc main_v0 ↦{fullShare} V c main_v0) := rfl
  have e4 : (View.loc (c : Thread nD τ) (cfg1.win 4).arr.view ↦{(dat1 V c).share 4} (dat1 V c).arrAt 4 0 : sProp 𝕄)
      = ((c : Thread nD τ).loc main_arg4 ↦{fullShare} V c main_arg4) := rfl
  have e5 : (View.loc (c : Thread nD τ) (cfg1.win 5).arr.view ↦{(dat1 V c).share 5} (dat1 V c).arrAt 5 0 : sProp 𝕄)
      = ((c : Thread nD τ).loc main_v3 ↦{fullShare} V c main_v3) := rfl
  rw [eL, e0, e1, e2, e3, e4, e5]
  have hsp : (((c : Thread nD τ).loc main_v2 ↦{fullShare} V c main_v2) : sProp 𝕄)
      ⊢ iprop(((c : Thread nD τ).loc main_v2 ↦{fullShare.left} V c main_v2) ∗ ((c : Thread nD τ).loc main_v2 ↦{fullShare.right} V c main_v2)) :=
    (pointsTo_share (PosShare.mem_left_op_right fullShare)).1
  iintro ⟨H0, H1, H2, H3, H4⟩
  ihave Hs := hsp $$ H1
  icases Hs with ⟨H1l, H1r⟩
  isplitl [H0]
  · iexact H0
  isplitl [H1l]
  · iexact H1l
  isplitl [H1r]
  · iexact H1r
  isplitl [H2]
  · iexact H2
  isplitl [H3]
  · iexact H3
  iexact H4

/-- At the kernel's exit its arrays — the inputs as entered, the two halves of the shared one joined again, the result at
    what the write-backs leave — and the rest are the core's unscoped buffers at the contents `V'`, which has the result
    array at that and every other buffer as the kernel was entered. -/
theorem exit1 (c : Dev nD) (V' : (b : Ref sig .tc) → Buf (Elt F) ((c : Thread nD τ).loc b))
    (hout : V' main_v3 = (dat1 V c).arrAt 5 cfg1.N) (hrest : ∀ b, b ≠ main_v3 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 (by decide) c V']
  refine sep_mono ?_ (Entails.of_eq ?_)
  · unfold Pipeline.arrBufs Dat.arrays
    rw [bigSep_eq_bigSepL_of_eq [main_arg1, main_v2, main_v0, main_arg4, main_v3] (by decide) (by decide), bigSep_W1]
    have hs : ∀ w : Fin cfg1.W, (cfg1.win w).arr.view.set = Finset.univ := fun w => (arr_whole1 w).set_eq_univ
    rw [hs 0, hs 1, hs 3, hs 4, hs 5]
    beta_reduce
    have a0 : (dat1 V c).arrAt 0 cfg1.N = V' main_arg1 :=
      ((dat1 V c).arrAt_in 0 rfl _).trans ((A_eq1 V c 0).trans (hrest main_arg1 (by decide)).symm)
    have a1 : (dat1 V c).arrAt 1 cfg1.N = V' main_v2 :=
      ((dat1 V c).arrAt_in 1 rfl _).trans ((A_eq1 V c 1).trans (hrest main_v2 (by decide)).symm)
    have a2 : (dat1 V c).arrAt 2 cfg1.N = V' main_v2 :=
      ((dat1 V c).arrAt_in 2 rfl _).trans ((A_eq1 V c 2).trans (hrest main_v2 (by decide)).symm)
    have a3 : (dat1 V c).arrAt 3 cfg1.N = V' main_v0 :=
      ((dat1 V c).arrAt_in 3 rfl _).trans ((A_eq1 V c 3).trans (hrest main_v0 (by decide)).symm)
    have a4 : (dat1 V c).arrAt 4 cfg1.N = V' main_arg4 :=
      ((dat1 V c).arrAt_in 4 rfl _).trans ((A_eq1 V c 4).trans (hrest main_arg4 (by decide)).symm)
    have a5 : (dat1 V c).arrAt 5 cfg1.N = V' main_v3 := hout.symm
    rw [a0, a1, a2, a3, a4, a5]
    have eR : (bigSepL [main_arg1, main_v2, main_v0, main_arg4, main_v3] fun b => ((c : Thread nD τ).loc b ↦{fullShare} V' b : sProp 𝕄))
        = iprop(((c : Thread nD τ).loc main_arg1 ↦{fullShare} V' main_arg1) ∗ ((c : Thread nD τ).loc main_v2 ↦{fullShare} V' main_v2) ∗ ((c : Thread nD τ).loc main_v0 ↦{fullShare} V' main_v0) ∗ ((c : Thread nD τ).loc main_arg4 ↦{fullShare} V' main_arg4) ∗ ((c : Thread nD τ).loc main_v3 ↦{fullShare} V' main_v3)) := rfl
    have e0 : (View.loc (c : Thread nD τ) (cfg1.win 0).arr.view ↦{(dat1 V c).share 0} V' main_arg1 : sProp 𝕄)
        = ((c : Thread nD τ).loc main_arg1 ↦{fullShare} V' main_arg1) := rfl
    have e1 : (View.loc (c : Thread nD τ) (cfg1.win 1).arr.view ↦{(dat1 V c).share 1} V' main_v2 : sProp 𝕄)
        = ((c : Thread nD τ).loc main_v2 ↦{fullShare.left} V' main_v2) := rfl
    have e2 : (View.loc (c : Thread nD τ) (cfg1.win 2).arr.view ↦{(dat1 V c).share 2} V' main_v2 : sProp 𝕄)
        = ((c : Thread nD τ).loc main_v2 ↦{fullShare.right} V' main_v2) := rfl
    have e3 : (View.loc (c : Thread nD τ) (cfg1.win 3).arr.view ↦{(dat1 V c).share 3} V' main_v0 : sProp 𝕄)
        = ((c : Thread nD τ).loc main_v0 ↦{fullShare} V' main_v0) := rfl
    have e4 : (View.loc (c : Thread nD τ) (cfg1.win 4).arr.view ↦{(dat1 V c).share 4} V' main_arg4 : sProp 𝕄)
        = ((c : Thread nD τ).loc main_arg4 ↦{fullShare} V' main_arg4) := rfl
    have e5 : (View.loc (c : Thread nD τ) (cfg1.win 5).arr.view ↦{(dat1 V c).share 5} V' main_v3 : sProp 𝕄)
        = ((c : Thread nD τ).loc main_v3 ↦{fullShare} V' main_v3) := rfl
    rw [eR, e0, e1, e2, e3, e4, e5]
    have hj : (iprop(((c : Thread nD τ).loc main_v2 ↦{fullShare.left} V' main_v2) ∗ ((c : Thread nD τ).loc main_v2 ↦{fullShare.right} V' main_v2)) : sProp 𝕄)
        ⊢ ((c : Thread nD τ).loc main_v2 ↦{fullShare} V' main_v2) :=
      (pointsTo_share (PosShare.mem_left_op_right fullShare)).2
    iintro ⟨G0, G1, G2, G3, G4, G5⟩
    ihave Hj := hj $$ [G1 G2]
    · isplitl [G1] <;> iassumption
    isplitl [G0]
    · iexact G0
    isplitl [Hj]
    · iexact Hj
    isplitl [G3]
    · iexact G3
    isplitl [G4]
    · iexact G4
    iexact G5
  · unfold Pipeline.unscopedRest
    exact bigSep_congr fun b hb => by
      rw [hrest b (fun e => (Finset.mem_sdiff.mp hb).2 (e ▸ Finset.mem_image.mpr ⟨5, Finset.mem_univ _, rfl⟩))]

/-- At the kernel's entry the core's unscoped buffers are the kernel's arrays — the one array that two windows read split
    into two halves of its share, one per window — and the rest. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ cfgs 2 (by decide) c (V c)]
  refine sep_mono ?_ .rfl
  unfold Pipeline.arrBufs Dat.arrays
  rw [bigSep_eq_bigSepL_of_eq [main_arg1, main_v3, main_v1, main_v4] (by decide) (by decide), bigSep_W2]
  have hs : ∀ w : Fin cfg2.W, (cfg2.win w).arr.view.set = Finset.univ := fun w => (arr_whole2 w).set_eq_univ
  rw [hs 0, hs 1, hs 3, hs 4]
  beta_reduce
  have eL : (bigSepL [main_arg1, main_v3, main_v1, main_v4] fun b => ((c : Thread nD τ).loc b ↦{fullShare} V c b : sProp 𝕄))
      = iprop(((c : Thread nD τ).loc main_arg1 ↦{fullShare} V c main_arg1) ∗ ((c : Thread nD τ).loc main_v3 ↦{fullShare} V c main_v3) ∗ ((c : Thread nD τ).loc main_v1 ↦{fullShare} V c main_v1) ∗ ((c : Thread nD τ).loc main_v4 ↦{fullShare} V c main_v4)) := rfl
  have e0 : (View.loc (c : Thread nD τ) (cfg2.win 0).arr.view ↦{(dat2 V c).share 0} (dat2 V c).arrAt 0 0 : sProp 𝕄)
      = ((c : Thread nD τ).loc main_arg1 ↦{fullShare} V c main_arg1) := rfl
  have e1 : (View.loc (c : Thread nD τ) (cfg2.win 1).arr.view ↦{(dat2 V c).share 1} (dat2 V c).arrAt 1 0 : sProp 𝕄)
      = ((c : Thread nD τ).loc main_v3 ↦{fullShare.left} V c main_v3) := rfl
  have e2 : (View.loc (c : Thread nD τ) (cfg2.win 2).arr.view ↦{(dat2 V c).share 2} (dat2 V c).arrAt 2 0 : sProp 𝕄)
      = ((c : Thread nD τ).loc main_v3 ↦{fullShare.right} V c main_v3) := rfl
  have e3 : (View.loc (c : Thread nD τ) (cfg2.win 3).arr.view ↦{(dat2 V c).share 3} (dat2 V c).arrAt 3 0 : sProp 𝕄)
      = ((c : Thread nD τ).loc main_v1 ↦{fullShare} V c main_v1) := rfl
  have e4 : (View.loc (c : Thread nD τ) (cfg2.win 4).arr.view ↦{(dat2 V c).share 4} (dat2 V c).arrAt 4 0 : sProp 𝕄)
      = ((c : Thread nD τ).loc main_v4 ↦{fullShare} V c main_v4) := rfl
  rw [eL, e0, e1, e2, e3, e4]
  have hsp : (((c : Thread nD τ).loc main_v3 ↦{fullShare} V c main_v3) : sProp 𝕄)
      ⊢ iprop(((c : Thread nD τ).loc main_v3 ↦{fullShare.left} V c main_v3) ∗ ((c : Thread nD τ).loc main_v3 ↦{fullShare.right} V c main_v3)) :=
    (pointsTo_share (PosShare.mem_left_op_right fullShare)).1
  iintro ⟨H0, H1, H2, H3⟩
  ihave Hs := hsp $$ H1
  icases Hs with ⟨H1l, H1r⟩
  isplitl [H0]
  · iexact H0
  isplitl [H1l]
  · iexact H1l
  isplitl [H1r]
  · iexact H1r
  isplitl [H2]
  · iexact H2
  iexact H3

/-- At the kernel's exit its arrays — the inputs as entered, the two halves of the shared one joined again, the result at
    what the write-backs leave — and the rest are the core's unscoped buffers at the contents `V'`, which has the result
    array at that and every other buffer as the kernel was entered. -/
theorem exit2 (c : Dev nD) (V' : (b : Ref sig .tc) → Buf (Elt F) ((c : Thread nD τ).loc b))
    (hout : V' main_v4 = (dat2 V c).arrAt 4 cfg2.N) (hrest : ∀ b, b ≠ main_v4 → V' b = V c b) :
    iprop((dat2 V c).arrays ((dat2 V c).arrAt · cfg2.N) ∗ Pipeline.unscopedRest spec2 c (V c)) ⊢ (unscopedBufs c V' : sProp 𝕄) := by
  rw [Pipeline.unscopedBufs_split₀ cfgs 2 (by decide) c V']
  refine sep_mono ?_ (Entails.of_eq ?_)
  · unfold Pipeline.arrBufs Dat.arrays
    rw [bigSep_eq_bigSepL_of_eq [main_arg1, main_v3, main_v1, main_v4] (by decide) (by decide), bigSep_W2]
    have hs : ∀ w : Fin cfg2.W, (cfg2.win w).arr.view.set = Finset.univ := fun w => (arr_whole2 w).set_eq_univ
    rw [hs 0, hs 1, hs 3, hs 4]
    beta_reduce
    have a0 : (dat2 V c).arrAt 0 cfg2.N = V' main_arg1 :=
      ((dat2 V c).arrAt_in 0 rfl _).trans ((A_eq2 V c 0).trans (hrest main_arg1 (by decide)).symm)
    have a1 : (dat2 V c).arrAt 1 cfg2.N = V' main_v3 :=
      ((dat2 V c).arrAt_in 1 rfl _).trans ((A_eq2 V c 1).trans (hrest main_v3 (by decide)).symm)
    have a2 : (dat2 V c).arrAt 2 cfg2.N = V' main_v3 :=
      ((dat2 V c).arrAt_in 2 rfl _).trans ((A_eq2 V c 2).trans (hrest main_v3 (by decide)).symm)
    have a3 : (dat2 V c).arrAt 3 cfg2.N = V' main_v1 :=
      ((dat2 V c).arrAt_in 3 rfl _).trans ((A_eq2 V c 3).trans (hrest main_v1 (by decide)).symm)
    have a4 : (dat2 V c).arrAt 4 cfg2.N = V' main_v4 := hout.symm
    rw [a0, a1, a2, a3, a4]
    have eR : (bigSepL [main_arg1, main_v3, main_v1, main_v4] fun b => ((c : Thread nD τ).loc b ↦{fullShare} V' b : sProp 𝕄))
        = iprop(((c : Thread nD τ).loc main_arg1 ↦{fullShare} V' main_arg1) ∗ ((c : Thread nD τ).loc main_v3 ↦{fullShare} V' main_v3) ∗ ((c : Thread nD τ).loc main_v1 ↦{fullShare} V' main_v1) ∗ ((c : Thread nD τ).loc main_v4 ↦{fullShare} V' main_v4)) := rfl
    have e0 : (View.loc (c : Thread nD τ) (cfg2.win 0).arr.view ↦{(dat2 V c).share 0} V' main_arg1 : sProp 𝕄)
        = ((c : Thread nD τ).loc main_arg1 ↦{fullShare} V' main_arg1) := rfl
    have e1 : (View.loc (c : Thread nD τ) (cfg2.win 1).arr.view ↦{(dat2 V c).share 1} V' main_v3 : sProp 𝕄)
        = ((c : Thread nD τ).loc main_v3 ↦{fullShare.left} V' main_v3) := rfl
    have e2 : (View.loc (c : Thread nD τ) (cfg2.win 2).arr.view ↦{(dat2 V c).share 2} V' main_v3 : sProp 𝕄)
        = ((c : Thread nD τ).loc main_v3 ↦{fullShare.right} V' main_v3) := rfl
    have e3 : (View.loc (c : Thread nD τ) (cfg2.win 3).arr.view ↦{(dat2 V c).share 3} V' main_v1 : sProp 𝕄)
        = ((c : Thread nD τ).loc main_v1 ↦{fullShare} V' main_v1) := rfl
    have e4 : (View.loc (c : Thread nD τ) (cfg2.win 4).arr.view ↦{(dat2 V c).share 4} V' main_v4 : sProp 𝕄)
        = ((c : Thread nD τ).loc main_v4 ↦{fullShare} V' main_v4) := rfl
    rw [eR, e0, e1, e2, e3, e4]
    have hj : (iprop(((c : Thread nD τ).loc main_v3 ↦{fullShare.left} V' main_v3) ∗ ((c : Thread nD τ).loc main_v3 ↦{fullShare.right} V' main_v3)) : sProp 𝕄)
        ⊢ ((c : Thread nD τ).loc main_v3 ↦{fullShare} V' main_v3) :=
      (pointsTo_share (PosShare.mem_left_op_right fullShare)).2
    iintro ⟨G0, G1, G2, G3, G4⟩
    ihave Hj := hj $$ [G1 G2]
    · isplitl [G1] <;> iassumption
    isplitl [G0]
    · iexact G0
    isplitl [Hj]
    · iexact Hj
    isplitl [G3]
    · iexact G3
    iexact G4
  · unfold Pipeline.unscopedRest
    exact bigSep_congr fun b hb => by
      rw [hrest b (fun e => (Finset.mem_sdiff.mp hb).2 (e ▸ Finset.mem_image.mpr ⟨4, Finset.mem_univ _, rfl⟩))]

end

end Cert.KernelIdeal.Hand

end
-- ==== Proof.IdealHostBias.lean ====
/-
  The two bias rows the program reads, and the arrays its first two steps leave alone.

  Before its three launches the program reshapes the bias vectors, of lengths 32 and 16, into rows of shapes [1, 32]
  and [1, 16]. Entry (0, q) of such a row sits at row-major position `0 * n + q = q`, where entry `q` of the vector
  sits, and a reshape keeps row-major positions: the row at (0, q) is the vector at `q`. The two reshapes write the
  two rows and nothing else, so every other array, the six arguments among them, holds afterwards what it held before.
-/
import proofs.«168926_g35270271435312_cont_8to1_b_957_4_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.HostBias

open Cert.KernelIdeal Cert.KernelIdeal.Gen Idealize.ShloMosaic Idealize.ShloMosaic.TcCoe Idealize.ShloMosaic.ValueIdx
  Idealize.ShloMosaic.StableHlo

/-- A vector of length `n` cast to a `[1, n]` row reads, at `(u, q)`, the vector at `q`. -/
theorem row_apply {α : Type} {n : ℕ} (x : (⟨1, ![n]⟩ : Shape).Idx → α)
    (h : (⟨1, ![n]⟩ : Shape).ShapeCasts ⟨2, ![1, n]⟩) (u : Fin 1) (q : Fin n) :
    shapeCast ⟨2, ![1, n]⟩ x h (ix2 u q) = x (ix1 q) :=
  shapeCast_apply x h _ _ (by
    have hu : u.val = 0 := by omega
    rw [Shape.rowMajor_val_one, Shape.rowMajor_val_two]
    show q.val = u.val * n + q.val
    rw [hu, Nat.zero_mul, Nat.zero_add])

/-- After the two reshapes the first bias row, at `(0, q)`, is the first bias vector at `q`. -/
theorem bias0 (W : Valuation τ sig (Elt Ideal)) (q : Fin 32) :
    (StableHlo.after (hostOps0 (F := Ideal)) W (Proc.devRef .tc main_v0) : S1x32.Idx → EReal) (ix2 (0 : Fin 1) q)
      = (W (Proc.devRef .tc main_arg3) : S32.Idx → EReal) (ix1 q) := by
  after_results
  exact row_apply _ _ 0 q

/-- After the two reshapes the second bias row, at `(0, q)`, is the second bias vector at `q`. -/
theorem bias1 (W : Valuation τ sig (Elt Ideal)) (q : Fin 16) :
    (StableHlo.after (hostOps0 (F := Ideal)) W (Proc.devRef .tc main_v1) : S1x16.Idx → EReal) (ix2 (0 : Fin 1) q)
      = (W (Proc.devRef .tc main_arg5) : S16.Idx → EReal) (ix1 q) := by
  after_results
  exact row_apply _ _ 0 q

/-- An array that is neither of the two rows holds after the reshapes what it held before. -/
theorem keep {F : FTy → Type} [FloatOps F] (W : Valuation τ sig (Elt F)) (r : Ref sig .tc) (h0 : r ≠ main_v0)
    (h1 : r ≠ main_v1) :
    StableHlo.after (hostOps0 (F := F)) W (Proc.devRef .tc r) = W (Proc.devRef .tc r) := by
  simp only [after_cons, after_nil]
  rw [reshape_result_ne _ _ _ _ _ _ _ h1, reshape_result_ne _ _ _ _ _ _ _ h0]

theorem keep_arg0 {F : FTy → Type} [FloatOps F] (W : Valuation τ sig (Elt F)) :
    StableHlo.after (hostOps0 (F := F)) W (Proc.devRef .tc main_arg0) = W (Proc.devRef .tc main_arg0) :=
  keep W main_arg0 (by decide) (by decide)

theorem keep_arg1 {F : FTy → Type} [FloatOps F] (W : Valuation τ sig (Elt F)) :
    StableHlo.after (hostOps0 (F := F)) W (Proc.devRef .tc main_arg1) = W (Proc.devRef .tc main_arg1) :=
  keep W main_arg1 (by decide) (by decide)

theorem keep_arg2 {F : FTy → Type} [FloatOps F] (W : Valuation τ sig (Elt F)) :
    StableHlo.after (hostOps0 (F := F)) W (Proc.devRef .tc main_arg2) = W (Proc.devRef .tc main_arg2) :=
  keep W main_arg2 (by decide) (by decide)

theorem keep_arg3 {F : FTy → Type} [FloatOps F] (W : Valuation τ sig (Elt F)) :
    StableHlo.after (hostOps0 (F := F)) W (Proc.devRef .tc main_arg3) = W (Proc.devRef .tc main_arg3) :=
  keep W main_arg3 (by decide) (by decide)

theorem keep_arg4 {F : FTy → Type} [FloatOps F] (W : Valuation τ sig (Elt F)) :
    StableHlo.after (hostOps0 (F := F)) W (Proc.devRef .tc main_arg4) = W (Proc.devRef .tc main_arg4) :=
  keep W main_arg4 (by decide) (by decide)

theorem keep_arg5 {F : FTy → Type} [FloatOps F] (W : Valuation τ sig (Elt F)) :
    StableHlo.after (hostOps0 (F := F)) W (Proc.devRef .tc main_arg5) = W (Proc.devRef .tc main_arg5) :=
  keep W main_arg5 (by decide) (by decide)

end Cert.KernelIdeal.HostBias

end
-- ==== Proof.IdealRun.lean ====
import proofs.«168926_g35270271435312_cont_8to1_b_957_4_alg».proof.Proof.Gen.KernelIdeal.Launch
import proofs.«168926_g35270271435312_cont_8to1_b_957_4_alg».proof.Proof.Gen.KernelIdeal.Skeleton
import proofs.«168926_g35270271435312_cont_8to1_b_957_4_alg».proof.Proof.Gen.KernelIdeal.Points
import proofs.«168926_g35270271435312_cont_8to1_b_957_4_alg».proof.Proof.IdealVals
import proofs.«168926_g35270271435312_cont_8to1_b_957_4_alg».proof.Proof.IdealShare
import proofs.«168926_g35270271435312_cont_8to1_b_957_4_alg».proof.Proof.IdealHostBias
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the two reshapes of the biases, then the three kernels, from the launch to the return

  @main is four segments: the host stretch of the two reshapes, then one kernel region each, every one entered from the
  buffer contents the step before it left. The launch theorem for a list of segments gives termination without a fault
  and the final memory at the last boundary's contents. -/

variable (m : (ℓ : Loc nD τ sig) → Buf (Elt F) ℓ) (ρ : Dev nD → PrngReg)

/-- At the first kernel's exit each of its arrays holds what the pipeline leaves, and every other buffer what it held. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (V2_of_ne m ρ c main_arg0 (by decide)).symm)
  | ⟨1, _⟩ => exact ((dat0 (V1 m ρ) c).arrAt_in 1 rfl _).trans ((A_eq0 (V1 m ρ) c 1).trans (V2_of_ne m ρ c main_arg2 (by decide)).symm)
  | ⟨2, _⟩ => exact (V2_same m ρ c).symm
theorem hrest0 (c : Dev nD) : ∀ b, b ∉ Finset.univ.image (Pipeline.arrRef spec0) → V2 m ρ c b = V1 m ρ c b :=
  fun b hb => V2_of_ne m ρ c b fun e => hb (e ▸ Finset.mem_image.mpr ⟨2, Finset.mem_univ _, rfl⟩)

/-! ## No step writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := Cert.KernelIdeal.HostBias.keep_arg0 (W0 m ρ c)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := Cert.KernelIdeal.HostBias.keep_arg1 (W0 m ρ c)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := Cert.KernelIdeal.HostBias.keep_arg2 (W0 m ρ c)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := Cert.KernelIdeal.HostBias.keep_arg3 (W0 m ρ c)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := Cert.KernelIdeal.HostBias.keep_arg4 (W0 m ρ c)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := Cert.KernelIdeal.HostBias.keep_arg5 (W0 m ρ c)
    _ = m ((c : Thread nD τ).loc main_arg5) := rfl

/-! ## The proof data family and the thread state -/

abbrev adm : (p : Fin 3) → (pcfgs (F := F) p).Adm := fun p => (cfgs p).toPCfg_adm
/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The kernel region 0 over the thread state "every unscoped buffer at the boundary's contents, the generator register at
    some state, nothing owed": its arrays taken out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The kernel region 1 over the thread state "every unscoped buffer at the boundary's contents, the generator register at
    some state, nothing owed": its arrays taken out of the unscoped buffers at entry and put back at the exit contents. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (V3_same m ρ c) (fun b hb => V3_of_ne m ρ c b hb)
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- The kernel region 2 over the thread state "every unscoped buffer at the boundary's contents, the generator register at
    some state, nothing owed": its arrays taken out of the unscoped buffers at entry and put back at the exit contents. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := entry2 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (V3 m ρ) c (V4 m ρ c) (V4_same m ρ c) (fun b hb => V4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha]
        · iexact Ha
        · iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c)⟩)
    (run_all m ρ)

/-- The run with the result named: the last kernel's result array ends at what its write-backs leave. -/
theorem run_value : θ_run defs (onTc (τ := τ) (main (F := F))) ⟨m, fun _ => 0, ρ⟩ (fun r => ∀ c : Dev nD,
      r.2.mem ((c.tc : Thread nD τ).loc main_v4) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4 (by decide))).trans (V4_same m ρ c),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c)⟩)
    (run_all m ρ)

end Cert.KernelIdeal.Hand

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Spec.lean ====
/-
  The network both programs compute, on the extended reals.

  A graph-convolution layer with self loops sends a feature matrix `s` to `a·s + s + b`: row `p` of the result is the
  adjacency row `a p` times `s`, plus row `p` of `s` itself (the self loop), plus the bias row. Every later step is
  row-wise: centre the row by its mean over the 32 hidden units, divide by the Euclidean norm of the centred row plus a
  small constant, clamp at zero, project by `w` (first layer); or subtract the row's maximum and the logarithm of the
  sum of exponentials (second layer: the logarithm of the softmax). So a block of `R` rows of the result needs only those
  `R` rows of the adjacency, those rows of `s`, and the whole of `s`: the definitions take the number of rows `R` as a
  parameter, and a block of rows and the whole array are the same definition at two values of `R`.
-/
import Idealize.ShloMosaic.PureOps.Ideal
import Idealize.ShloMosaic.Lib.ValueIdx
import proofs.«168926_g35270271435312_cont_8to1_b_957_4_alg».proof.Proof.LibPlainDot

noncomputable section

namespace Cert.Spec

open Idealize.ShloMosaic Idealize.ShloMosaic.ValueIdx Cert.LibPlainDot

/-- An `M` by `N` array of extended reals. -/
abbrev Mat (M N : ℕ) : Type := (⟨2, ![M, N]⟩ : Shape).Idx → EReal

/-- The constant added to the norm, the number of hidden units as a float, and the float minus infinity. -/
def eps : EReal := Ideal.ofBits .f32 0x358637BD#32
def width : EReal := Ideal.ofBits .f32 0x42000000#32
def negInf : EReal := Ideal.ofBits .f32 0xFF800000#32

/-- Entry `(p, q)` of `a·s + sr + b`: `a` holds `R` adjacency rows, `sr` the same `R` rows of `s`. -/
def conv {R K N : ℕ} (a : Mat R K) (s : Mat K N) (sr : Mat R N) (b : Fin N → EReal) (p : Fin R) (q : Fin N) : EReal :=
  (rowsTimes a s (ix2 p q) + sr (ix2 p q)) + b q

/-- The mean of a row of 32 hidden units. -/
def rowMean {N : ℕ} (h : Fin N → EReal) : EReal := Ideal.div (∑ q : Fin N, h q) width
/-- The row less its mean. -/
def centred {N : ℕ} (h : Fin N → EReal) (q : Fin N) : EReal := h q - rowMean h
/-- The Euclidean norm of the centred row. -/
def rowNorm {N : ℕ} (h : Fin N → EReal) : EReal := Ideal.sqrt (∑ q : Fin N, centred h q * centred h q)
/-- The centred row over its norm plus `eps`, clamped at zero. -/
def pairNormRelu {N : ℕ} (h : Fin N → EReal) (q : Fin N) : EReal := max (Ideal.div (centred h q) (rowNorm h + eps)) 0

/-- The hidden activations of `R` rows. -/
def hidden {R K : ℕ} (a : Mat R K) (s : Mat K 32) (sr : Mat R 32) (b : Fin 32 → EReal) : Mat R 32 :=
  fun j => pairNormRelu (conv a s sr b ⟨(j 0).val, idx2_lt0 j⟩) ⟨(j 1).val, idx2_lt1 j⟩
/-- The first layer on `R` rows: the hidden activations projected by `w`. -/
def layer1 {R K : ℕ} (a : Mat R K) (s : Mat K 32) (sr : Mat R 32) (b : Fin 32 → EReal) (w : Mat 32 16) : Mat R 16 :=
  rowsTimes (hidden a s sr b) w

/-- The maximum of a row, from minus infinity. -/
def rowMax {N : ℕ} (z : Fin N → EReal) : EReal := (Finset.univ : Finset (Fin N)).fold max negInf z
/-- The row less its maximum. -/
def shifted {N : ℕ} (z : Fin N → EReal) (q : Fin N) : EReal := z q - rowMax z
/-- The logarithm of the softmax of a row. -/
def logSoftmax {N : ℕ} (z : Fin N → EReal) (q : Fin N) : EReal :=
  shifted z q - Ideal.log (∑ q' : Fin N, Ideal.exp (shifted z q'))
/-- The second layer on `R` rows. -/
def layer2 {R K : ℕ} (a : Mat R K) (s : Mat K 16) (sr : Mat R 16) (b : Fin 16 → EReal) : Mat R 16 :=
  fun j => logSoftmax (conv a s sr b ⟨(j 0).val, idx2_lt0 j⟩) ⟨(j 1).val, idx2_lt1 j⟩

/-- The whole network on the 10000 nodes. -/
def support (x : Mat 10000 128) (w0 : Mat 128 32) : Mat 10000 32 := rowsTimes x w0
def support2 (x : Mat 10000 128) (adj : Mat 10000 10000) (w0 : Mat 128 32) (b0 : Fin 32 → EReal) (w1 : Mat 32 16) : Mat 10000 16 :=
  layer1 adj (support x w0) (support x w0) b0 w1
def out (x : Mat 10000 128) (adj : Mat 10000 10000) (w0 : Mat 128 32) (b0 : Fin 32 → EReal) (w1 : Mat 32 16)
    (b1 : Fin 16 → EReal) : Mat 10000 16 :=
  layer2 adj (support2 x adj w0 b0 w1) (support2 x adj w0 b0 w1) b1

end Cert.Spec

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.Payloads.lean ====
/-
  The three bodies of the network, read at an index on the extended reals.

  Each body computes its block of rows from pure values: a product accumulated into zero; then, for the two layers,
  the rows of `s` and the bias row added, and a row-wise tail. Every step of a tail is either entry by entry, or a
  reduction along the row (a sum, or a maximum from minus infinity) whose result is kept as a column and broadcast back
  over the row. Read at `(p, q)`, an entry-by-entry step reads its operands at `(p, q)`, the reduction reads the whole of
  row `p`, and the broadcast column reads its entry of row `p`: so each tail at `(p, q)` is the specification's row-wise
  function applied to row `p` of the pre-activation, at `q`. The plain products are `rowsTimes`.
-/
import Idealize.ShloMosaic.Lib.ValueLayout
import proofs.«168926_g35270271435312_cont_8to1_b_957_4_alg».proof.Proof.Gen.KernelIdeal.Skeleton
import proofs.«168926_g35270271435312_cont_8to1_b_957_4_alg».proof.Proof.Spec
import proofs.«168926_g35270271435312_cont_8to1_b_957_4_alg».proof.Proof.LibPlainDot
import proofs.«168926_g35270271435312_cont_8to1_b_957_4_alg».proof.Proof.LibColumns

noncomputable section

namespace Cert.KernelIdeal.Payloads

open Cert.KernelIdeal Cert.KernelIdeal.Gen Idealize.ShloMosaic Idealize.ShloMosaic.ValueIdx

/-! ## The feature product -/

theorem pay0_eq (v0 : Vec Ideal S10000x128 .f32) (v1 : Vec Ideal S128x32 .f32) :
    k0_pay1 (F := Ideal) v0 v1 = Cert.Spec.support v0 v1 :=
  Cert.LibPlainDot.matmul_zero_plain none v0 v1

/-! ## Reductions along a row, and a column of row values read at an index -/

/-- The index of the `[a, b]` array over row `p` whose coordinate on the reduced axis is `k` is `(p, k)`. -/
theorem lift_row {a b : ℕ} (h : Shape.Reduces ⟨2, ![a, b]⟩ [1] ⟨1, ![a]⟩) (p : Fin a) (k : Fin b) :
    h.lift (ix1 p) k = ix2 p k :=
  funext fun c => Fin.ext (by match c with | ⟨0, _⟩ => rfl | ⟨1, _⟩ => rfl)

/-- The sum along axis 1 of an `[a, b]` array, at row `p`, is the sum of row `p`. -/
theorem rowSum_apply {a b : ℕ} (x : FVec Ideal ⟨2, ![a, b]⟩ .f32) (h : Shape.Reduces ⟨2, ![a, b]⟩ [1] ⟨1, ![a]⟩)
    (hφ : FKind.Formats .f32) (hacc : (0x00000000#32 : BitVec FTy.f32.bits) = FKind.add.neutral .f32 hφ) (p : Fin a) :
    multiReduction (F := Ideal) .add [1] ⟨1, ![a]⟩ x 0x00000000#32 h hφ hacc (ix1 p) = ∑ q : Fin b, x (ix2 p q) :=
  (Ideal.multiReduction_add_single x _ h hφ hacc (ix1 p)).trans
    (Finset.sum_congr rfl fun k _ => congrArg x (lift_row h p k))

/-- The maximum along axis 1 of an `[a, b]` array from minus infinity, at row `p`, is the maximum of row `p`. -/
theorem rowMax_apply {a b : ℕ} (x : FVec Ideal ⟨2, ![a, b]⟩ .f32) (h : Shape.Reduces ⟨2, ![a, b]⟩ [1] ⟨1, ![a]⟩)
    (hφ : FKind.Formats .f32) (hacc : (0xFF800000#32 : BitVec FTy.f32.bits) = FKind.maximumf.neutral .f32 hφ) (p : Fin a) :
    multiReduction (F := Ideal) .maximumf [1] ⟨1, ![a]⟩ x 0xFF800000#32 h hφ hacc (ix1 p)
      = Cert.Spec.rowMax fun q : Fin b => x (ix2 p q) :=
  (Ideal.multiReduction_maximumf_single x _ h hφ hacc (ix1 p)).trans
    (congrArg (Finset.fold max Cert.Spec.negInf · (Finset.univ : Finset (Fin b)))
      (funext fun k => congrArg x (lift_row h p k)))

/-- A vector of row values cast to a column reads, at `(p, 0)`, the value of row `p`. -/
theorem col_apply {a : ℕ} (r : FVec Ideal ⟨1, ![a]⟩ .f32) (hc : Shape.ShapeCasts ⟨1, ![a]⟩ ⟨2, ![a, 1]⟩) (p : Fin a) :
    shapeCast ⟨2, ![a, 1]⟩ r hc (ix2 p (0 : Fin 1)) = r (ix1 p) :=
  Cert.Columns.shapeCast_a_a1_apply r hc p 0

/-! ## The pre-activation `a·s + sr + b` -/

/-- The kernel's `a·s + sr + b`: the product accumulated into zero, plus the rows of `s`, plus the bias row broadcast
    over the rows. The three shape casts are identities. -/
def pre {R K N : ℕ} (v0 : FVec Ideal ⟨2, ![R, K]⟩ .f32) (v1 : FVec Ideal ⟨2, ![K, N]⟩ .f32)
    (v4 : FVec Ideal ⟨2, ![R, N]⟩ .f32) (v7 : FVec Ideal ⟨2, ![1, N]⟩ .f32)
    (h1 : Shape.ShapeCasts ⟨2, ![K, N]⟩ ⟨2, ![K, N]⟩) (h4 : Shape.ShapeCasts ⟨2, ![R, N]⟩ ⟨2, ![R, N]⟩)
    (h7 : Shape.ShapeCasts ⟨2, ![1, N]⟩ ⟨2, ![1, N]⟩) (hb : Shape.Broadcasts ⟨2, ![1, N]⟩ ⟨2, ![R, N]⟩) :
    FVec Ideal ⟨2, ![R, N]⟩ .f32 :=
  addf (addf (matmul (DotDims.plain R K N) none v0 (shapeCast ⟨2, ![K, N]⟩ v1 h1) (constant ⟨2, ![R, N]⟩ .f32 0x00000000#32))
    (shapeCast ⟨2, ![R, N]⟩ v4 h4)) (broadcastTo ⟨2, ![R, N]⟩ (shapeCast ⟨2, ![1, N]⟩ v7 h7) hb)

/-- Entry `(p, q)` of it is the specification's `conv`. -/
theorem pre_apply {R K N : ℕ} (v0 : FVec Ideal ⟨2, ![R, K]⟩ .f32) (v1 : FVec Ideal ⟨2, ![K, N]⟩ .f32)
    (v4 : FVec Ideal ⟨2, ![R, N]⟩ .f32) (v7 : FVec Ideal ⟨2, ![1, N]⟩ .f32)
    (h1 : Shape.ShapeCasts ⟨2, ![K, N]⟩ ⟨2, ![K, N]⟩) (h4 : Shape.ShapeCasts ⟨2, ![R, N]⟩ ⟨2, ![R, N]⟩)
    (h7 : Shape.ShapeCasts ⟨2, ![1, N]⟩ ⟨2, ![1, N]⟩) (hb : Shape.Broadcasts ⟨2, ![1, N]⟩ ⟨2, ![R, N]⟩)
    (p : Fin R) (q : Fin N) :
    pre v0 v1 v4 v7 h1 h4 h7 hb (ix2 p q) = Cert.Spec.conv v0 v1 v4 (fun q' => v7 (ix2 (0 : Fin 1) q')) p q := by
  unfold pre
  rw [shapeCast_self, shapeCast_self, shapeCast_self]
  show matmul (DotDims.plain R K N) none v0 v1 (constant ⟨2, ![R, N]⟩ .f32 0x00000000#32) (ix2 p q) + v4 (ix2 p q)
      + broadcastTo ⟨2, ![R, N]⟩ v7 hb (ix2 p q) = _
  rw [broadcastTo_1b_ab_apply v7 hb p q]
  exact congrArg (· + v4 (ix2 p q) + v7 (ix2 (0 : Fin 1) q))
    (congrFun (Cert.LibPlainDot.matmul_zero_plain none v0 v1) (ix2 p q))

/-- Row `p` of it is row `p` of `conv`. -/
theorem pre_row {R K N : ℕ} (v0 : FVec Ideal ⟨2, ![R, K]⟩ .f32) (v1 : FVec Ideal ⟨2, ![K, N]⟩ .f32)
    (v4 : FVec Ideal ⟨2, ![R, N]⟩ .f32) (v7 : FVec Ideal ⟨2, ![1, N]⟩ .f32)
    (h1 : Shape.ShapeCasts ⟨2, ![K, N]⟩ ⟨2, ![K, N]⟩) (h4 : Shape.ShapeCasts ⟨2, ![R, N]⟩ ⟨2, ![R, N]⟩)
    (h7 : Shape.ShapeCasts ⟨2, ![1, N]⟩ ⟨2, ![1, N]⟩) (hb : Shape.Broadcasts ⟨2, ![1, N]⟩ ⟨2, ![R, N]⟩) (p : Fin R) :
    (fun q : Fin N => pre v0 v1 v4 v7 h1 h4 h7 hb (ix2 p q)) = Cert.Spec.conv v0 v1 v4 (fun q' => v7 (ix2 (0 : Fin 1) q')) p :=
  funext fun q => pre_apply v0 v1 v4 v7 h1 h4 h7 hb p q

/-! ## The second layer: the logarithm of the softmax of each row -/

/-- The row maxima as a column broadcast over the rows, subtracted: the kernel's shifted rows. -/
def shift2 (x : FVec Ideal S400x16 .f32) : FVec Ideal S400x16 .f32 :=
  subf x (broadcastTo S400x16 (shapeCast S400x1
    (multiReduction (F := Ideal) .maximumf [1] S400 x 0xFF800000#32 reduces_S400x16_S400 (.inl rfl) rfl) shapeCasts_S400_S400x1)
    broadcasts_S400x1_S400x16)

theorem shift2_apply (x : FVec Ideal S400x16 .f32) (p : Fin 400) (q : Fin 16) :
    shift2 x (ix2 p q) = Cert.Spec.shifted (fun q' : Fin 16 => x (ix2 p q')) q := by
  show x (ix2 p q) - broadcastTo S400x16 _ broadcasts_S400x1_S400x16 (ix2 p q) = _
  rw [Cert.Columns.broadcastTo_a1_ab_apply _ broadcasts_S400x1_S400x16 p q, col_apply,
    rowMax_apply x reduces_S400x16_S400 (.inl rfl) rfl p]
  rfl

/-- The kernel's second tail: the shifted rows less the logarithm of the sum of their exponentials. -/
def tail2 (x : FVec Ideal S400x16 .f32) : FVec Ideal S400x16 .f32 :=
  subf (shift2 x) (broadcastTo S400x16 (log (shapeCast S400x1
    (multiReduction (F := Ideal) .add [1] S400 (exp (shift2 x)) 0x00000000#32 reduces_S400x16_S400 (.inl rfl) rfl)
    shapeCasts_S400_S400x1)) broadcasts_S400x1_S400x16)

theorem tail2_apply (x : FVec Ideal S400x16 .f32) (p : Fin 400) (q : Fin 16) :
    tail2 x (ix2 p q) = Cert.Spec.logSoftmax (fun q' : Fin 16 => x (ix2 p q')) q := by
  show shift2 x (ix2 p q) - broadcastTo S400x16 _ broadcasts_S400x1_S400x16 (ix2 p q) = _
  rw [Cert.Columns.broadcastTo_a1_ab_apply _ broadcasts_S400x1_S400x16 p q]
  show shift2 x (ix2 p q) - Ideal.log (shapeCast S400x1 _ shapeCasts_S400_S400x1 (ix2 p (0 : Fin 1))) = _
  rw [col_apply, rowSum_apply (exp (shift2 x)) reduces_S400x16_S400 (.inl rfl) rfl p, shift2_apply]
  unfold Cert.Spec.logSoftmax
  refine congrArg (fun t => Cert.Spec.shifted (fun q' : Fin 16 => x (ix2 p q')) q - Ideal.log t) ?_
  exact Finset.sum_congr rfl fun q' _ => congrArg Ideal.exp (shift2_apply x p q')

theorem pay2_eq (v0 : Vec Ideal S400x10000 .f32) (v1 : Vec Ideal S10000x16 .f32) (v4 : Vec Ideal S400x16 .f32)
    (v7 : Vec Ideal S1x16 .f32) :
    k2_pay1 (F := Ideal) v0 v1 v4 v7 = Cert.Spec.layer2 v0 v1 v4 (fun q => v7 (ix2 (0 : Fin 1) q)) := by
  funext j
  obtain ⟨p, q, rfl⟩ : ∃ (p : Fin 400) (q : Fin 16), j = ix2 p q := ⟨j 0, j 1, eq_ix2 j⟩
  show tail2 (pre v0 v1 v4 v7 shapeCasts_S10000x16_S10000x16 shapeCasts_S400x16_S400x16 shapeCasts_S1x16_S1x16
    broadcasts_S1x16_S400x16) (ix2 p q) = Cert.Spec.logSoftmax (Cert.Spec.conv v0 v1 v4 (fun q => v7 (ix2 (0 : Fin 1) q)) p) q
  rw [tail2_apply, pre_row]

/-! ## The first layer: centre each row, divide by its norm plus `eps`, clamp at zero, project -/

/-- The kernel's centred rows: the row sums over the width, as a column broadcast over the rows, subtracted. -/
def centre1 (x : FVec Ideal S400x32 .f32) : FVec Ideal S400x32 .f32 :=
  subf x (broadcastTo S400x32 (divf (shapeCast S400x1
    (multiReduction (F := Ideal) .add [1] S400 x 0x00000000#32 reduces_S400x32_S400 (.inl rfl) rfl) shapeCasts_S400_S400x1)
    (broadcast S400x1 (Scalar.ofBits .f32 0x42000000#32))) broadcasts_S400x1_S400x32)

theorem centre1_apply (x : FVec Ideal S400x32 .f32) (p : Fin 400) (q : Fin 32) :
    centre1 x (ix2 p q) = Cert.Spec.centred (fun q' : Fin 32 => x (ix2 p q')) q := by
  show x (ix2 p q) - broadcastTo S400x32 _ broadcasts_S400x1_S400x32 (ix2 p q) = _
  rw [Cert.Columns.broadcastTo_a1_ab_apply _ broadcasts_S400x1_S400x32 p q]
  show x (ix2 p q) - Ideal.div (shapeCast S400x1 _ shapeCasts_S400_S400x1 (ix2 p (0 : Fin 1)))
    (Ideal.ofBits .f32 0x42000000#32) = _
  rw [col_apply, rowSum_apply x reduces_S400x32_S400 (.inl rfl) rfl p]
  rfl

/-- The kernel's hidden activations: the centred rows over the square root of their sum of squares plus `eps`, the
    larger of that and zero. -/
def act1 (x : FVec Ideal S400x32 .f32) : FVec Ideal S400x32 .f32 :=
  maximumf (divf (centre1 x) (broadcastTo S400x32 (addf (sqrt (shapeCast S400x1
    (multiReduction (F := Ideal) .add [1] S400 (mulf (centre1 x) (centre1 x)) 0x00000000#32 reduces_S400x32_S400 (.inl rfl) rfl)
    shapeCasts_S400_S400x1)) (broadcast S400x1 (Scalar.ofBits .f32 0x358637BD#32))) broadcasts_S400x1_S400x32))
    (broadcast S400x32 (Scalar.ofBits .f32 0x00000000#32))

theorem act1_apply (x : FVec Ideal S400x32 .f32) (p : Fin 400) (q : Fin 32) :
    act1 x (ix2 p q) = Cert.Spec.pairNormRelu (fun q' : Fin 32 => x (ix2 p q')) q := by
  show max (Ideal.div (centre1 x (ix2 p q)) (broadcastTo S400x32 _ broadcasts_S400x1_S400x32 (ix2 p q)))
    (Ideal.ofBits .f32 0x00000000#32) = _
  rw [Cert.Columns.broadcastTo_a1_ab_apply _ broadcasts_S400x1_S400x32 p q, Ideal.ofBits_zero_f32]
  show max (Ideal.div (centre1 x (ix2 p q)) (Ideal.sqrt (shapeCast S400x1 _ shapeCasts_S400_S400x1 (ix2 p (0 : Fin 1)))
    + Ideal.ofBits .f32 0x358637BD#32)) 0 = _
  rw [col_apply, rowSum_apply (mulf (centre1 x) (centre1 x)) reduces_S400x32_S400 (.inl rfl) rfl p, centre1_apply]
  unfold Cert.Spec.pairNormRelu Cert.Spec.rowNorm
  refine congrArg (fun t => max (Ideal.div (Cert.Spec.centred (fun q' : Fin 32 => x (ix2 p q')) q)
    (Ideal.sqrt t + Cert.Spec.eps)) 0) ?_
  refine Finset.sum_congr rfl fun q' _ => ?_
  show centre1 x (ix2 p q') * centre1 x (ix2 p q') = _
  rw [centre1_apply]

/-- On the kernel's pre-activation they are the specification's hidden activations. -/
theorem act1_pre (v0 : FVec Ideal S400x10000 .f32) (v1 : FVec Ideal S10000x32 .f32) (v4 : FVec Ideal S400x32 .f32)
    (v7 : FVec Ideal S1x32 .f32) :
    act1 (pre v0 v1 v4 v7 shapeCasts_S10000x32_S10000x32 shapeCasts_S400x32_S400x32 shapeCasts_S1x32_S1x32
      broadcasts_S1x32_S400x32) = Cert.Spec.hidden v0 v1 v4 (fun q => v7 (ix2 (0 : Fin 1) q)) := by
  funext j
  obtain ⟨p, q, rfl⟩ : ∃ (p : Fin 400) (q : Fin 32), j = ix2 p q := ⟨j 0, j 1, eq_ix2 j⟩
  show act1 _ (ix2 p q) = Cert.Spec.pairNormRelu (Cert.Spec.conv v0 v1 v4 (fun q => v7 (ix2 (0 : Fin 1) q)) p) q
  rw [act1_apply, pre_row]

theorem pay1_eq (v0 : Vec Ideal S400x10000 .f32) (v1 : Vec Ideal S10000x32 .f32) (v4 : Vec Ideal S400x32 .f32)
    (v7 : Vec Ideal S1x32 .f32) (v27 : Vec Ideal S32x16 .f32) :
    k1_pay1 (F := Ideal) v0 v1 v4 v7 v27 = Cert.Spec.layer1 v0 v1 v4 (fun q => v7 (ix2 (0 : Fin 1) q)) v27 := by
  show matmul (DotDims.plain 400 32 16) none (act1 (pre v0 v1 v4 v7 shapeCasts_S10000x32_S10000x32
    shapeCasts_S400x32_S400x32 shapeCasts_S1x32_S1x32 broadcasts_S1x32_S400x32)) v27
    (constant S400x16 .f32 0x00000000#32) = _
  exact (Cert.LibPlainDot.matmul_zero_plain none _ v27).trans
    (congrArg (fun h => Cert.LibPlainDot.rowsTimes h v27) (act1_pre v0 v1 v4 v7))

end Cert.KernelIdeal.Payloads

end
-- ==== Proof.SpecRows.lean ====
/-
  A block of rows of a layer is the layer of that block of rows.

  After the product `a·s`, every step of a layer acts on one row at a time: the self loop and the bias are added entry
  by entry, and the mean, the norm, the clamp, the maximum and the sum of exponentials are all taken along the row. So
  if `ab` holds rows `o, o + 1, …, o + R - 1` of the adjacency `a` and `srb` the same rows of `sr`, row `y` of the layer
  on the block is row `o + y` of the layer on the whole array. The first layer ends with a product by `w`, whose rows
  again depend on their own row of the left operand only.
-/
import proofs.«168926_g35270271435312_cont_8to1_b_957_4_alg».proof.Proof.Spec

noncomputable section

namespace Cert.Spec

open Idealize.ShloMosaic Idealize.ShloMosaic.ValueIdx Cert.LibPlainDot

/-- Row `y` of `ab·s + srb + b` is row `o + y` of `a·s + sr + b`. -/
theorem conv_rows {M R K N : ℕ} (o : ℕ) (a : Mat M K) (ab : Mat R K) (s : Mat K N) (sr : Mat M N) (srb : Mat R N)
    (b : Fin N → EReal)
    (ha : ∀ (y : Fin R) (k : Fin K) (h : o + y.val < M), ab (ix2 y k) = a (ix2 (⟨o + y.val, h⟩ : Fin M) k))
    (hs : ∀ (y : Fin R) (q : Fin N) (h : o + y.val < M), srb (ix2 y q) = sr (ix2 (⟨o + y.val, h⟩ : Fin M) q))
    (y : Fin R) (h : o + y.val < M) : conv ab s srb b y = conv a s sr b (⟨o + y.val, h⟩ : Fin M) := by
  funext q
  unfold conv
  rw [rowsTimes_rows o a ab s ha (ix2 y q) (ix2 (⟨o + y.val, h⟩ : Fin M) q) rfl rfl, hs y q h]

/-- Row `y` of the hidden activations of the block is row `o + y` of the hidden activations of the whole array. -/
theorem hidden_rows {M R K : ℕ} (o : ℕ) (a : Mat M K) (ab : Mat R K) (s : Mat K 32) (sr : Mat M 32) (srb : Mat R 32)
    (b : Fin 32 → EReal)
    (ha : ∀ (y : Fin R) (k : Fin K) (h : o + y.val < M), ab (ix2 y k) = a (ix2 (⟨o + y.val, h⟩ : Fin M) k))
    (hs : ∀ (y : Fin R) (q : Fin 32) (h : o + y.val < M), srb (ix2 y q) = sr (ix2 (⟨o + y.val, h⟩ : Fin M) q))
    (y : Fin R) (k : Fin 32) (h : o + y.val < M) :
    hidden ab s srb b (ix2 y k) = hidden a s sr b (ix2 (⟨o + y.val, h⟩ : Fin M) k) := by
  show pairNormRelu (conv ab s srb b y) k = pairNormRelu (conv a s sr b (⟨o + y.val, h⟩ : Fin M)) k
  rw [conv_rows o a ab s sr srb b ha hs y h]

theorem layer1_rows {M R K : ℕ} (o : ℕ) (a : Mat M K) (ab : Mat R K) (s : Mat K 32) (sr : Mat M 32) (srb : Mat R 32)
    (b : Fin 32 → EReal) (w : Mat 32 16)
    (ha : ∀ (y : Fin R) (k : Fin K) (h : o + y.val < M), ab (ix2 y k) = a (ix2 (⟨o + y.val, h⟩ : Fin M) k))
    (hs : ∀ (y : Fin R) (q : Fin 32) (h : o + y.val < M), srb (ix2 y q) = sr (ix2 (⟨o + y.val, h⟩ : Fin M) q))
    (y : (⟨2, ![R, 16]⟩ : Shape).Idx) (i : (⟨2, ![M, 16]⟩ : Shape).Idx) (h0 : (i 0).val = o + (y 0).val)
    (h1 : (i 1).val = (y 1).val) :
    layer1 ab s srb b w y = layer1 a s sr b w i :=
  rowsTimes_rows o (hidden a s sr b) (hidden ab s srb b) w
    (fun y' k h => hidden_rows o a ab s sr srb b ha hs y' k h) y i h0 h1

theorem layer2_rows {M R K : ℕ} (o : ℕ) (a : Mat M K) (ab : Mat R K) (s : Mat K 16) (sr : Mat M 16) (srb : Mat R 16)
    (b : Fin 16 → EReal)
    (ha : ∀ (y : Fin R) (k : Fin K) (h : o + y.val < M), ab (ix2 y k) = a (ix2 (⟨o + y.val, h⟩ : Fin M) k))
    (hs : ∀ (y : Fin R) (q : Fin 16) (h : o + y.val < M), srb (ix2 y q) = sr (ix2 (⟨o + y.val, h⟩ : Fin M) q))
    (y : (⟨2, ![R, 16]⟩ : Shape).Idx) (i : (⟨2, ![M, 16]⟩ : Shape).Idx) (h0 : (i 0).val = o + (y 0).val)
    (h1 : (i 1).val = (y 1).val) :
    layer2 ab s srb b y = layer2 a s sr b i := by
  have hM : o + (y 0).val < M := h0 ▸ idx2_lt0 i
  have e0 : (⟨o + (y 0).val, hM⟩ : Fin M) = ⟨(i 0).val, idx2_lt0 i⟩ := Fin.ext h0.symm
  have e1 : (⟨(y 1).val, idx2_lt1 y⟩ : Fin 16) = ⟨(i 1).val, idx2_lt1 i⟩ := Fin.ext h1.symm
  unfold layer2
  rw [conv_rows o a ab s sr srb b ha hs ⟨(y 0).val, idx2_lt0 y⟩ hM, e0, e1]

end Cert.Spec

end
-- ==== Proof.IdealValue0.lean ====
/-
  The feature product on the whole array.

  The first body runs at one grid point, and each of its three windows has one block, the whole array: reading a block
  at an index is reading the array there. So the block the point writes back is the specification's product of the two
  arrays, read through the identity, and that one block covers the result.
-/
import proofs.«168926_g35270271435312_cont_8to1_b_957_4_alg».proof.Proof.IdealRegion0
import proofs.«168926_g35270271435312_cont_8to1_b_957_4_alg».proof.Proof.Payloads
import proofs.«168926_g35270271435312_cont_8to1_b_957_4_alg».proof.Proof.SpecRows
import Idealize.ShloMosaic.Lib.Pipeline.Value

set_option maxRecDepth 16384

noncomputable section

namespace Cert.KernelIdeal.HandValue

open Cert.KernelIdeal Cert.KernelIdeal.Gen Cert.KernelIdeal.Hand Cert.KernelIdeal.Payloads
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The feature matrix's window has one block, the whole array. -/
theorem blk0_0 (c : Dev nD) (t : Fin cfg0.N) : iblk0 V c 0 t = (V c main_arg0 : S10000x128.Idx → Elt Ideal .f32) := by
  funext y
  unfold iblk0
  rw [View.read_apply]
  show V c main_arg0 _ = V c main_arg0 y
  refine congrArg (V c main_arg0) (funext fun a => Fin.ext ?_)
  match a with
  | ⟨0, _⟩ => show 0 * 10000 + 1 * (y 0).val = (y 0).val; omega
  | ⟨1, _⟩ => show 0 * 128 + 1 * (y 1).val = (y 1).val; omega

/-- So has the weight matrix's. -/
theorem blk0_1 (c : Dev nD) (t : Fin cfg0.N) : iblk0 V c 1 t = (V c main_arg2 : S128x32.Idx → Elt Ideal .f32) := by
  funext y
  unfold iblk0
  rw [View.read_apply]
  show V c main_arg2 _ = V c main_arg2 y
  refine congrArg (V c main_arg2) (funext fun a => Fin.ext ?_)
  match a with
  | ⟨0, _⟩ => show 0 * 128 + 1 * (y 0).val = (y 0).val; omega
  | ⟨1, _⟩ => show 0 * 32 + 1 * (y 1).val = (y 1).val; omega

/-- What the one point writes back is the one block of the product of the two arrays. -/
theorem flushed0 (c : Dev nD) (t : Fin cfg0.N) :
    (dat0 V c).flushed 2 t = ((cfg0.win 2).blk t).view.read (Elt Ideal) (Cert.Spec.support (V c main_arg0) (V c main_arg2)) := by
  show (cfg0.win 2).cut (grid0.coords t) ((dat0 V c).after 2 t) = _
  rw [after0_2]
  unfold out0_2
  rw [View.canon_unit_zero zero_off0]
  simp only [View.ld_unit_zero (S := S10000x128) zero_off0, View.ld_unit_zero (S := S128x32) zero_off0]
  rw [pay0_eq, blk0_0, blk0_1]
  funext j
  show Cert.Spec.support (V c main_arg0) (V c main_arg2) j = Cert.Spec.support (V c main_arg0) (V c main_arg2) (((cfg0.win 2).blk t).view.emb j)
  refine congrArg (Cert.Spec.support (V c main_arg0) (V c main_arg2)) (funext fun a => Fin.ext ?_)
  match a with
  | ⟨0, _⟩ => show (j 0).val = 0 * 10000 + 1 * (j 0).val; omega
  | ⟨1, _⟩ => show (j 1).val = 0 * 32 + 1 * (j 1).val; omega

/-- An index of the result is in the one block iff each coordinate is in the block's range. -/
theorem mem_blk0 (t : Fin cfg0.N) (i : S10000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v2).slice (win0_2.rect t)).set ↔ _
  rw [View.set_slice_whole, Rect.mem_set_unit]
  exact Iff.rfl

/-- The one block is the whole result. -/
theorem cover0 (i : S10000x32.Idx) : ∃ t : Fin cfg0.N, (cfg0.win 2).flush t = true ∧ i ∈ ((cfg0.win 2).blk t).view.set := by
  refine ⟨⟨0, by decide⟩, flush0_2 _, ?_⟩
  rw [mem_blk0]
  intro a
  have h0 : (i 0).val < 10000 := (i 0).isLt
  have h1 : (i 1).val < 32 := (i 1).isLt
  match a with
  | ⟨0, _⟩ => show 0 * 10000 ≤ (i 0).val ∧ (i 0).val < 0 * 10000 + 10000; omega
  | ⟨1, _⟩ => show 0 * 32 ≤ (i 1).val ∧ (i 1).val < 0 * 32 + 32; omega

theorem value0 (c : Dev nD) :
    (dat0 (F := Ideal) V c).arrAt 2 cfg0.N = Cert.Spec.support (V c main_arg0) (V c main_arg2) :=
  (dat0 V c).arrAt_eq_of_cover 2 (Cert.Spec.support (V c main_arg0) (V c main_arg2)) (fun t _ => flushed0 V c t) cover0

end Cert.KernelIdeal.HandValue

end
-- ==== Proof.IdealValue1.lean ====
/-
  The first layer on the whole array, from its 25 blocks of 400 rows.

  At grid point `t` the body reads rows `400·t … 400·t + 399` of the adjacency and of `s`, and the whole of `s`, of the
  bias row and of `w`; it writes back the first layer of those blocks. A block of rows of a layer is the layer of that
  block of rows, so what point `t` writes back is rows `400·t … 400·t + 399` of the first layer on the whole arrays;
  and row `r` of the result lies in the block of point `r / 400`, so the 25 blocks cover it.
-/
import proofs.«168926_g35270271435312_cont_8to1_b_957_4_alg».proof.Proof.IdealRegion1
import proofs.«168926_g35270271435312_cont_8to1_b_957_4_alg».proof.Proof.Payloads
import proofs.«168926_g35270271435312_cont_8to1_b_957_4_alg».proof.Proof.SpecRows
import Idealize.ShloMosaic.Lib.Pipeline.Value

set_option maxRecDepth 16384

noncomputable section

namespace Cert.KernelIdeal.HandValue

open Cert.KernelIdeal Cert.KernelIdeal.Gen Cert.KernelIdeal.Hand Cert.KernelIdeal.Payloads
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The index maps over the grid: the adjacency rows, the rows of `s` and the result move with the point along the
    rows and stay at column block 0; the whole-array windows stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `y` of the point's adjacency block is row `400·t + y` of the adjacency. -/
theorem blk1_0 (c : Dev nD) (t : Fin cfg1.N) (y : Fin 400) (k : Fin 10000) (h : 400 * t.val + y.val < 10000) :
    (iblk1 V c 0 t : S400x10000.Idx → Elt Ideal .f32) (ix2 y k)
      = (V c main_arg1 : S10000x10000.Idx → Elt Ideal .f32) (ix2 (⟨400 * t.val + y.val, h⟩ : Fin 10000) k) := by
  obtain ⟨e0, e1, -⟩ := idx1 t
  unfold iblk1
  rw [View.read_apply]
  show V c main_arg1 _ = V c main_arg1 _
  refine congrArg (V c main_arg1) (funext fun a => Fin.ext ?_)
  match a with
  | ⟨0, _⟩ => show win1_0.index t (0 : Fin 2) * 400 + 1 * y.val = 400 * t.val + y.val; rw [e0]; omega
  | ⟨1, _⟩ => show win1_0.index t (1 : Fin 2) * 10000 + 1 * k.val = k.val; rw [e1]; omega

/-- Row `y` of the point's block of `s` is row `400·t + y` of `s`. -/
theorem blk1_2 (c : Dev nD) (t : Fin cfg1.N) (y : Fin 400) (q : Fin 32) (h : 400 * t.val + y.val < 10000) :
    (iblk1 V c 2 t : S400x32.Idx → Elt Ideal .f32) (ix2 y q)
      = (V c main_v2 : S10000x32.Idx → Elt Ideal .f32) (ix2 (⟨400 * t.val + y.val, h⟩ : Fin 10000) q) := by
  obtain ⟨-, -, -, -, e0, e1, -⟩ := idx1 t
  unfold iblk1
  rw [View.read_apply]
  show V c main_v2 _ = V c main_v2 _
  refine congrArg (V c main_v2) (funext fun a => Fin.ext ?_)
  match a with
  | ⟨0, _⟩ => show win1_2.index t (0 : Fin 2) * 400 + 1 * y.val = 400 * t.val + y.val; rw [e0]; omega
  | ⟨1, _⟩ => show win1_2.index t (1 : Fin 2) * 32 + 1 * q.val = q.val; rw [e1]; omega

/-- The windows over the whole of `s`, the bias row and `w` have one block, the array. -/
theorem blk1_1 (c : Dev nD) (t : Fin cfg1.N) : iblk1 V c 1 t = (V c main_v2 : S10000x32.Idx → Elt Ideal .f32) := by
  obtain ⟨-, -, e0, e1, -⟩ := idx1 t
  funext y
  unfold iblk1
  rw [View.read_apply]
  show V c main_v2 _ = V c main_v2 y
  refine congrArg (V c main_v2) (funext fun a => Fin.ext ?_)
  match a with
  | ⟨0, _⟩ => show win1_1.index t (0 : Fin 2) * 10000 + 1 * (y 0).val = (y 0).val; rw [e0]; omega
  | ⟨1, _⟩ => show win1_1.index t (1 : Fin 2) * 32 + 1 * (y 1).val = (y 1).val; rw [e1]; omega

theorem blk1_3 (c : Dev nD) (t : Fin cfg1.N) : iblk1 V c 3 t = (V c main_v0 : S1x32.Idx → Elt Ideal .f32) := by
  obtain ⟨-, -, -, -, -, -, e0, e1, -⟩ := idx1 t
  funext y
  unfold iblk1
  rw [View.read_apply]
  show V c main_v0 _ = V c main_v0 y
  refine congrArg (V c main_v0) (funext fun a => Fin.ext ?_)
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega

theorem blk1_4 (c : Dev nD) (t : Fin cfg1.N) : iblk1 V c 4 t = (V c main_arg4 : S32x16.Idx → Elt Ideal .f32) := by
  obtain ⟨-, -, -, -, -, -, -, -, e0, e1, -⟩ := idx1 t
  funext y
  unfold iblk1
  rw [View.read_apply]
  show V c main_arg4 _ = V c main_arg4 y
  refine congrArg (V c main_arg4) (funext fun a => Fin.ext ?_)
  match a with
  | ⟨0, _⟩ => show win1_4.index t (0 : Fin 2) * 32 + 1 * (y 0).val = (y 0).val; rw [e0]; omega
  | ⟨1, _⟩ => show win1_4.index t (1 : Fin 2) * 16 + 1 * (y 1).val = (y 1).val; rw [e1]; omega

/-- The first layer on the whole arrays. -/
abbrev G1 (c : Dev nD) : S10000x16.Idx → Elt Ideal .f32 :=
  Cert.Spec.layer1 (V c main_arg1) (V c main_v2) (V c main_v2) (fun q => V c main_v0 (ix2 (0 : Fin 1) q)) (V c main_arg4)

/-- What point `t` writes back is rows `400·t … 400·t + 399` of the first layer on the whole arrays. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zero_off1]
  simp only [View.ld_unit_zero (S := S400x10000) zero_off1, View.ld_unit_zero (S := S10000x32) zero_off1,
    View.ld_unit_zero (S := S400x32) zero_off1, View.ld_unit_zero (S := S1x32) zero_off1,
    View.ld_unit_zero (S := S32x16) zero_off1]
  rw [pay1_eq, blk1_1, blk1_3, blk1_4]
  obtain ⟨-, -, -, -, -, -, -, -, -, -, e0, e1⟩ := idx1 t
  funext j
  show Cert.Spec.layer1 (R := 400) (K := 10000) (iblk1 V c 0 t) (V c main_v2) (iblk1 V c 2 t)
      (fun q => V c main_v0 (ix2 (0 : Fin 1) q)) (V c main_arg4) j
    = G1 V c (((cfg1.win 5).blk t).view.emb j)
  refine Cert.Spec.layer1_rows (M := 10000) (R := 400) (K := 10000) (400 * t.val) (V c main_arg1) (iblk1 V c 0 t)
    (V c main_v2) (V c main_v2) (iblk1 V c 2 t) _ (V c main_arg4) (blk1_0 V c t) (blk1_2 V c t) j _ ?_ ?_
  · show win1_5.index t (0 : Fin 2) * 400 + 1 * (j 0).val = 400 * t.val + (j 0).val; rw [e0]; omega
  · show win1_5.index t (1 : Fin 2) * 16 + 1 * (j 1).val = (j 1).val; rw [e1]; omega

/-- An index of the result is in point `t`'s block iff each coordinate is in the block's range on its axis. -/
theorem mem_blk1 (t : Fin cfg1.N) (i : S10000x16.Idx) :
    i ∈ ((cfg1.win 5).blk t).view.set ↔ ∀ a : Fin 2, win1_5.index t a * S400x16.size a ≤ (i a).val
      ∧ (i a).val < win1_5.index t a * S400x16.size a + S400x16.size a := by
  show i ∈ ((View.whole main_v3).slice (win1_5.rect t)).set ↔ _
  rw [View.set_slice_whole, Rect.mem_set_unit]
  exact Iff.rfl

/-- Row `r` of the result is in the block of point `r / 400`. -/
theorem cover1 (i : S10000x16.Idx) : ∃ t : Fin cfg1.N, (cfg1.win 5).flush t = true ∧ i ∈ ((cfg1.win 5).blk t).view.set := by
  have hN : cfg1.N = 25 := N_1
  have h0 : (i 0).val < 10000 := (i 0).isLt
  have h1 : (i 1).val < 16 := (i 1).isLt
  refine ⟨⟨(i 0).val / 400, by omega⟩, flush1_5 _, ?_⟩
  rw [mem_blk1]
  obtain ⟨-, -, -, -, -, -, -, -, -, -, e0, e1⟩ := idx1 ⟨(i 0).val / 400, by omega⟩
  intro a
  match a with
  | ⟨0, _⟩ =>
    show win1_5.index _ (0 : Fin 2) * 400 ≤ (i 0).val ∧ (i 0).val < win1_5.index _ (0 : Fin 2) * 400 + 400
    rw [e0]; show (i 0).val / 400 * 400 ≤ (i 0).val ∧ (i 0).val < (i 0).val / 400 * 400 + 400; omega
  | ⟨1, _⟩ =>
    show win1_5.index _ (1 : Fin 2) * 16 ≤ (i 1).val ∧ (i 1).val < win1_5.index _ (1 : Fin 2) * 16 + 16
    rw [e1]; omega

theorem value1 (c : Dev nD) :
    (dat1 (F := Ideal) V c).arrAt 5 cfg1.N = Cert.Spec.layer1 (V c main_arg1) (V c main_v2) (V c main_v2)
      (fun q => V c main_v0 (ix2 (0 : Fin 1) q)) (V c main_arg4) :=
  (dat1 V c).arrAt_eq_of_cover 5 (G1 V c) (fun t _ => flushed1 V c t) cover1

end Cert.KernelIdeal.HandValue

end
-- ==== Proof.IdealValue2.lean ====
/-
  The second layer on the whole array, from its 25 blocks of 400 rows.

  At grid point `t` the body reads rows `400·t … 400·t + 399` of the adjacency and of `s`, and the whole of `s` and of the
  bias row; it writes back the second layer of those blocks. A block of rows of a layer is the layer of that block of
  rows, so what point `t` writes back is rows `400·t … 400·t + 399` of the second layer on the whole arrays; and row `r`
  of the result lies in the block of point `r / 400`, so the 25 blocks cover it.
-/
import proofs.«168926_g35270271435312_cont_8to1_b_957_4_alg».proof.Proof.IdealRegion2
import proofs.«168926_g35270271435312_cont_8to1_b_957_4_alg».proof.Proof.Payloads
import proofs.«168926_g35270271435312_cont_8to1_b_957_4_alg».proof.Proof.SpecRows
import Idealize.ShloMosaic.Lib.Pipeline.Value

set_option maxRecDepth 16384

noncomputable section

namespace Cert.KernelIdeal.HandValue

open Cert.KernelIdeal Cert.KernelIdeal.Gen Cert.KernelIdeal.Hand Cert.KernelIdeal.Payloads
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The index maps over the grid: the adjacency rows, the rows of `s` and the result move with the point along the
    rows and stay at column block 0; the whole-array windows stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `y` of the point's adjacency block is row `400·t + y` of the adjacency. -/
theorem blk2_0 (c : Dev nD) (t : Fin cfg2.N) (y : Fin 400) (k : Fin 10000) (h : 400 * t.val + y.val < 10000) :
    (iblk2 V c 0 t : S400x10000.Idx → Elt Ideal .f32) (ix2 y k)
      = (V c main_arg1 : S10000x10000.Idx → Elt Ideal .f32) (ix2 (⟨400 * t.val + y.val, h⟩ : Fin 10000) k) := by
  obtain ⟨e0, e1, -⟩ := idx2 t
  unfold iblk2
  rw [View.read_apply]
  show V c main_arg1 _ = V c main_arg1 _
  refine congrArg (V c main_arg1) (funext fun a => Fin.ext ?_)
  match a with
  | ⟨0, _⟩ => show win2_0.index t (0 : Fin 2) * 400 + 1 * y.val = 400 * t.val + y.val; rw [e0]; omega
  | ⟨1, _⟩ => show win2_0.index t (1 : Fin 2) * 10000 + 1 * k.val = k.val; rw [e1]; omega

/-- Row `y` of the point's block of `s` is row `400·t + y` of `s`. -/
theorem blk2_2 (c : Dev nD) (t : Fin cfg2.N) (y : Fin 400) (q : Fin 16) (h : 400 * t.val + y.val < 10000) :
    (iblk2 V c 2 t : S400x16.Idx → Elt Ideal .f32) (ix2 y q)
      = (V c main_v3 : S10000x16.Idx → Elt Ideal .f32) (ix2 (⟨400 * t.val + y.val, h⟩ : Fin 10000) q) := by
  obtain ⟨-, -, -, -, e0, e1, -⟩ := idx2 t
  unfold iblk2
  rw [View.read_apply]
  show V c main_v3 _ = V c main_v3 _
  refine congrArg (V c main_v3) (funext fun a => Fin.ext ?_)
  match a with
  | ⟨0, _⟩ => show win2_2.index t (0 : Fin 2) * 400 + 1 * y.val = 400 * t.val + y.val; rw [e0]; omega
  | ⟨1, _⟩ => show win2_2.index t (1 : Fin 2) * 16 + 1 * q.val = q.val; rw [e1]; omega

/-- The windows over the whole of `s` and the bias row have one block, the array. -/
theorem blk2_1 (c : Dev nD) (t : Fin cfg2.N) : iblk2 V c 1 t = (V c main_v3 : S10000x16.Idx → Elt Ideal .f32) := by
  obtain ⟨-, -, e0, e1, -⟩ := idx2 t
  funext y
  unfold iblk2
  rw [View.read_apply]
  show V c main_v3 _ = V c main_v3 y
  refine congrArg (V c main_v3) (funext fun a => Fin.ext ?_)
  match a with
  | ⟨0, _⟩ => show win2_1.index t (0 : Fin 2) * 10000 + 1 * (y 0).val = (y 0).val; rw [e0]; omega
  | ⟨1, _⟩ => show win2_1.index t (1 : Fin 2) * 16 + 1 * (y 1).val = (y 1).val; rw [e1]; omega

theorem blk2_3 (c : Dev nD) (t : Fin cfg2.N) : iblk2 V c 3 t = (V c main_v1 : S1x16.Idx → Elt Ideal .f32) := by
  obtain ⟨-, -, -, -, -, -, e0, e1, -⟩ := idx2 t
  funext y
  unfold iblk2
  rw [View.read_apply]
  show V c main_v1 _ = V c main_v1 y
  refine congrArg (V c main_v1) (funext fun a => Fin.ext ?_)
  match a with
  | ⟨0, _⟩ => show win2_3.index t (0 : Fin 2) * 1 + 1 * (y 0).val = (y 0).val; rw [e0]; omega
  | ⟨1, _⟩ => show win2_3.index t (1 : Fin 2) * 16 + 1 * (y 1).val = (y 1).val; rw [e1]; omega

/-- The second layer on the whole arrays. -/
abbrev G2 (c : Dev nD) : S10000x16.Idx → Elt Ideal .f32 :=
  Cert.Spec.layer2 (V c main_arg1) (V c main_v3) (V c main_v3) (fun q => V c main_v1 (ix2 (0 : Fin 1) q))

/-- What point `t` writes back is rows `400·t … 400·t + 399` of the second layer on the whole arrays. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero zero_off2]
  simp only [View.ld_unit_zero (S := S400x10000) zero_off2, View.ld_unit_zero (S := S10000x16) zero_off2,
    View.ld_unit_zero (S := S400x16) zero_off2, View.ld_unit_zero (S := S1x16) zero_off2]
  rw [pay2_eq, blk2_1, blk2_3]
  obtain ⟨-, -, -, -, -, -, -, -, e0, e1⟩ := idx2 t
  funext j
  show Cert.Spec.layer2 (R := 400) (K := 10000) (iblk2 V c 0 t) (V c main_v3) (iblk2 V c 2 t)
      (fun q => V c main_v1 (ix2 (0 : Fin 1) q)) j
    = G2 V c (((cfg2.win 4).blk t).view.emb j)
  refine Cert.Spec.layer2_rows (M := 10000) (R := 400) (K := 10000) (400 * t.val) (V c main_arg1) (iblk2 V c 0 t)
    (V c main_v3) (V c main_v3) (iblk2 V c 2 t) _ (blk2_0 V c t) (blk2_2 V c t) j _ ?_ ?_
  · show win2_4.index t (0 : Fin 2) * 400 + 1 * (j 0).val = 400 * t.val + (j 0).val; rw [e0]; omega
  · show win2_4.index t (1 : Fin 2) * 16 + 1 * (j 1).val = (j 1).val; rw [e1]; omega

/-- An index of the result is in point `t`'s block iff each coordinate is in the block's range on its axis. -/
theorem mem_blk2 (t : Fin cfg2.N) (i : S10000x16.Idx) :
    i ∈ ((cfg2.win 4).blk t).view.set ↔ ∀ a : Fin 2, win2_4.index t a * S400x16.size a ≤ (i a).val
      ∧ (i a).val < win2_4.index t a * S400x16.size a + S400x16.size a := by
  show i ∈ ((View.whole main_v4).slice (win2_4.rect t)).set ↔ _
  rw [View.set_slice_whole, Rect.mem_set_unit]
  exact Iff.rfl

/-- Row `r` of the result is in the block of point `r / 400`. -/
theorem cover2 (i : S10000x16.Idx) : ∃ t : Fin cfg2.N, (cfg2.win 4).flush t = true ∧ i ∈ ((cfg2.win 4).blk t).view.set := by
  have hN : cfg2.N = 25 := N_2
  have h0 : (i 0).val < 10000 := (i 0).isLt
  have h1 : (i 1).val < 16 := (i 1).isLt
  refine ⟨⟨(i 0).val / 400, by omega⟩, flush2_4 _, ?_⟩
  rw [mem_blk2]
  obtain ⟨-, -, -, -, -, -, -, -, e0, e1⟩ := idx2 ⟨(i 0).val / 400, by omega⟩
  intro a
  match a with
  | ⟨0, _⟩ =>
    show win2_4.index _ (0 : Fin 2) * 400 ≤ (i 0).val ∧ (i 0).val < win2_4.index _ (0 : Fin 2) * 400 + 400
    rw [e0]; show (i 0).val / 400 * 400 ≤ (i 0).val ∧ (i 0).val < (i 0).val / 400 * 400 + 400; omega
  | ⟨1, _⟩ =>
    show win2_4.index _ (1 : Fin 2) * 16 ≤ (i 1).val ∧ (i 1).val < win2_4.index _ (1 : Fin 2) * 16 + 16
    rw [e1]; omega

theorem value2 (c : Dev nD) :
    (dat2 (F := Ideal) V c).arrAt 4 cfg2.N = Cert.Spec.layer2 (V c main_arg1) (V c main_v3) (V c main_v3)
      (fun q => V c main_v1 (ix2 (0 : Fin 1) q)) :=
  (dat2 V c).arrAt_eq_of_cover 4 (G2 V c) (fun t _ => flushed2 V c t) cover2

end Cert.KernelIdeal.HandValue

end
-- ==== Proof.IdealOut.lean ====
/-
  The three kernels composed: the last result array is the whole network of the launch arrays.

  Each kernel is entered from the contents the one before left: its own result array is what its write-backs leave, and
  every other array is as it was. So each array a kernel reads is either an earlier kernel's result, which is that
  kernel's layer of ITS inputs, or an array no kernel and neither reshape has written, which still holds its launch
  contents; the two bias rows are the launch bias vectors read through the reshape. Substituting these from the last
  kernel back to the first turns the second layer of the third kernel's inputs into the specification's network of the
  six launch arrays.
-/
import proofs.«168926_g35270271435312_cont_8to1_b_957_4_alg».proof.Proof.IdealVals
import proofs.«168926_g35270271435312_cont_8to1_b_957_4_alg».proof.Proof.IdealValue0
import proofs.«168926_g35270271435312_cont_8to1_b_957_4_alg».proof.Proof.IdealValue1
import proofs.«168926_g35270271435312_cont_8to1_b_957_4_alg».proof.Proof.IdealValue2
import proofs.«168926_g35270271435312_cont_8to1_b_957_4_alg».proof.Proof.IdealHostBias

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! ## Each array a kernel reads, traced back to the launch memory -/

/-- An array the two reshapes do not write holds, when the first kernel is entered, what it held at launch. -/
theorem at1 (b : Ref sig .tc) (h0 : b ≠ main_v0) (h1 : b ≠ main_v1) :
    V1 m ρ c b = m ((c.tc : Thread nD τ).loc b) :=
  Cert.KernelIdeal.HostBias.keep (W0 m ρ c) b h0 h1

/-- So does it when the second kernel is entered, unless it is the first kernel's result. -/
theorem at2 (b : Ref sig .tc) (h0 : b ≠ main_v0) (h1 : b ≠ main_v1) (h2 : b ≠ main_v2) :
    V2 m ρ c b = m ((c.tc : Thread nD τ).loc b) :=
  (V2_of_ne m ρ c b h2).trans (at1 m ρ c b h0 h1)

/-- And when the third is entered, unless it is the first or the second kernel's result. -/
theorem at3 (b : Ref sig .tc) (h0 : b ≠ main_v0) (h1 : b ≠ main_v1) (h2 : b ≠ main_v2) (h3 : b ≠ main_v3) :
    V3 m ρ c b = m ((c.tc : Thread nD τ).loc b) :=
  (V3_of_ne m ρ c b h3).trans (at2 m ρ c b h0 h1 h2)

/-- The first bias row the second kernel reads is the first bias vector at launch. -/
theorem bias_row0 :
    (fun q : Fin 32 => (V2 m ρ c main_v0 : S1x32.Idx → EReal) (ix2 (0 : Fin 1) q))
      = fun q => (m ((c.tc : Thread nD τ).loc main_arg3) : S32.Idx → EReal) (ix1 q) := by
  rw [V2_of_ne m ρ c main_v0 (by decide)]
  exact funext fun q => Cert.KernelIdeal.HostBias.bias0 (W0 m ρ c) q

/-- The second bias row the third kernel reads is the second bias vector at launch. -/
theorem bias_row1 :
    (fun q : Fin 16 => (V3 m ρ c main_v1 : S1x16.Idx → EReal) (ix2 (0 : Fin 1) q))
      = fun q => (m ((c.tc : Thread nD τ).loc main_arg5) : S16.Idx → EReal) (ix1 q) := by
  rw [V3_of_ne m ρ c main_v1 (by decide), V2_of_ne m ρ c main_v1 (by decide)]
  exact funext fun q => Cert.KernelIdeal.HostBias.bias1 (W0 m ρ c) q

/-! ## The three results -/

/-- The first kernel's result, as the second finds it: the feature product of the launch arrays. -/
theorem support_at2 :
    (V2 m ρ c main_v2 : S10000x32.Idx → EReal)
      = Cert.Spec.support (m ((c.tc : Thread nD τ).loc main_arg0)) (m ((c.tc : Thread nD τ).loc main_arg2)) := by
  rw [V2_same, value0 (V1 m ρ) c, at1 m ρ c main_arg0 (by decide) (by decide), at1 m ρ c main_arg2 (by decide) (by decide)]

/-- The second kernel's result, as the third finds it: the first layer of the launch arrays. -/
theorem support2_at3 :
    (V3 m ρ c main_v3 : S10000x16.Idx → EReal)
      = Cert.Spec.support2 (m ((c.tc : Thread nD τ).loc main_arg0)) (m ((c.tc : Thread nD τ).loc main_arg1))
          (m ((c.tc : Thread nD τ).loc main_arg2)) (fun q => m ((c.tc : Thread nD τ).loc main_arg3) (ix1 q))
          (m ((c.tc : Thread nD τ).loc main_arg4)) := by
  rw [V3_same, value1 (V2 m ρ) c, support_at2 m ρ c, bias_row0 m ρ c,
    at2 m ρ c main_arg1 (by decide) (by decide) (by decide), at2 m ρ c main_arg4 (by decide) (by decide) (by decide)]
  rfl

theorem kernel_out (m : (ℓ : Loc nD τ sig) → Buf (Elt Ideal) ℓ) (ρ : Dev nD → PrngReg) (c : Dev nD) :
    (dat2 (F := Ideal) (V3 m ρ) c).arrAt 4 cfg2.N
      = Cert.Spec.out (m ((c.tc : Thread nD τ).loc main_arg0)) (m ((c.tc : Thread nD τ).loc main_arg1)) (m ((c.tc : Thread nD τ).loc main_arg2))
          (fun q => m ((c.tc : Thread nD τ).loc main_arg3) (ix1 q)) (m ((c.tc : Thread nD τ).loc main_arg4)) (fun q => m ((c.tc : Thread nD τ).loc main_arg5) (ix1 q)) := by
  rw [value2 (V3 m ρ) c, support2_at3 m ρ c, bias_row1 m ρ c,
    at3 m ρ c main_arg1 (by decide) (by decide) (by decide) (by decide)]
  rfl

end Cert.KernelIdeal.HandValue

end
-- ==== Proof.BitsRegion0.lean ====
import proofs.«168926_g35270271435312_cont_8to1_b_957_4_alg».proof.Proof.Gen.Kernel.Launch
import proofs.«168926_g35270271435312_cont_8to1_b_957_4_alg».proof.Proof.Gen.Kernel.Skeleton
import proofs.«168926_g35270271435312_cont_8to1_b_957_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel: the feature matrix times the first weight matrix, at one grid point, every block a whole array -/

section
variable (V : (c : Dev nD) → (b : Ref sig .tc) → Buf (Elt F) ((c : Thread nD τ).loc b))

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-- The result's staging buffer after the body: one store of the body's value of the loaded blocks. -/
def out0_2 (x0 : Vec F S10000x128 .f32) (x1 : Vec F S128x32 .f32) : Vec F S10000x32 .f32 :=
  View.canon [⟨r0_2, k0_pay1 (View.ld x0 r0_0) (View.ld x1 r0_1)⟩]

/-- The one store covers the buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

set_option maxHeartbeats 1000000 in
/-- The body on whole staging buffers, the inputs' at given contents and the result's at anything, leaves the inputs' as
    they were and the result's at `out0_2` of them. -/
theorem sound_kernel0 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__support_body arg0 harg0 arg1 harg1 arg2 harg2) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the kernel finds them; after the body each input's buffer
    at its block and the result's at the body's value of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BitsRegion1.lean ====
import proofs.«168926_g35270271435312_cont_8to1_b_957_4_alg».proof.Proof.Gen.Kernel.Launch
import proofs.«168926_g35270271435312_cont_8to1_b_957_4_alg».proof.Proof.Gen.Kernel.Skeleton
import proofs.«168926_g35270271435312_cont_8to1_b_957_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel: the first layer on 25 blocks of 400 rows. Windows 1 and 2 read ONE array (the whole feature matrix, and the point's 400 rows of it), each at half of its share -/

section
variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or kept from an earlier point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S400x32 := Rect.unit (s := S400x32) ![0, 0] S400x32.size inb_S400x32_S400x32_0_0
abbrev r1_3 : Rect S1x32 := Rect.unit (s := S1x32) ![0, 0] S1x32.size inb_S1x32_S1x32_0_0
abbrev r1_4 : Rect S32x16 := Rect.unit (s := S32x16) ![0, 0] S32x16.size inb_S32x16_S32x16_0_0
abbrev r1_5 : Rect S400x16 := Rect.unit (s := S400x16) ![0, 0] S400x16.size inb_S400x16_S400x16_0_0

/-- The result's staging buffer after the body: one store of the body's value of the loaded blocks. -/
def out1_5 (x0 : Vec F S400x10000 .f32) (x1 : Vec F S10000x32 .f32) (x2 : Vec F S400x32 .f32) (x3 : Vec F S1x32 .f32) (x4 : Vec F S32x16 .f32) : Vec F S400x16 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S400x16 .f32) (y : S400x16.Idx) :
    ∃ pc ∈ ([⟨r1_5, p0⟩] : List (View.Piece (Elt F) S400x16 .f32)), y ∈ pc.1.set :=
  View.cover_of_tiled [⟨r1_5, p0⟩] S400x16.size (by rfl) y

set_option maxHeartbeats 1000000 in
/-- The body on whole staging buffers, the inputs' at given contents and the result's at anything, leaves the inputs' as
    they were and the result's at `out1_5` of them. -/
theorem sound_kernel1 (c : Dev nD) (E : Set ℕ) (i : grid1.Coords) (arg0 : Memref sig .tc .vmem S400x10000 .f32) (harg0 : arg0.IsWhole) (arg1 : Memref sig .tc .vmem S10000x32 .f32) (harg1 : arg1.IsWhole) (arg2 : Memref sig .tc .vmem S400x32 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S400x16 .f32) (harg5 : arg5.IsWhole)
    (x0 : Vec F S400x10000 .f32) (x1 : Vec F S10000x32 .f32) (x2 : Vec F S400x32 .f32) (x3 : Vec F S1x32 .f32) (x4 : Vec F S32x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__layer1_body i arg0 harg0 arg1 harg1 arg2 harg2 arg3 harg3 arg4 harg4 arg5 harg5) K := by
  simp only [cc1__layer1_body_eq_skeleton]; unfold cc1__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the kernel finds them; after the body each input's buffer
    at its block and the result's at the body's value of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BitsRegion2.lean ====
import proofs.«168926_g35270271435312_cont_8to1_b_957_4_alg».proof.Proof.Gen.Kernel.Launch
import proofs.«168926_g35270271435312_cont_8to1_b_957_4_alg».proof.Proof.Gen.Kernel.Skeleton
import proofs.«168926_g35270271435312_cont_8to1_b_957_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel: the second layer on 25 blocks of 400 rows. Windows 1 and 2 read ONE array (the whole first-layer result, and the point's 400 rows of it), each at half of its share -/

section
variable (V : (c : Dev nD) → (b : Ref sig .tc) → Buf (Elt F) ((c : Thread nD τ).loc b))

/-- Window `w`'s block at point `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or kept from an earlier point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x16 := Rect.unit (s := S10000x16) ![0, 0] S10000x16.size inb_S10000x16_S10000x16_0_0
abbrev r2_2 : Rect S400x16 := Rect.unit (s := S400x16) ![0, 0] S400x16.size inb_S400x16_S400x16_0_0
abbrev r2_3 : Rect S1x16 := Rect.unit (s := S1x16) ![0, 0] S1x16.size inb_S1x16_S1x16_0_0
abbrev r2_4 : Rect S400x16 := Rect.unit (s := S400x16) ![0, 0] S400x16.size inb_S400x16_S400x16_0_0

/-- The result's staging buffer after the body: one store of the body's value of the loaded blocks. -/
def out2_4 (x0 : Vec F S400x10000 .f32) (x1 : Vec F S10000x16 .f32) (x2 : Vec F S400x16 .f32) (x3 : Vec F S1x16 .f32) : Vec F S400x16 .f32 :=
  View.canon [⟨r2_4, k2_pay1 (View.ld x0 r2_0) (View.ld x1 r2_1) (View.ld x2 r2_2) (View.ld x3 r2_3)⟩]

/-- The one store covers the buffer. -/
theorem cover2_4 (p0 : Vec F S400x16 .f32) (y : S400x16.Idx) :
    ∃ pc ∈ ([⟨r2_4, p0⟩] : List (View.Piece (Elt F) S400x16 .f32)), y ∈ pc.1.set :=
  View.cover_of_tiled [⟨r2_4, p0⟩] S400x16.size (by rfl) y

set_option maxHeartbeats 1000000 in
/-- The body on whole staging buffers, the inputs' at given contents and the result's at anything, leaves the inputs' as
    they were and the result's at `out2_4` of them. -/
theorem sound_kernel2 (c : Dev nD) (E : Set ℕ) (i : grid2.Coords) (arg0 : Memref sig .tc .vmem S400x10000 .f32) (harg0 : arg0.IsWhole) (arg1 : Memref sig .tc .vmem S10000x16 .f32) (harg1 : arg1.IsWhole) (arg2 : Memref sig .tc .vmem S400x16 .f32) (harg2 : arg2.IsWhole) (arg3 : Memref sig .tc .vmem S1x16 .f32) (harg3 : arg3.IsWhole) (arg4 : Memref sig .tc .vmem S400x16 .f32) (harg4 : arg4.IsWhole)
    (x0 : Vec F S400x10000 .f32) (x1 : Vec F S10000x16 .f32) (x2 : Vec F S400x16 .f32) (x3 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__layer2_body i arg0 harg0 arg1 harg1 arg2 harg2 arg3 harg3 arg4 harg4) K := by
  simp only [cc2__layer2_body_eq_skeleton]; unfold cc2__layer2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this pipeline on core `c`: the arrays as the kernel finds them; after the body each input's buffer
    at its block and the result's at the body's value of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.BitsVals.lean ====
import proofs.«168926_g35270271435312_cont_8to1_b_957_4_alg».proof.Proof.Gen.Kernel.Launch
import proofs.«168926_g35270271435312_cont_8to1_b_957_4_alg».proof.Proof.Gen.Kernel.Skeleton
import proofs.«168926_g35270271435312_cont_8to1_b_957_4_alg».proof.Proof.Gen.Kernel.Points
import proofs.«168926_g35270271435312_cont_8to1_b_957_4_alg».proof.Proof.BitsRegion0
import proofs.«168926_g35270271435312_cont_8to1_b_957_4_alg».proof.Proof.BitsRegion1
import proofs.«168926_g35270271435312_cont_8to1_b_957_4_alg».proof.Proof.BitsRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of the core's unscoped buffers at each boundary of the run

  The launch memory; after the two reshapes of the biases; after each kernel, its result array at what the kernel's
  write-backs leave and every other buffer as before. Each kernel's proof data are stated at the contents it is entered
  from. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its result array at what its one write-back leaves. -/
def W2 (c : Dev nD) : Valuation τ sig (Elt F) :=
  Function.update (W1 m ρ c) (Proc.devRef .tc main_v2) ((dat0 (V1 m ρ) c).arrAt 2 cfg0.N)
abbrev V2 : (c : Dev nD) → (b : Ref sig .tc) → Buf (Elt F) ((c : Thread nD τ).loc b) := fun c b => W2 m ρ c b
/-- After the second kernel. -/
def W3 (c : Dev nD) : Valuation τ sig (Elt F) :=
  Function.update (W2 m ρ c) (Proc.devRef .tc main_v3) ((dat1 (V2 m ρ) c).arrAt 5 cfg1.N)
abbrev V3 : (c : Dev nD) → (b : Ref sig .tc) → Buf (Elt F) ((c : Thread nD τ).loc b) := fun c b => W3 m ρ c b
/-- After the third kernel. -/
def W4 (c : Dev nD) : Valuation τ sig (Elt F) :=
  Function.update (W3 m ρ c) (Proc.devRef .tc main_v4) ((dat2 (V3 m ρ) c).arrAt 4 cfg2.N)
abbrev V4 : (c : Dev nD) → (b : Ref sig .tc) → Buf (Elt F) ((c : Thread nD τ).loc b) := fun c b => W4 m ρ c b

theorem V2_same (c : Dev nD) : V2 m ρ c main_v2 = (dat0 (V1 m ρ) c).arrAt 2 cfg0.N := by
  show W2 m ρ c (Proc.devRef .tc main_v2) = _; unfold W2; exact Function.update_self _ _ _
theorem W2_of_ne (c : Dev nD) (b : Ref sig .tc) (h : b ≠ main_v2) : W2 m ρ c (Proc.devRef .tc b) = W1 m ρ c (Proc.devRef .tc b) := by
  unfold W2; exact Function.update_of_ne (StableHlo.devRef_ne_of_ne h) _ _
theorem V2_of_ne (c : Dev nD) (b : Ref sig .tc) (h : b ≠ main_v2) : V2 m ρ c b = V1 m ρ c b := W2_of_ne m ρ c b h
theorem V3_same (c : Dev nD) : V3 m ρ c main_v3 = (dat1 (V2 m ρ) c).arrAt 5 cfg1.N := by
  show W3 m ρ c (Proc.devRef .tc main_v3) = _; unfold W3; exact Function.update_self _ _ _
theorem W3_of_ne (c : Dev nD) (b : Ref sig .tc) (h : b ≠ main_v3) : W3 m ρ c (Proc.devRef .tc b) = W2 m ρ c (Proc.devRef .tc b) := by
  unfold W3; exact Function.update_of_ne (StableHlo.devRef_ne_of_ne h) _ _
theorem V3_of_ne (c : Dev nD) (b : Ref sig .tc) (h : b ≠ main_v3) : V3 m ρ c b = V2 m ρ c b := W3_of_ne m ρ c b h
theorem V4_same (c : Dev nD) : V4 m ρ c main_v4 = (dat2 (V3 m ρ) c).arrAt 4 cfg2.N := by
  show W4 m ρ c (Proc.devRef .tc main_v4) = _; unfold W4; exact Function.update_self _ _ _
theorem W4_of_ne (c : Dev nD) (b : Ref sig .tc) (h : b ≠ main_v4) : W4 m ρ c (Proc.devRef .tc b) = W3 m ρ c (Proc.devRef .tc b) := by
  unfold W4; exact Function.update_of_ne (StableHlo.devRef_ne_of_ne h) _ _
theorem V4_of_ne (c : Dev nD) (b : Ref sig .tc) (h : b ≠ main_v4) : V4 m ρ c b = V3 m ρ c b := W4_of_ne m ρ c b h

end Cert.Kernel.Hand

end
-- ==== Proof.BitsShare.lean ====
import proofs.«168926_g35270271435312_cont_8to1_b_957_4_alg».proof.Proof.Gen.Kernel.Launch
import proofs.«168926_g35270271435312_cont_8to1_b_957_4_alg».proof.Proof.Gen.Kernel.Skeleton
import proofs.«168926_g35270271435312_cont_8to1_b_957_4_alg».proof.Proof.Gen.Kernel.Points
import proofs.«168926_g35270271435312_cont_8to1_b_957_4_alg».proof.Proof.BitsRegion1
import proofs.«168926_g35270271435312_cont_8to1_b_957_4_alg».proof.Proof.BitsRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernels whose windows share an array: the arrays in and out of the core's unscoped buffers

  The second and third kernels each read ONE array through two windows (the whole array, and the point's rows of it).
  At the kernel's entry that array's full share is split in two halves, one per window; at the exit — both windows are
  inputs, so the array is as entered — the halves are joined again. Every other array is held whole throughout. -/

section
variable (V : (c : Dev nD) → (b : Ref sig .tc) → Buf (Elt F) ((c : Thread nD τ).loc b))

/-- At the kernel's entry the core's unscoped buffers are the kernel's arrays — the one array that two windows read split
    into two halves of its share, one per window — and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 (by decide) c (V c)]
  refine sep_mono ?_ .rfl
  unfold Pipeline.arrBufs Dat.arrays
  rw [bigSep_eq_bigSepL_of_eq [main_arg1, main_v2, main_v0, main_arg4, main_v3] (by decide) (by decide), bigSep_W1]
  have hs : ∀ w : Fin cfg1.W, (cfg1.win w).arr.view.set = Finset.univ := fun w => (arr_whole1 w).set_eq_univ
  rw [hs 0, hs 1, hs 3, hs 4, hs 5]
  beta_reduce
  have eL : (bigSepL [main_arg1, main_v2, main_v0, main_arg4, main_v3] fun b => ((c : Thread nD τ).loc b ↦{fullShare} V c b : sProp 𝕄))
      = iprop(((c : Thread nD τ).loc main_arg1 ↦{fullShare} V c main_arg1) ∗ ((c : Thread nD τ).loc main_v2 ↦{fullShare} V c main_v2) ∗ ((c : Thread nD τ).loc main_v0 ↦{fullShare} V c main_v0) ∗ ((c : Thread nD τ).loc main_arg4 ↦{fullShare} V c main_arg4) ∗ ((c : Thread nD τ).loc main_v3 ↦{fullShare} V c main_v3)) := rfl
  have e0 : (View.loc (c : Thread nD τ) (cfg1.win 0).arr.view ↦{(dat1 V c).share 0} (dat1 V c).arrAt 0 0 : sProp 𝕄)
      = ((c : Thread nD τ).loc main_arg1 ↦{fullShare} V c main_arg1) := rfl
  have e1 : (View.loc (c : Thread nD τ) (cfg1.win 1).arr.view ↦{(dat1 V c).share 1} (dat1 V c).arrAt 1 0 : sProp 𝕄)
      = ((c : Thread nD τ).loc main_v2 ↦{fullShare.left} V c main_v2) := rfl
  have e2 : (View.loc (c : Thread nD τ) (cfg1.win 2).arr.view ↦{(dat1 V c).share 2} (dat1 V c).arrAt 2 0 : sProp 𝕄)
      = ((c : Thread nD τ).loc main_v2 ↦{fullShare.right} V c main_v2) := rfl
  have e3 : (View.loc (c : Thread nD τ) (cfg1.win 3).arr.view ↦{(dat1 V c).share 3} (dat1 V c).arrAt 3 0 : sProp 𝕄)
      = ((c : Thread nD τ).loc main_v0 ↦{fullShare} V c main_v0) := rfl
  have e4 : (View.loc (c : Thread nD τ) (cfg1.win 4).arr.view ↦{(dat1 V c).share 4} (dat1 V c).arrAt 4 0 : sProp 𝕄)
      = ((c : Thread nD τ).loc main_arg4 ↦{fullShare} V c main_arg4) := rfl
  have e5 : (View.loc (c : Thread nD τ) (cfg1.win 5).arr.view ↦{(dat1 V c).share 5} (dat1 V c).arrAt 5 0 : sProp 𝕄)
      = ((c : Thread nD τ).loc main_v3 ↦{fullShare} V c main_v3) := rfl
  rw [eL, e0, e1, e2, e3, e4, e5]
  have hsp : (((c : Thread nD τ).loc main_v2 ↦{fullShare} V c main_v2) : sProp 𝕄)
      ⊢ iprop(((c : Thread nD τ).loc main_v2 ↦{fullShare.left} V c main_v2) ∗ ((c : Thread nD τ).loc main_v2 ↦{fullShare.right} V c main_v2)) :=
    (pointsTo_share (PosShare.mem_left_op_right fullShare)).1
  iintro ⟨H0, H1, H2, H3, H4⟩
  ihave Hs := hsp $$ H1
  icases Hs with ⟨H1l, H1r⟩
  isplitl [H0]
  · iexact H0
  isplitl [H1l]
  · iexact H1l
  isplitl [H1r]
  · iexact H1r
  isplitl [H2]
  · iexact H2
  isplitl [H3]
  · iexact H3
  iexact H4

/-- At the kernel's exit its arrays — the inputs as entered, the two halves of the shared one joined again, the result at
    what the write-backs leave — and the rest are the core's unscoped buffers at the contents `V'`, which has the result
    array at that and every other buffer as the kernel was entered. -/
theorem exit1 (c : Dev nD) (V' : (b : Ref sig .tc) → Buf (Elt F) ((c : Thread nD τ).loc b))
    (hout : V' main_v3 = (dat1 V c).arrAt 5 cfg1.N) (hrest : ∀ b, b ≠ main_v3 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 (by decide) c V']
  refine sep_mono ?_ (Entails.of_eq ?_)
  · unfold Pipeline.arrBufs Dat.arrays
    rw [bigSep_eq_bigSepL_of_eq [main_arg1, main_v2, main_v0, main_arg4, main_v3] (by decide) (by decide), bigSep_W1]
    have hs : ∀ w : Fin cfg1.W, (cfg1.win w).arr.view.set = Finset.univ := fun w => (arr_whole1 w).set_eq_univ
    rw [hs 0, hs 1, hs 3, hs 4, hs 5]
    beta_reduce
    have a0 : (dat1 V c).arrAt 0 cfg1.N = V' main_arg1 :=
      ((dat1 V c).arrAt_in 0 rfl _).trans ((A_eq1 V c 0).trans (hrest main_arg1 (by decide)).symm)
    have a1 : (dat1 V c).arrAt 1 cfg1.N = V' main_v2 :=
      ((dat1 V c).arrAt_in 1 rfl _).trans ((A_eq1 V c 1).trans (hrest main_v2 (by decide)).symm)
    have a2 : (dat1 V c).arrAt 2 cfg1.N = V' main_v2 :=
      ((dat1 V c).arrAt_in 2 rfl _).trans ((A_eq1 V c 2).trans (hrest main_v2 (by decide)).symm)
    have a3 : (dat1 V c).arrAt 3 cfg1.N = V' main_v0 :=
      ((dat1 V c).arrAt_in 3 rfl _).trans ((A_eq1 V c 3).trans (hrest main_v0 (by decide)).symm)
    have a4 : (dat1 V c).arrAt 4 cfg1.N = V' main_arg4 :=
      ((dat1 V c).arrAt_in 4 rfl _).trans ((A_eq1 V c 4).trans (hrest main_arg4 (by decide)).symm)
    have a5 : (dat1 V c).arrAt 5 cfg1.N = V' main_v3 := hout.symm
    rw [a0, a1, a2, a3, a4, a5]
    have eR : (bigSepL [main_arg1, main_v2, main_v0, main_arg4, main_v3] fun b => ((c : Thread nD τ).loc b ↦{fullShare} V' b : sProp 𝕄))
        = iprop(((c : Thread nD τ).loc main_arg1 ↦{fullShare} V' main_arg1) ∗ ((c : Thread nD τ).loc main_v2 ↦{fullShare} V' main_v2) ∗ ((c : Thread nD τ).loc main_v0 ↦{fullShare} V' main_v0) ∗ ((c : Thread nD τ).loc main_arg4 ↦{fullShare} V' main_arg4) ∗ ((c : Thread nD τ).loc main_v3 ↦{fullShare} V' main_v3)) := rfl
    have e0 : (View.loc (c : Thread nD τ) (cfg1.win 0).arr.view ↦{(dat1 V c).share 0} V' main_arg1 : sProp 𝕄)
        = ((c : Thread nD τ).loc main_arg1 ↦{fullShare} V' main_arg1) := rfl
    have e1 : (View.loc (c : Thread nD τ) (cfg1.win 1).arr.view ↦{(dat1 V c).share 1} V' main_v2 : sProp 𝕄)
        = ((c : Thread nD τ).loc main_v2 ↦{fullShare.left} V' main_v2) := rfl
    have e2 : (View.loc (c : Thread nD τ) (cfg1.win 2).arr.view ↦{(dat1 V c).share 2} V' main_v2 : sProp 𝕄)
        = ((c : Thread nD τ).loc main_v2 ↦{fullShare.right} V' main_v2) := rfl
    have e3 : (View.loc (c : Thread nD τ) (cfg1.win 3).arr.view ↦{(dat1 V c).share 3} V' main_v0 : sProp 𝕄)
        = ((c : Thread nD τ).loc main_v0 ↦{fullShare} V' main_v0) := rfl
    have e4 : (View.loc (c : Thread nD τ) (cfg1.win 4).arr.view ↦{(dat1 V c).share 4} V' main_arg4 : sProp 𝕄)
        = ((c : Thread nD τ).loc main_arg4 ↦{fullShare} V' main_arg4) := rfl
    have e5 : (View.loc (c : Thread nD τ) (cfg1.win 5).arr.view ↦{(dat1 V c).share 5} V' main_v3 : sProp 𝕄)
        = ((c : Thread nD τ).loc main_v3 ↦{fullShare} V' main_v3) := rfl
    rw [eR, e0, e1, e2, e3, e4, e5]
    have hj : (iprop(((c : Thread nD τ).loc main_v2 ↦{fullShare.left} V' main_v2) ∗ ((c : Thread nD τ).loc main_v2 ↦{fullShare.right} V' main_v2)) : sProp 𝕄)
        ⊢ ((c : Thread nD τ).loc main_v2 ↦{fullShare} V' main_v2) :=
      (pointsTo_share (PosShare.mem_left_op_right fullShare)).2
    iintro ⟨G0, G1, G2, G3, G4, G5⟩
    ihave Hj := hj $$ [G1 G2]
    · isplitl [G1] <;> iassumption
    isplitl [G0]
    · iexact G0
    isplitl [Hj]
    · iexact Hj
    isplitl [G3]
    · iexact G3
    isplitl [G4]
    · iexact G4
    iexact G5
  · unfold Pipeline.unscopedRest
    exact bigSep_congr fun b hb => by
      rw [hrest b (fun e => (Finset.mem_sdiff.mp hb).2 (e ▸ Finset.mem_image.mpr ⟨5, Finset.mem_univ _, rfl⟩))]

/-- At the kernel's entry the core's unscoped buffers are the kernel's arrays — the one array that two windows read split
    into two halves of its share, one per window — and the rest. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ cfgs 2 (by decide) c (V c)]
  refine sep_mono ?_ .rfl
  unfold Pipeline.arrBufs Dat.arrays
  rw [bigSep_eq_bigSepL_of_eq [main_arg1, main_v3, main_v1, main_v4] (by decide) (by decide), bigSep_W2]
  have hs : ∀ w : Fin cfg2.W, (cfg2.win w).arr.view.set = Finset.univ := fun w => (arr_whole2 w).set_eq_univ
  rw [hs 0, hs 1, hs 3, hs 4]
  beta_reduce
  have eL : (bigSepL [main_arg1, main_v3, main_v1, main_v4] fun b => ((c : Thread nD τ).loc b ↦{fullShare} V c b : sProp 𝕄))
      = iprop(((c : Thread nD τ).loc main_arg1 ↦{fullShare} V c main_arg1) ∗ ((c : Thread nD τ).loc main_v3 ↦{fullShare} V c main_v3) ∗ ((c : Thread nD τ).loc main_v1 ↦{fullShare} V c main_v1) ∗ ((c : Thread nD τ).loc main_v4 ↦{fullShare} V c main_v4)) := rfl
  have e0 : (View.loc (c : Thread nD τ) (cfg2.win 0).arr.view ↦{(dat2 V c).share 0} (dat2 V c).arrAt 0 0 : sProp 𝕄)
      = ((c : Thread nD τ).loc main_arg1 ↦{fullShare} V c main_arg1) := rfl
  have e1 : (View.loc (c : Thread nD τ) (cfg2.win 1).arr.view ↦{(dat2 V c).share 1} (dat2 V c).arrAt 1 0 : sProp 𝕄)
      = ((c : Thread nD τ).loc main_v3 ↦{fullShare.left} V c main_v3) := rfl
  have e2 : (View.loc (c : Thread nD τ) (cfg2.win 2).arr.view ↦{(dat2 V c).share 2} (dat2 V c).arrAt 2 0 : sProp 𝕄)
      = ((c : Thread nD τ).loc main_v3 ↦{fullShare.right} V c main_v3) := rfl
  have e3 : (View.loc (c : Thread nD τ) (cfg2.win 3).arr.view ↦{(dat2 V c).share 3} (dat2 V c).arrAt 3 0 : sProp 𝕄)
      = ((c : Thread nD τ).loc main_v1 ↦{fullShare} V c main_v1) := rfl
  have e4 : (View.loc (c : Thread nD τ) (cfg2.win 4).arr.view ↦{(dat2 V c).share 4} (dat2 V c).arrAt 4 0 : sProp 𝕄)
      = ((c : Thread nD τ).loc main_v4 ↦{fullShare} V c main_v4) := rfl
  rw [eL, e0, e1, e2, e3, e4]
  have hsp : (((c : Thread nD τ).loc main_v3 ↦{fullShare} V c main_v3) : sProp 𝕄)
      ⊢ iprop(((c : Thread nD τ).loc main_v3 ↦{fullShare.left} V c main_v3) ∗ ((c : Thread nD τ).loc main_v3 ↦{fullShare.right} V c main_v3)) :=
    (pointsTo_share (PosShare.mem_left_op_right fullShare)).1
  iintro ⟨H0, H1, H2, H3⟩
  ihave Hs := hsp $$ H1
  icases Hs with ⟨H1l, H1r⟩
  isplitl [H0]
  · iexact H0
  isplitl [H1l]
  · iexact H1l
  isplitl [H1r]
  · iexact H1r
  isplitl [H2]
  · iexact H2
  iexact H3

/-- At the kernel's exit its arrays — the inputs as entered, the two halves of the shared one joined again, the result at
    what the write-backs leave — and the rest are the core's unscoped buffers at the contents `V'`, which has the result
    array at that and every other buffer as the kernel was entered. -/
theorem exit2 (c : Dev nD) (V' : (b : Ref sig .tc) → Buf (Elt F) ((c : Thread nD τ).loc b))
    (hout : V' main_v4 = (dat2 V c).arrAt 4 cfg2.N) (hrest : ∀ b, b ≠ main_v4 → V' b = V c b) :
    iprop((dat2 V c).arrays ((dat2 V c).arrAt · cfg2.N) ∗ Pipeline.unscopedRest spec2 c (V c)) ⊢ (unscopedBufs c V' : sProp 𝕄) := by
  rw [Pipeline.unscopedBufs_split₀ cfgs 2 (by decide) c V']
  refine sep_mono ?_ (Entails.of_eq ?_)
  · unfold Pipeline.arrBufs Dat.arrays
    rw [bigSep_eq_bigSepL_of_eq [main_arg1, main_v3, main_v1, main_v4] (by decide) (by decide), bigSep_W2]
    have hs : ∀ w : Fin cfg2.W, (cfg2.win w).arr.view.set = Finset.univ := fun w => (arr_whole2 w).set_eq_univ
    rw [hs 0, hs 1, hs 3, hs 4]
    beta_reduce
    have a0 : (dat2 V c).arrAt 0 cfg2.N = V' main_arg1 :=
      ((dat2 V c).arrAt_in 0 rfl _).trans ((A_eq2 V c 0).trans (hrest main_arg1 (by decide)).symm)
    have a1 : (dat2 V c).arrAt 1 cfg2.N = V' main_v3 :=
      ((dat2 V c).arrAt_in 1 rfl _).trans ((A_eq2 V c 1).trans (hrest main_v3 (by decide)).symm)
    have a2 : (dat2 V c).arrAt 2 cfg2.N = V' main_v3 :=
      ((dat2 V c).arrAt_in 2 rfl _).trans ((A_eq2 V c 2).trans (hrest main_v3 (by decide)).symm)
    have a3 : (dat2 V c).arrAt 3 cfg2.N = V' main_v1 :=
      ((dat2 V c).arrAt_in 3 rfl _).trans ((A_eq2 V c 3).trans (hrest main_v1 (by decide)).symm)
    have a4 : (dat2 V c).arrAt 4 cfg2.N = V' main_v4 := hout.symm
    rw [a0, a1, a2, a3, a4]
    have eR : (bigSepL [main_arg1, main_v3, main_v1, main_v4] fun b => ((c : Thread nD τ).loc b ↦{fullShare} V' b : sProp 𝕄))
        = iprop(((c : Thread nD τ).loc main_arg1 ↦{fullShare} V' main_arg1) ∗ ((c : Thread nD τ).loc main_v3 ↦{fullShare} V' main_v3) ∗ ((c : Thread nD τ).loc main_v1 ↦{fullShare} V' main_v1) ∗ ((c : Thread nD τ).loc main_v4 ↦{fullShare} V' main_v4)) := rfl
    have e0 : (View.loc (c : Thread nD τ) (cfg2.win 0).arr.view ↦{(dat2 V c).share 0} V' main_arg1 : sProp 𝕄)
        = ((c : Thread nD τ).loc main_arg1 ↦{fullShare} V' main_arg1) := rfl
    have e1 : (View.loc (c : Thread nD τ) (cfg2.win 1).arr.view ↦{(dat2 V c).share 1} V' main_v3 : sProp 𝕄)
        = ((c : Thread nD τ).loc main_v3 ↦{fullShare.left} V' main_v3) := rfl
    have e2 : (View.loc (c : Thread nD τ) (cfg2.win 2).arr.view ↦{(dat2 V c).share 2} V' main_v3 : sProp 𝕄)
        = ((c : Thread nD τ).loc main_v3 ↦{fullShare.right} V' main_v3) := rfl
    have e3 : (View.loc (c : Thread nD τ) (cfg2.win 3).arr.view ↦{(dat2 V c).share 3} V' main_v1 : sProp 𝕄)
        = ((c : Thread nD τ).loc main_v1 ↦{fullShare} V' main_v1) := rfl
    have e4 : (View.loc (c : Thread nD τ) (cfg2.win 4).arr.view ↦{(dat2 V c).share 4} V' main_v4 : sProp 𝕄)
        = ((c : Thread nD τ).loc main_v4 ↦{fullShare} V' main_v4) := rfl
    rw [eR, e0, e1, e2, e3, e4]
    have hj : (iprop(((c : Thread nD τ).loc main_v3 ↦{fullShare.left} V' main_v3) ∗ ((c : Thread nD τ).loc main_v3 ↦{fullShare.right} V' main_v3)) : sProp 𝕄)
        ⊢ ((c : Thread nD τ).loc main_v3 ↦{fullShare} V' main_v3) :=
      (pointsTo_share (PosShare.mem_left_op_right fullShare)).2
    iintro ⟨G0, G1, G2, G3, G4⟩
    ihave Hj := hj $$ [G1 G2]
    · isplitl [G1] <;> iassumption
    isplitl [G0]
    · iexact G0
    isplitl [Hj]
    · iexact Hj
    isplitl [G3]
    · iexact G3
    iexact G4
  · unfold Pipeline.unscopedRest
    exact bigSep_congr fun b hb => by
      rw [hrest b (fun e => (Finset.mem_sdiff.mp hb).2 (e ▸ Finset.mem_image.mpr ⟨4, Finset.mem_univ _, rfl⟩))]

end

end Cert.Kernel.Hand

end
-- ==== Proof.BitsHostKeep.lean ====
/-
  The arrays the program's first two steps leave alone.

  Before its three launches the program reshapes the two bias vectors into rows. The two reshapes write the two rows and
  nothing else, so every other array, the six arguments among them, holds afterwards what it held before.
-/
import proofs.«168926_g35270271435312_cont_8to1_b_957_4_alg».proof.Proof.Gen.Kernel.Launch
import Idealize.ShloMosaic.Lib.StableHlo.Run
import Idealize.ShloMosaic.Lib.ValueIdx

noncomputable section

namespace Cert.Kernel.HostBias

open Cert.Kernel Cert.Kernel.Gen Idealize.ShloMosaic Idealize.ShloMosaic.TcCoe Idealize.ShloMosaic.ValueIdx
  Idealize.ShloMosaic.StableHlo

/-- An array that is neither of the two rows holds after the reshapes what it held before. -/
theorem keep {F : FTy → Type} [FloatOps F] (W : Valuation τ sig (Elt F)) (r : Ref sig .tc) (h0 : r ≠ main_v0)
    (h1 : r ≠ main_v1) :
    StableHlo.after (hostOps0 (F := F)) W (Proc.devRef .tc r) = W (Proc.devRef .tc r) := by
  simp only [after_cons, after_nil]
  rw [reshape_result_ne _ _ _ _ _ _ _ h1, reshape_result_ne _ _ _ _ _ _ _ h0]

theorem keep_arg0 {F : FTy → Type} [FloatOps F] (W : Valuation τ sig (Elt F)) :
    StableHlo.after (hostOps0 (F := F)) W (Proc.devRef .tc main_arg0) = W (Proc.devRef .tc main_arg0) :=
  keep W main_arg0 (by decide) (by decide)

theorem keep_arg1 {F : FTy → Type} [FloatOps F] (W : Valuation τ sig (Elt F)) :
    StableHlo.after (hostOps0 (F := F)) W (Proc.devRef .tc main_arg1) = W (Proc.devRef .tc main_arg1) :=
  keep W main_arg1 (by decide) (by decide)

theorem keep_arg2 {F : FTy → Type} [FloatOps F] (W : Valuation τ sig (Elt F)) :
    StableHlo.after (hostOps0 (F := F)) W (Proc.devRef .tc main_arg2) = W (Proc.devRef .tc main_arg2) :=
  keep W main_arg2 (by decide) (by decide)

theorem keep_arg3 {F : FTy → Type} [FloatOps F] (W : Valuation τ sig (Elt F)) :
    StableHlo.after (hostOps0 (F := F)) W (Proc.devRef .tc main_arg3) = W (Proc.devRef .tc main_arg3) :=
  keep W main_arg3 (by decide) (by decide)

theorem keep_arg4 {F : FTy → Type} [FloatOps F] (W : Valuation τ sig (Elt F)) :
    StableHlo.after (hostOps0 (F := F)) W (Proc.devRef .tc main_arg4) = W (Proc.devRef .tc main_arg4) :=
  keep W main_arg4 (by decide) (by decide)

theorem keep_arg5 {F : FTy → Type} [FloatOps F] (W : Valuation τ sig (Elt F)) :
    StableHlo.after (hostOps0 (F := F)) W (Proc.devRef .tc main_arg5) = W (Proc.devRef .tc main_arg5) :=
  keep W main_arg5 (by decide) (by decide)

end Cert.Kernel.HostBias

end
-- ==== Proof.BitsRun.lean ====
import proofs.«168926_g35270271435312_cont_8to1_b_957_4_alg».proof.Proof.Gen.Kernel.Launch
import proofs.«168926_g35270271435312_cont_8to1_b_957_4_alg».proof.Proof.Gen.Kernel.Skeleton
import proofs.«168926_g35270271435312_cont_8to1_b_957_4_alg».proof.Proof.Gen.Kernel.Points
import proofs.«168926_g35270271435312_cont_8to1_b_957_4_alg».proof.Proof.BitsVals
import proofs.«168926_g35270271435312_cont_8to1_b_957_4_alg».proof.Proof.BitsShare
import proofs.«168926_g35270271435312_cont_8to1_b_957_4_alg».proof.Proof.BitsHostKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the two reshapes of the biases, then the three kernels, from the launch to the return

  @main is four segments: the host stretch of the two reshapes, then one kernel region each, every one entered from the
  buffer contents the step before it left. The launch theorem for a list of segments gives termination without a fault
  and the final memory at the last boundary's contents. -/

variable (m : (ℓ : Loc nD τ sig) → Buf (Elt F) ℓ) (ρ : Dev nD → PrngReg)

/-- At the first kernel's exit each of its arrays holds what the pipeline leaves, and every other buffer what it held. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (V2_of_ne m ρ c main_arg0 (by decide)).symm)
  | ⟨1, _⟩ => exact ((dat0 (V1 m ρ) c).arrAt_in 1 rfl _).trans ((A_eq0 (V1 m ρ) c 1).trans (V2_of_ne m ρ c main_arg2 (by decide)).symm)
  | ⟨2, _⟩ => exact (V2_same m ρ c).symm
theorem hrest0 (c : Dev nD) : ∀ b, b ∉ Finset.univ.image (Pipeline.arrRef spec0) → V2 m ρ c b = V1 m ρ c b :=
  fun b hb => V2_of_ne m ρ c b fun e => hb (e ▸ Finset.mem_image.mpr ⟨2, Finset.mem_univ _, rfl⟩)

/-! ## No step writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := Cert.Kernel.HostBias.keep_arg0 (W0 m ρ c)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := Cert.Kernel.HostBias.keep_arg1 (W0 m ρ c)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := Cert.Kernel.HostBias.keep_arg2 (W0 m ρ c)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := Cert.Kernel.HostBias.keep_arg3 (W0 m ρ c)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := Cert.Kernel.HostBias.keep_arg4 (W0 m ρ c)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := Cert.Kernel.HostBias.keep_arg5 (W0 m ρ c)
    _ = m ((c : Thread nD τ).loc main_arg5) := rfl

/-! ## The proof data family and the thread state -/

abbrev adm : (p : Fin 3) → (pcfgs (F := F) p).Adm := fun p => (cfgs p).toPCfg_adm
/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The kernel region 0 over the thread state "every unscoped buffer at the boundary's contents, the generator register at
    some state, nothing owed": its arrays taken out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The kernel region 1 over the thread state "every unscoped buffer at the boundary's contents, the generator register at
    some state, nothing owed": its arrays taken out of the unscoped buffers at entry and put back at the exit contents. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (V3_same m ρ c) (fun b hb => V3_of_ne m ρ c b hb)
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- The kernel region 2 over the thread state "every unscoped buffer at the boundary's contents, the generator register at
    some state, nothing owed": its arrays taken out of the unscoped buffers at entry and put back at the exit contents. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := entry2 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (V3 m ρ) c (V4 m ρ c) (V4_same m ρ c) (fun b hb => V4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha]
        · iexact Ha
        · iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c)⟩)
    (run_all m ρ)

/-- The run with the result named: the last kernel's result array ends at what its write-backs leave. -/
theorem run_value : θ_run defs (onTc (τ := τ) (main (F := F))) ⟨m, fun _ => 0, ρ⟩ (fun r => ∀ c : Dev nD,
      r.2.mem ((c.tc : Thread nD τ).loc main_v4) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4 (by decide))).trans (V4_same m ρ c),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c)⟩)
    (run_all m ρ)

end Cert.Kernel.Hand

end
-- ==== Proof.RefRunOps.lean ====
import proofs.«168926_g35270271435312_cont_8to1_b_957_4_alg».proof.Proof.RefRead

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 57 operations, in program order (a called function's operations stand in its call's place). -/
abbrev ops : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_arg1 main_v5 main_v6 (addf : (⟨S10000x10000, .f32⟩ : BufTy).Contents (Elt F) → (⟨S10000x10000, .f32⟩ : BufTy).Contents (Elt F) → (⟨S10000x10000, .f32⟩ : BufTy).Contents (Elt F)),
    binary main_arg0 main_arg2 main_v7 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    binary main_v6 main_v7 main_v8 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg3 main_v9 (broadcastInDim S1x32 ![1] bcast_S32_S1x32_1 : (⟨S32, .f32⟩ : BufTy).Contents (Elt F) → (⟨S1x32, .f32⟩ : BufTy).Contents (Elt F)),
    unary main_v9 main_v10 (broadcastInDim S10000x32 ![0, 1] bcast_S1x32_S10000x32_0_1 : (⟨S1x32, .f32⟩ : BufTy).Contents (Elt F) → (⟨S10000x32, .f32⟩ : BufTy).Contents (Elt F)),
    binary main_v8 main_v10 main_v11 (addf : (⟨S10000x32, .f32⟩ : BufTy).Contents (Elt F) → (⟨S10000x32, .f32⟩ : BufTy).Contents (Elt F) → (⟨S10000x32, .f32⟩ : BufTy).Contents (Elt F)),
    nullary main_cst (constant S_ .f32 0x00000000#32),
    binary main_v11 main_cst main_v12 ((fun x v => Host.reduceAdd x v reducesTo_S10000x32_S10000_d1 h_S_) : (⟨S10000x32, .f32⟩ : BufTy).Contents (Elt F) → (⟨S_, .f32⟩ : BufTy).Contents (Elt F) → (⟨S10000, .f32⟩ : BufTy).Contents (Elt F)),
    unary main_v12 main_v13 (broadcastInDim S10000x1 ![0] bcast_S10000_S10000x1_0 : (⟨S10000, .f32⟩ : BufTy).Contents (Elt F) → (⟨S10000x1, .f32⟩ : BufTy).Contents (Elt F)),
    nullary main_cst_0 (constant S_ .f32 0x42000000#32),
    unary main_cst_0 main_v14 (broadcastInDim S10000x1 ![] bcast_S_S10000x1 : (⟨S_, .f32⟩ : BufTy).Contents (Elt F) → (⟨S10000x1, .f32⟩ : BufTy).Contents (Elt F)),
    binary main_v13 main_v14 main_v15 (Host.divf : (⟨S10000x1, .f32⟩ : BufTy).Contents (Elt F) → (⟨S10000x1, .f32⟩ : BufTy).Contents (Elt F) → (⟨S10000x1, .f32⟩ : BufTy).Contents (Elt F)),
    unary main_v15 main_v16 (broadcastInDim S10000x32 ![0, 1] bcast_S10000x1_S10000x32_0_1 : (⟨S10000x1, .f32⟩ : BufTy).Contents (Elt F) → (⟨S10000x32, .f32⟩ : BufTy).Contents (Elt F)),
    binary main_v11 main_v16 main_v17 (subf : (⟨S10000x32, .f32⟩ : BufTy).Contents (Elt F) → (⟨S10000x32, .f32⟩ : BufTy).Contents (Elt F) → (⟨S10000x32, .f32⟩ : BufTy).Contents (Elt F)),
    TRef.binary (TRef.of (T := ⟨S10000x32, .f32⟩) main_v17) (TRef.of (T := ⟨S10000x32, .f32⟩) main_v17) (TRef.of (T := ⟨S10000x32, .f32⟩) main_call0_v0) mulf,
    TRef.nullary (TRef.of (T := ⟨S_, .f32⟩) main_call0_cst) (constant S_ .f32 0x00000000#32),
    TRef.binary (TRef.of (T := ⟨S10000x32, .f32⟩) main_call0_v0) (TRef.of (T := ⟨S_, .f32⟩) main_call0_cst) (TRef.of (T := ⟨S10000, .f32⟩) main_call0_v1) (fun x v => Host.reduceAdd x v reducesTo_S10000x32_S10000_d1 h_S_),
    TRef.unary (TRef.of (T := ⟨S10000, .f32⟩) main_call0_v1) (TRef.of (T := ⟨S10000x1, .f32⟩) main_call0_v2) (broadcastInDim S10000x1 ![0] bcast_S10000_S10000x1_0),
    TRef.unary (TRef.of (T := ⟨S10000x1, .f32⟩) main_call0_v2) (TRef.of (T := ⟨S10000x1, .f32⟩) main_v18) Host.sqrt,
    nullary main_cst_1 (constant S_ .f32 0x3F800000#32),
    unary main_cst_1 main_v19 (broadcastInDim S10000x32 ![] bcast_S_S10000x32 : (⟨S_, .f32⟩ : BufTy).Contents (Elt F) → (⟨S10000x32, .f32⟩ : BufTy).Contents (Elt F)),
    binary main_v19 main_v17 main_v20 (mulf : (⟨S10000x32, .f32⟩ : BufTy).Contents (Elt F) → (⟨S10000x32, .f32⟩ : BufTy).Contents (Elt F) → (⟨S10000x32, .f32⟩ : BufTy).Contents (Elt F)),
    nullary main_cst_2 (constant S_ .f32 0x358637BD#32),
    unary main_cst_2 main_v21 (broadcastInDim S10000x1 ![] bcast_S_S10000x1 : (⟨S_, .f32⟩ : BufTy).Contents (Elt F) → (⟨S10000x1, .f32⟩ : BufTy).Contents (Elt F)),
    binary main_v18 main_v21 main_v22 (addf : (⟨S10000x1, .f32⟩ : BufTy).Contents (Elt F) → (⟨S10000x1, .f32⟩ : BufTy).Contents (Elt F) → (⟨S10000x1, .f32⟩ : BufTy).Contents (Elt F)),
    unary main_v22 main_v23 (broadcastInDim S10000x32 ![0, 1] bcast_S10000x1_S10000x32_0_1 : (⟨S10000x1, .f32⟩ : BufTy).Contents (Elt F) → (⟨S10000x32, .f32⟩ : BufTy).Contents (Elt F)),
    binary main_v20 main_v23 main_v24 (Host.divf : (⟨S10000x32, .f32⟩ : BufTy).Contents (Elt F) → (⟨S10000x32, .f32⟩ : BufTy).Contents (Elt F) → (⟨S10000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x32, .f32⟩) main_call1_v0) (broadcastInDim S10000x32 ![] bcast_S_S10000x32),
    TRef.binary (TRef.of (T := ⟨S10000x32, .f32⟩) main_v24) (TRef.of (T := ⟨S10000x32, .f32⟩) main_call1_v0) (TRef.of (T := ⟨S10000x32, .f32⟩) main_v25) maximumf,
    binary main_v25 main_arg4 main_v26 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    binary main_v6 main_v26 main_v27 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg5 main_v28 (broadcastInDim S1x16 ![1] bcast_S16_S1x16_1 : (⟨S16, .f32⟩ : BufTy).Contents (Elt F) → (⟨S1x16, .f32⟩ : BufTy).Contents (Elt F)),
    unary main_v28 main_v29 (broadcastInDim S10000x16 ![0, 1] bcast_S1x16_S10000x16_0_1 : (⟨S1x16, .f32⟩ : BufTy).Contents (Elt F) → (⟨S10000x16, .f32⟩ : BufTy).Contents (Elt F)),
    binary main_v27 main_v29 main_v30 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call2_cst) (constant S_ .f32 0xFF800000#32),
    TRef.binary (TRef.of (T := ⟨S10000x16, .f32⟩) main_v30) (TRef.of (T := ⟨S_, .f32⟩) main_call2_cst) (TRef.of (T := ⟨S10000, .f32⟩) main_call2_v0) (fun x v => Host.reduce FloatOps.maximumf x v reducesTo_S10000x16_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x16, .f32⟩) main_call2_v4) (broadcastInDim S10000x16 ![0, 1] bcast_S10000x1_S10000x16_0_1),
    TRef.binary (TRef.of (T := ⟨S10000x16, .f32⟩) main_v30) (TRef.of (T := ⟨S10000x16, .f32⟩) main_call2_v4) (TRef.of (T := ⟨S10000x16, .f32⟩) main_call2_v5) subf,
    TRef.unary (TRef.of (T := ⟨S10000x16, .f32⟩) main_call2_v5) (TRef.of (T := ⟨S10000x16, .f32⟩) main_call2_v6) Host.exp,
    TRef.nullary (TRef.of (T := ⟨S_, .f32⟩) main_call2_cst_1) (constant S_ .f32 0x00000000#32),
    TRef.binary (TRef.of (T := ⟨S10000x16, .f32⟩) main_call2_v6) (TRef.of (T := ⟨S_, .f32⟩) main_call2_cst_1) (TRef.of (T := ⟨S10000, .f32⟩) main_call2_v7) (fun x v => Host.reduceAdd x v reducesTo_S10000x16_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x16, .f32⟩) main_call2_v10) (broadcastInDim S10000x16 ![0, 1] bcast_S10000x1_S10000x16_0_1),
    TRef.binary (TRef.of (T := ⟨S10000x16, .f32⟩) main_call2_v5) (TRef.of (T := ⟨S10000x16, .f32⟩) main_call2_v10) (TRef.of (T := ⟨S10000x16, .f32⟩) main_v31) subf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The adjacency matrix plus the identity: the identity as the indicator of equal row and column counters. -/
def c1 : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_arg1 main_v5 main_v6 (addf : (⟨S10000x10000, .f32⟩ : BufTy).Contents (Elt F) → (⟨S10000x10000, .f32⟩ : BufTy).Contents (Elt F) → (⟨S10000x10000, .f32⟩ : BufTy).Contents (Elt F)) ]

/-- The first layer: the normalized adjacency times (features times weights), plus the bias along rows. -/
def c2 : List (HloOp τ sig (Elt F)) :=
  [ binary main_arg0 main_arg2 main_v7 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    binary main_v6 main_v7 main_v8 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg3 main_v9 (broadcastInDim S1x32 ![1] bcast_S32_S1x32_1 : (⟨S32, .f32⟩ : BufTy).Contents (Elt F) → (⟨S1x32, .f32⟩ : BufTy).Contents (Elt F)),
    unary main_v9 main_v10 (broadcastInDim S10000x32 ![0, 1] bcast_S1x32_S10000x32_0_1 : (⟨S1x32, .f32⟩ : BufTy).Contents (Elt F) → (⟨S10000x32, .f32⟩ : BufTy).Contents (Elt F)),
    binary main_v8 main_v10 main_v11 (addf : (⟨S10000x32, .f32⟩ : BufTy).Contents (Elt F) → (⟨S10000x32, .f32⟩ : BufTy).Contents (Elt F) → (⟨S10000x32, .f32⟩ : BufTy).Contents (Elt F)) ]

/-- Centering: each row minus its mean over the 32 columns. -/
def c3 : List (HloOp τ sig (Elt F)) :=
  [ nullary main_cst (constant S_ .f32 0x00000000#32),
    binary main_v11 main_cst main_v12 ((fun x v => Host.reduceAdd x v reducesTo_S10000x32_S10000_d1 h_S_) : (⟨S10000x32, .f32⟩ : BufTy).Contents (Elt F) → (⟨S_, .f32⟩ : BufTy).Contents (Elt F) → (⟨S10000, .f32⟩ : BufTy).Contents (Elt F)),
    unary main_v12 main_v13 (broadcastInDim S10000x1 ![0] bcast_S10000_S10000x1_0 : (⟨S10000, .f32⟩ : BufTy).Contents (Elt F) → (⟨S10000x1, .f32⟩ : BufTy).Contents (Elt F)),
    nullary main_cst_0 (constant S_ .f32 0x42000000#32),
    unary main_cst_0 main_v14 (broadcastInDim S10000x1 ![] bcast_S_S10000x1 : (⟨S_, .f32⟩ : BufTy).Contents (Elt F) → (⟨S10000x1, .f32⟩ : BufTy).Contents (Elt F)),
    binary main_v13 main_v14 main_v15 (Host.divf : (⟨S10000x1, .f32⟩ : BufTy).Contents (Elt F) → (⟨S10000x1, .f32⟩ : BufTy).Contents (Elt F) → (⟨S10000x1, .f32⟩ : BufTy).Contents (Elt F)),
    unary main_v15 main_v16 (broadcastInDim S10000x32 ![0, 1] bcast_S10000x1_S10000x32_0_1 : (⟨S10000x1, .f32⟩ : BufTy).Contents (Elt F) → (⟨S10000x32, .f32⟩ : BufTy).Contents (Elt F)),
    binary main_v11 main_v16 main_v17 (subf : (⟨S10000x32, .f32⟩ : BufTy).Contents (Elt F) → (⟨S10000x32, .f32⟩ : BufTy).Contents (Elt F) → (⟨S10000x32, .f32⟩ : BufTy).Contents (Elt F)) ]

/-- Scaling: the centered rows over the square root of their sum of squares plus a small constant. -/
def c4 : List (HloOp τ sig (Elt F)) :=
  [ TRef.binary (TRef.of (T := ⟨S10000x32, .f32⟩) main_v17) (TRef.of (T := ⟨S10000x32, .f32⟩) main_v17) (TRef.of (T := ⟨S10000x32, .f32⟩) main_call0_v0) mulf,
    TRef.nullary (TRef.of (T := ⟨S_, .f32⟩) main_call0_cst) (constant S_ .f32 0x00000000#32),
    TRef.binary (TRef.of (T := ⟨S10000x32, .f32⟩) main_call0_v0) (TRef.of (T := ⟨S_, .f32⟩) main_call0_cst) (TRef.of (T := ⟨S10000, .f32⟩) main_call0_v1) (fun x v => Host.reduceAdd x v reducesTo_S10000x32_S10000_d1 h_S_),
    TRef.unary (TRef.of (T := ⟨S10000, .f32⟩) main_call0_v1) (TRef.of (T := ⟨S10000x1, .f32⟩) main_call0_v2) (broadcastInDim S10000x1 ![0] bcast_S10000_S10000x1_0),
    TRef.unary (TRef.of (T := ⟨S10000x1, .f32⟩) main_call0_v2) (TRef.of (T := ⟨S10000x1, .f32⟩) main_v18) Host.sqrt,
    nullary main_cst_1 (constant S_ .f32 0x3F800000#32),
    unary main_cst_1 main_v19 (broadcastInDim S10000x32 ![] bcast_S_S10000x32 : (⟨S_, .f32⟩ : BufTy).Contents (Elt F) → (⟨S10000x32, .f32⟩ : BufTy).Contents (Elt F)),
    binary main_v19 main_v17 main_v20 (mulf : (⟨S10000x32, .f32⟩ : BufTy).Contents (Elt F) → (⟨S10000x32, .f32⟩ : BufTy).Contents (Elt F) → (⟨S10000x32, .f32⟩ : BufTy).Contents (Elt F)),
    nullary main_cst_2 (constant S_ .f32 0x358637BD#32),
    unary main_cst_2 main_v21 (broadcastInDim S10000x1 ![] bcast_S_S10000x1 : (⟨S_, .f32⟩ : BufTy).Contents (Elt F) → (⟨S10000x1, .f32⟩ : BufTy).Contents (Elt F)),
    binary main_v18 main_v21 main_v22 (addf : (⟨S10000x1, .f32⟩ : BufTy).Contents (Elt F) → (⟨S10000x1, .f32⟩ : BufTy).Contents (Elt F) → (⟨S10000x1, .f32⟩ : BufTy).Contents (Elt F)),
    unary main_v22 main_v23 (broadcastInDim S10000x32 ![0, 1] bcast_S10000x1_S10000x32_0_1 : (⟨S10000x1, .f32⟩ : BufTy).Contents (Elt F) → (⟨S10000x32, .f32⟩ : BufTy).Contents (Elt F)),
    binary main_v20 main_v23 main_v24 (Host.divf : (⟨S10000x32, .f32⟩ : BufTy).Contents (Elt F) → (⟨S10000x32, .f32⟩ : BufTy).Contents (Elt F) → (⟨S10000x32, .f32⟩ : BufTy).Contents (Elt F)) ]

/-- The positive part, then times the second layer's weights. -/
def c5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S10000x32, .f32⟩) main_call1_v0) (broadcastInDim S10000x32 ![] bcast_S_S10000x32),
    TRef.binary (TRef.of (T := ⟨S10000x32, .f32⟩) main_v24) (TRef.of (T := ⟨S10000x32, .f32⟩) main_call1_v0) (TRef.of (T := ⟨S10000x32, .f32⟩) main_v25) maximumf,
    binary main_v25 main_arg4 main_v26 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)) ]

/-- The second layer: the adjacency times that product, plus the bias along rows. -/
def c6 : List (HloOp τ sig (Elt F)) :=
  [ binary main_v6 main_v26 main_v27 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg5 main_v28 (broadcastInDim S1x16 ![1] bcast_S16_S1x16_1 : (⟨S16, .f32⟩ : BufTy).Contents (Elt F) → (⟨S1x16, .f32⟩ : BufTy).Contents (Elt F)),
    unary main_v28 main_v29 (broadcastInDim S10000x16 ![0, 1] bcast_S1x16_S10000x16_0_1 : (⟨S1x16, .f32⟩ : BufTy).Contents (Elt F) → (⟨S10000x16, .f32⟩ : BufTy).Contents (Elt F)),
    binary main_v27 main_v29 main_v30 (addf : (⟨S10000x16, .f32⟩ : BufTy).Contents (Elt F) → (⟨S10000x16, .f32⟩ : BufTy).Contents (Elt F) → (⟨S10000x16, .f32⟩ : BufTy).Contents (Elt F)) ]

/-- The logarithm of the softmax along rows: subtract the row maximum, then the logarithm of the row sum of exponentials. -/
def c7 : List (HloOp τ sig (Elt F)) :=
  [ TRef.nullary (TRef.of (T := ⟨S_, .f32⟩) main_call2_cst) (constant S_ .f32 0xFF800000#32),
    TRef.binary (TRef.of (T := ⟨S10000x16, .f32⟩) main_v30) (TRef.of (T := ⟨S_, .f32⟩) main_call2_cst) (TRef.of (T := ⟨S10000, .f32⟩) main_call2_v0) (fun x v => Host.reduce FloatOps.maximumf x v reducesTo_S10000x16_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x16, .f32⟩) main_call2_v4) (broadcastInDim S10000x16 ![0, 1] bcast_S10000x1_S10000x16_0_1),
    TRef.binary (TRef.of (T := ⟨S10000x16, .f32⟩) main_v30) (TRef.of (T := ⟨S10000x16, .f32⟩) main_call2_v4) (TRef.of (T := ⟨S10000x16, .f32⟩) main_call2_v5) subf,
    TRef.unary (TRef.of (T := ⟨S10000x16, .f32⟩) main_call2_v5) (TRef.of (T := ⟨S10000x16, .f32⟩) main_call2_v6) Host.exp,
    TRef.nullary (TRef.of (T := ⟨S_, .f32⟩) main_call2_cst_1) (constant S_ .f32 0x00000000#32),
    TRef.binary (TRef.of (T := ⟨S10000x16, .f32⟩) main_call2_v6) (TRef.of (T := ⟨S_, .f32⟩) main_call2_cst_1) (TRef.of (T := ⟨S10000, .f32⟩) main_call2_v7) (fun x v => Host.reduceAdd x v reducesTo_S10000x16_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x16, .f32⟩) main_call2_v10) (broadcastInDim S10000x16 ![0, 1] bcast_S10000x1_S10000x16_0_1),
    TRef.binary (TRef.of (T := ⟨S10000x16, .f32⟩) main_call2_v5) (TRef.of (T := ⟨S10000x16, .f32⟩) main_call2_v10) (TRef.of (T := ⟨S10000x16, .f32⟩) main_v31) subf ]

/-- The whole line is the seven parts one after the other. -/
theorem ops_split : (ops : List (HloOp τ sig (Elt F))) = c1 ++ (c2 ++ (c3 ++ (c4 ++ (c5 ++ (c6 ++ c7))))) := rfl

/-- Running two lines one after the other is running the first, then the second from where the first ended. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.RefRun

end
-- ==== Proof.RefRun.lean ====
import proofs.«168926_g35270271435312_cont_8to1_b_957_4_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## What each part leaves untouched

A buffer that no operation of a part writes holds after the part what it held before: stated for the arguments and the
self-looped adjacency, which later parts read. -/

theorem c1_arg0 (W : Valuation τ sig (Elt F)) : after c1 W (Proc.devRef .tc main_arg0) = W (Proc.devRef .tc main_arg0) := by
  unfold c1; after_results_simp
theorem c1_arg2 (W : Valuation τ sig (Elt F)) : after c1 W (Proc.devRef .tc main_arg2) = W (Proc.devRef .tc main_arg2) := by
  unfold c1; after_results_simp
theorem c1_arg3 (W : Valuation τ sig (Elt F)) : after c1 W (Proc.devRef .tc main_arg3) = W (Proc.devRef .tc main_arg3) := by
  unfold c1; after_results_simp
theorem c1_arg4 (W : Valuation τ sig (Elt F)) : after c1 W (Proc.devRef .tc main_arg4) = W (Proc.devRef .tc main_arg4) := by
  unfold c1; after_results_simp
theorem c1_arg5 (W : Valuation τ sig (Elt F)) : after c1 W (Proc.devRef .tc main_arg5) = W (Proc.devRef .tc main_arg5) := by
  unfold c1; after_results_simp
theorem c2_v6 (W : Valuation τ sig (Elt F)) : after c2 W (Proc.devRef .tc main_v6) = W (Proc.devRef .tc main_v6) := by
  unfold c2; after_results_simp
theorem c2_arg4 (W : Valuation τ sig (Elt F)) : after c2 W (Proc.devRef .tc main_arg4) = W (Proc.devRef .tc main_arg4) := by
  unfold c2; after_results_simp
theorem c2_arg5 (W : Valuation τ sig (Elt F)) : after c2 W (Proc.devRef .tc main_arg5) = W (Proc.devRef .tc main_arg5) := by
  unfold c2; after_results_simp
theorem c3_v6 (W : Valuation τ sig (Elt F)) : after c3 W (Proc.devRef .tc main_v6) = W (Proc.devRef .tc main_v6) := by
  unfold c3; after_results_simp
theorem c3_arg4 (W : Valuation τ sig (Elt F)) : after c3 W (Proc.devRef .tc main_arg4) = W (Proc.devRef .tc main_arg4) := by
  unfold c3; after_results_simp
theorem c3_arg5 (W : Valuation τ sig (Elt F)) : after c3 W (Proc.devRef .tc main_arg5) = W (Proc.devRef .tc main_arg5) := by
  unfold c3; after_results_simp
theorem c4_v6 (W : Valuation τ sig (Elt F)) : after c4 W (Proc.devRef .tc main_v6) = W (Proc.devRef .tc main_v6) := by
  unfold c4; after_results_simp
theorem c4_arg4 (W : Valuation τ sig (Elt F)) : after c4 W (Proc.devRef .tc main_arg4) = W (Proc.devRef .tc main_arg4) := by
  unfold c4; after_results_simp
theorem c4_arg5 (W : Valuation τ sig (Elt F)) : after c4 W (Proc.devRef .tc main_arg5) = W (Proc.devRef .tc main_arg5) := by
  unfold c4; after_results_simp
theorem c5_v6 (W : Valuation τ sig (Elt F)) : after c5 W (Proc.devRef .tc main_v6) = W (Proc.devRef .tc main_v6) := by
  unfold c5; after_results_simp
theorem c5_arg5 (W : Valuation τ sig (Elt F)) : after c5 W (Proc.devRef .tc main_arg5) = W (Proc.devRef .tc main_arg5) := by
  unfold c5; after_results_simp

/-! ## What each part computes

For any contents `W` before the part: if the buffers the part reads hold the stages they should (as functions of the
six arguments `x0 … x5`), the buffer it hands on holds its stage. -/

/-- After the first part the buffer of the self-looped adjacency holds it, as a function of the adjacency argument. -/
theorem c1_v6 (W : Valuation τ sig (Elt F)) :
    after c1 W (Proc.devRef .tc main_v6) = val_main_v6 (W (Proc.devRef .tc main_arg1)) := by
  unfold c1; after_results_simp
  rfl

/-- The first layer's output, from the self-looped adjacency and the features, weights and bias. -/
theorem c2_v11 (W : Valuation τ sig (Elt F)) (x0 : (⟨S10000x128, .f32⟩ : BufTy).Contents (Elt F)) (x1 : (⟨S10000x10000, .f32⟩ : BufTy).Contents (Elt F)) (x2 : (⟨S128x32, .f32⟩ : BufTy).Contents (Elt F)) (x3 : (⟨S32, .f32⟩ : BufTy).Contents (Elt F))
    (h6 : W (Proc.devRef .tc main_v6) = val_main_v6 x1) (h0 : W (Proc.devRef .tc main_arg0) = x0) (h2 : W (Proc.devRef .tc main_arg2) = x2) (h3 : W (Proc.devRef .tc main_arg3) = x3) :
    after c2 W (Proc.devRef .tc main_v11) = val_main_v11 x0 x1 x2 x3 := by
  unfold c2; after_results_simp
  rw [h6, h0, h2, h3]
  try simp only [cast_cast, cast_eq]
  rfl

/-- The centered rows, from the first layer's output. -/
theorem c3_v17 (W : Valuation τ sig (Elt F)) (x0 : (⟨S10000x128, .f32⟩ : BufTy).Contents (Elt F)) (x1 : (⟨S10000x10000, .f32⟩ : BufTy).Contents (Elt F)) (x2 : (⟨S128x32, .f32⟩ : BufTy).Contents (Elt F)) (x3 : (⟨S32, .f32⟩ : BufTy).Contents (Elt F))
    (h11 : W (Proc.devRef .tc main_v11) = val_main_v11 x0 x1 x2 x3) :
    after c3 W (Proc.devRef .tc main_v17) = val_main_v17 x0 x1 x2 x3 := by
  unfold c3; after_results_simp
  rw [h11]
  try simp only [cast_cast, cast_eq]
  rfl

/-- The scaled rows, from the centered rows. -/
theorem c4_v24 (W : Valuation τ sig (Elt F)) (x0 : (⟨S10000x128, .f32⟩ : BufTy).Contents (Elt F)) (x1 : (⟨S10000x10000, .f32⟩ : BufTy).Contents (Elt F)) (x2 : (⟨S128x32, .f32⟩ : BufTy).Contents (Elt F)) (x3 : (⟨S32, .f32⟩ : BufTy).Contents (Elt F))
    (h17 : W (Proc.devRef .tc main_v17) = val_main_v17 x0 x1 x2 x3) :
    after c4 W (Proc.devRef .tc main_v24) = val_main_v24 x0 x1 x2 x3 := by
  unfold c4; after_results_simp
  rw [h17]
  try simp only [cast_cast, cast_eq]
  rfl

/-- The positive part times the second weights, from the scaled rows. -/
theorem c5_v26 (W : Valuation τ sig (Elt F)) (x0 : (⟨S10000x128, .f32⟩ : BufTy).Contents (Elt F)) (x1 : (⟨S10000x10000, .f32⟩ : BufTy).Contents (Elt F)) (x2 : (⟨S128x32, .f32⟩ : BufTy).Contents (Elt F)) (x3 : (⟨S32, .f32⟩ : BufTy).Contents (Elt F)) (x4 : (⟨S32x16, .f32⟩ : BufTy).Contents (Elt F))
    (h24 : W (Proc.devRef .tc main_v24) = val_main_v24 x0 x1 x2 x3) (h4 : W (Proc.devRef .tc main_arg4) = x4) :
    after c5 W (Proc.devRef .tc main_v26) = val_main_v26 x0 x1 x2 x3 x4 := by
  unfold c5; after_results_simp
  rw [h24, h4]
  try simp only [cast_cast, cast_eq]
  rfl

/-- The second layer's output, from the self-looped adjacency, that product and the second bias. -/
theorem c6_v30 (W : Valuation τ sig (Elt F)) (x0 : (⟨S10000x128, .f32⟩ : BufTy).Contents (Elt F)) (x1 : (⟨S10000x10000, .f32⟩ : BufTy).Contents (Elt F)) (x2 : (⟨S128x32, .f32⟩ : BufTy).Contents (Elt F)) (x3 : (⟨S32, .f32⟩ : BufTy).Contents (Elt F)) (x4 : (⟨S32x16, .f32⟩ : BufTy).Contents (Elt F)) (x5 : (⟨S16, .f32⟩ : BufTy).Contents (Elt F))
    (h6 : W (Proc.devRef .tc main_v6) = val_main_v6 x1) (h26 : W (Proc.devRef .tc main_v26) = val_main_v26 x0 x1 x2 x3 x4) (h5 : W (Proc.devRef .tc main_arg5) = x5) :
    after c6 W (Proc.devRef .tc main_v30) = val_main_v30 x0 x1 x2 x3 x4 x5 := by
  unfold c6; after_results_simp
  rw [h6, h26, h5]
  try simp only [cast_cast, cast_eq]
  rfl

/-- The logarithm of the softmax along rows, from the second layer's output. -/
theorem c7_v31 (W : Valuation τ sig (Elt F)) (x0 : (⟨S10000x128, .f32⟩ : BufTy).Contents (Elt F)) (x1 : (⟨S10000x10000, .f32⟩ : BufTy).Contents (Elt F)) (x2 : (⟨S128x32, .f32⟩ : BufTy).Contents (Elt F)) (x3 : (⟨S32, .f32⟩ : BufTy).Contents (Elt F)) (x4 : (⟨S32x16, .f32⟩ : BufTy).Contents (Elt F)) (x5 : (⟨S16, .f32⟩ : BufTy).Contents (Elt F))
    (h30 : W (Proc.devRef .tc main_v30) = val_main_v30 x0 x1 x2 x3 x4 x5) :
    after c7 W (Proc.devRef .tc main_v31) = val_main_v31 x0 x1 x2 x3 x4 x5 := by
  unfold c7; after_results_simp
  rw [h30]
  try simp only [cast_cast, cast_eq]
  rfl

/-! ## The whole line -/

/-- From any contents the whole line leaves the result buffer at the last stage's value of the six arguments as they were:
    each part's result is the matching stage of what the parts before it left. -/
theorem after_ops_v31 (V : Valuation τ sig (Elt F)) :
    after ops V (Proc.devRef .tc main_v31)
      = val_main_v31 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have e1 := c1_v6 V
  have e2 := c2_v11 (after c1 V) (V (Proc.devRef .tc main_arg0)) (V (Proc.devRef .tc main_arg1)) (V (Proc.devRef .tc main_arg2)) (V (Proc.devRef .tc main_arg3)) e1 (c1_arg0 V) (c1_arg2 V) (c1_arg3 V)
  have e3 := c3_v17 (after c2 (after c1 V)) (V (Proc.devRef .tc main_arg0)) (V (Proc.devRef .tc main_arg1)) (V (Proc.devRef .tc main_arg2)) (V (Proc.devRef .tc main_arg3)) e2
  have e4 := c4_v24 (after c3 (after c2 (after c1 V))) (V (Proc.devRef .tc main_arg0)) (V (Proc.devRef .tc main_arg1)) (V (Proc.devRef .tc main_arg2)) (V (Proc.devRef .tc main_arg3)) e3
  have e5 := c5_v26 (after c4 (after c3 (after c2 (after c1 V)))) (V (Proc.devRef .tc main_arg0)) (V (Proc.devRef .tc main_arg1)) (V (Proc.devRef .tc main_arg2)) (V (Proc.devRef .tc main_arg3)) (V (Proc.devRef .tc main_arg4)) e4
    ((c4_arg4 _).trans ((c3_arg4 _).trans ((c2_arg4 _).trans (c1_arg4 V))))
  have e6 := c6_v30 (after c5 (after c4 (after c3 (after c2 (after c1 V))))) (V (Proc.devRef .tc main_arg0)) (V (Proc.devRef .tc main_arg1)) (V (Proc.devRef .tc main_arg2)) (V (Proc.devRef .tc main_arg3)) (V (Proc.devRef .tc main_arg4)) (V (Proc.devRef .tc main_arg5))
    ((c5_v6 _).trans ((c4_v6 _).trans ((c3_v6 _).trans ((c2_v6 _).trans e1)))) e5
    ((c5_arg5 _).trans ((c4_arg5 _).trans ((c3_arg5 _).trans ((c2_arg5 _).trans (c1_arg5 V)))))
  have e7 := c7_v31 (after c6 (after c5 (after c4 (after c3 (after c2 (after c1 V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) e6
  rw [ops_split]
  simp only [after_append]
  exact e7

set_option maxRecDepth 8192 in
theorem after_ops_arg0 (V : Valuation τ sig (Elt F)) : after ops V (Proc.devRef .tc main_arg0) = V (Proc.devRef .tc main_arg0) := by
  after_results_simp
set_option maxRecDepth 8192 in
theorem after_ops_arg1 (V : Valuation τ sig (Elt F)) : after ops V (Proc.devRef .tc main_arg1) = V (Proc.devRef .tc main_arg1) := by
  after_results_simp
set_option maxRecDepth 8192 in
theorem after_ops_arg2 (V : Valuation τ sig (Elt F)) : after ops V (Proc.devRef .tc main_arg2) = V (Proc.devRef .tc main_arg2) := by
  after_results_simp
set_option maxRecDepth 8192 in
theorem after_ops_arg3 (V : Valuation τ sig (Elt F)) : after ops V (Proc.devRef .tc main_arg3) = V (Proc.devRef .tc main_arg3) := by
  after_results_simp
set_option maxRecDepth 8192 in
theorem after_ops_arg4 (V : Valuation τ sig (Elt F)) : after ops V (Proc.devRef .tc main_arg4) = V (Proc.devRef .tc main_arg4) := by
  after_results_simp
set_option maxRecDepth 8192 in
theorem after_ops_arg5 (V : Valuation τ sig (Elt F)) : after ops V (Proc.devRef .tc main_arg5) = V (Proc.devRef .tc main_arg5) := by
  after_results_simp

/-- The reference's run: on every device the result buffer ends at the last stage's value of the six arguments as the
    launch memory has them, and the six arguments end as they were. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v31) = Cert.ReferenceIdeal.Read.val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v31).trans (after_ops_v31 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c))⟩)
    (run_seq scopedRefs_eq scopedSems_eq defs main (fun _ => ops) main_eq (fun _ => ops_sub) m ρ)

end Cert.RefRun

end
-- ==== Proof.RefLaw.lean ====
/-
  Two facts about the network when every input entry is a real number.

  The self-loop law. The reference adds the identity matrix to the adjacency before it multiplies: row `p` of
  `(a + I)·s` is `∑ k, (a p k + [p = k]) * s k q`. On the reals this is `(∑ k, a p k * s k q) + s p q`: the product
  distributes over the sum and the indicator picks out the term `k = p`. On the extended reals the product does not
  distribute in general (an infinite entry times a difference of signs), so the law is stated for real entries and proved
  in the reals.

  Finiteness. A finite sum of products of reals is a real, so a matrix product of real matrices is real. A row of reals
  has a real mean (the width 32 is not zero), a real centred row, a real nonnegative sum of squares, hence a real
  nonnegative norm; the norm plus a positive constant is a positive real, the quotient by it a real, and its maximum
  with zero a real. So the hidden activations and their projection are real.
-/
import proofs.«168926_g35270271435312_cont_8to1_b_957_4_alg».proof.Proof.Spec

noncomputable section

namespace Cert.RefLaw

open Idealize.ShloMosaic Idealize.ShloMosaic.ValueIdx Cert.LibPlainDot Cert.Spec

/-- Every entry of the array is a real number. -/
def AllReal {S : Idealize.ShloMosaic.Shape} (x : S.Idx → EReal) : Prop := ∀ i, ∃ r : ℝ, x i = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type*} [Fintype ι] (f : ι → EReal) (h : ∀ i, ∃ r : ℝ, f i = (r : EReal)) :
    ∃ r : ℝ, ∑ i, f i = (r : EReal) := by
  choose g hg using h
  exact ⟨∑ i, g i, by rw [coe_sum]; exact Finset.sum_congr rfl fun i _ => hg i⟩

/-- The self-loop law: for real entries, the row of `a` with one added on the diagonal, times `s`, is the row of `a`
    times `s` plus row `p` of `s`. -/
theorem selfLoop {K N : ℕ} (a : Mat K K) (s : Mat K N) (ha : AllReal a) (hs : AllReal s) (p : Fin K) (q : Fin N) :
    ∑ k : Fin K, (a (ix2 p k) + (if p.val = k.val then (1 : EReal) else 0)) * s (ix2 k q)
      = (∑ k : Fin K, a (ix2 p k) * s (ix2 k q)) + s (ix2 p q) := by
  choose ra hra using ha
  choose rs hrs using hs
  have e1 : ∀ k : Fin K, (a (ix2 p k) + (if p.val = k.val then (1 : EReal) else 0)) * s (ix2 k q)
      = ((ra (ix2 p k) * rs (ix2 k q) + (if p = k then rs (ix2 k q) else 0) : ℝ) : EReal) := by
    intro k
    rw [hra, hrs]
    by_cases h : p = k
    · rw [if_pos (congrArg Fin.val h), if_pos h, ← EReal.coe_one, ← EReal.coe_add, ← EReal.coe_mul, add_mul, one_mul]
    · rw [if_neg (fun e => h (Fin.ext e)), if_neg h, add_zero, add_zero, ← EReal.coe_mul]
  have e2 : ∀ k : Fin K, a (ix2 p k) * s (ix2 k q) = ((ra (ix2 p k) * rs (ix2 k q) : ℝ) : EReal) := by
    intro k; rw [hra, hrs, ← EReal.coe_mul]
  rw [Finset.sum_congr rfl fun k _ => e1 k, Finset.sum_congr rfl fun k _ => e2 k, hrs, ← coe_sum, ← coe_sum,
    ← EReal.coe_add, Finset.sum_add_distrib, Finset.sum_ite_eq Finset.univ p, if_pos (Finset.mem_univ p)]

/-- A product of real matrices is real. -/
theorem rowsTimes_real {M K N : ℕ} (l : Mat M K) (r : Mat K N) (hl : AllReal l) (hr : AllReal r) :
    AllReal (rowsTimes l r) := by
  intro j
  refine real_sum _ fun k => ?_
  obtain ⟨a, ha⟩ := hl (ix2 (⟨(j 0).val, idx2_lt0 j⟩ : Fin M) k)
  obtain ⟨b, hb⟩ := hr (ix2 k (⟨(j 1).val, idx2_lt1 j⟩ : Fin N))
  exact ⟨a * b, by rw [ha, hb, EReal.coe_mul]⟩

/-- The number of hidden units is 32. -/
theorem width_eq : width = ((32 : ℝ) : EReal) := by
  unfold width
  simp [Ideal.ofBits, Ideal.ieee, -EReal.coe_mul]
  norm_num

/-- The constant added to the norm is a positive real. -/
theorem eps_pos : ∃ e : ℝ, 0 < e ∧ eps = (e : EReal) := by
  unfold eps
  simp [Ideal.ofBits, Ideal.ieee, -EReal.coe_mul]

/-- A real over a nonzero real is their real quotient. -/
theorem div_real (x y : ℝ) (hy : y ≠ 0) : Ideal.div (x : EReal) (y : EReal) = ((x / y : ℝ) : EReal) := by
  rw [Ideal.div_coe hy, ← EReal.coe_mul, mul_one_div]

/-- The square root of a nonnegative real is the real square root. -/
theorem sqrt_real (t : ℝ) (ht : 0 ≤ t) : Ideal.sqrt (t : EReal) = ((Real.sqrt t : ℝ) : EReal) := by
  rw [Ideal.sqrt_coe, if_neg (not_lt.mpr ht)]

/-- A row of reals, centred, divided by its norm plus the constant and clamped at zero, is a row of reals. -/
theorem pairNormRelu_real {N : ℕ} (h : Fin N → EReal) (hh : ∀ q, ∃ r : ℝ, h q = (r : EReal)) (q : Fin N) :
    ∃ r : ℝ, pairNormRelu h q = (r : EReal) := by
  choose g hg using hh
  obtain ⟨e, he, hE⟩ := eps_pos
  have hm : rowMean h = (((∑ i, g i) / 32 : ℝ) : EReal) := by
    unfold rowMean
    rw [Finset.sum_congr rfl fun i _ => hg i, ← coe_sum, width_eq, div_real _ _ (by norm_num)]
  have hc : ∀ i, centred h i = ((g i - (∑ i, g i) / 32 : ℝ) : EReal) := fun i => by
    unfold centred; rw [hm, hg, ← EReal.coe_sub]
  have hsq : ∀ i, centred h i * centred h i
      = (((g i - (∑ i, g i) / 32) * (g i - (∑ i, g i) / 32) : ℝ) : EReal) := fun i => by
    rw [hc i, ← EReal.coe_mul]
  have hn : rowNorm h
      = ((Real.sqrt (∑ i, (g i - (∑ i, g i) / 32) * (g i - (∑ i, g i) / 32)) : ℝ) : EReal) := by
    unfold rowNorm
    rw [Finset.sum_congr rfl fun i _ => hsq i, ← coe_sum,
      sqrt_real _ (Finset.sum_nonneg fun i _ => mul_self_nonneg _)]
  unfold pairNormRelu
  rw [hc, hn, hE, ← EReal.coe_add,
    div_real _ _ (ne_of_gt (add_pos_of_nonneg_of_pos (Real.sqrt_nonneg _) he)), ← EReal.coe_zero]
  exact ⟨_, (EReal.coe_strictMono.monotone.map_max).symm⟩

/-- An entry of `a·s + sr + b` is real when the entries of `a`, `s`, `sr` and `b` are. -/
theorem conv_real {R K N : ℕ} (a : Mat R K) (s : Mat K N) (sr : Mat R N) (b : Fin N → EReal) (ha : AllReal a)
    (hs : AllReal s) (hsr : AllReal sr) (hb : ∀ q, ∃ r : ℝ, b q = (r : EReal)) (p : Fin R) (q : Fin N) :
    ∃ r : ℝ, conv a s sr b p q = (r : EReal) := by
  obtain ⟨x, hx⟩ := rowsTimes_real a s ha hs (ix2 p q)
  obtain ⟨y, hy⟩ := hsr (ix2 p q)
  obtain ⟨z, hz⟩ := hb q
  exact ⟨x + y + z, by unfold conv; rw [hx, hy, hz, EReal.coe_add, EReal.coe_add]⟩

/-- The hidden activations are real. -/
theorem hidden_real {R K : ℕ} (a : Mat R K) (s : Mat K 32) (sr : Mat R 32) (b : Fin 32 → EReal) (ha : AllReal a)
    (hs : AllReal s) (hsr : AllReal sr) (hb : ∀ q, ∃ r : ℝ, b q = (r : EReal)) : AllReal (hidden a s sr b) :=
  fun _ => pairNormRelu_real _ (fun q => conv_real a s sr b ha hs hsr hb _ q) _

/-- The projected features are real. -/
theorem support_real (x : Mat 10000 128) (w0 : Mat 128 32) (hx : AllReal x) (hw0 : AllReal w0) :
    AllReal (support x w0) := rowsTimes_real x w0 hx hw0

/-- The first layer's result is real. -/
theorem support2_real (x : Mat 10000 128) (adj : Mat 10000 10000) (w0 : Mat 128 32) (b0 : Fin 32 → EReal)
    (w1 : Mat 32 16) (hx : AllReal x) (hadj : AllReal adj) (hw0 : AllReal w0)
    (hb0 : ∀ q, ∃ r : ℝ, b0 q = (r : EReal)) (hw1 : AllReal w1) : AllReal (support2 x adj w0 b0 w1) :=
  rowsTimes_real _ w1
    (hidden_real adj _ _ b0 hadj (support_real x w0 hx hw0) (support_real x w0 hx hw0) hb0) hw1

end Cert.RefLaw

end
-- ==== Proof.RefLayer1.lean ====
/-
  The reference's first layer, stage by stage, is the specification's.

  The reference builds the adjacency with self loops as `adj + eye`: the identity matrix is the comparison of a row
  counter with a column counter, converted to a float, so entry (p, k) of the sum is `adj p k + [p = k]` (two counters
  below 10000 are equal as 32-bit words exactly when they are equal). It projects the features, multiplies by that
  matrix — by the self-loop law, `adj·s + s` for real entries — and adds the bias row: the specification's `conv`.
  Then, row by row: the sum over the 32 hidden units divided by 32 is the row's mean; the row less its mean is the
  centred row; the square root of the sum of its squares is its norm; `1.0` times the centred row over the norm plus the
  constant, clamped at zero, is the hidden activation; and the product with the second weight matrix is the first
  layer's result.
-/
import proofs.«168926_g35270271435312_cont_8to1_b_957_4_alg».proof.Proof.RefRead
import proofs.«168926_g35270271435312_cont_8to1_b_957_4_alg».proof.Proof.Spec
import proofs.«168926_g35270271435312_cont_8to1_b_957_4_alg».proof.Proof.RefLaw

noncomputable section

namespace Cert.RefValue

open Idealize.ShloMosaic Idealize.ShloMosaic.ValueIdx Cert.LibPlainDot Cert.Spec Cert.RefLaw Cert.ReferenceIdeal
  Cert.ReferenceIdeal.Read

/-- The type of a stage's float array of shape `S`. -/
abbrev Arr (S : Shape) : Type := (⟨S, .f32⟩ : BufTy).Contents (Elt Ideal)

/-- Two counters below 10000, as 32-bit words, compare equal exactly when they are equal. -/
theorem diag_word (p k : Fin 10000) :
    IntOp.cmpi .eq (IntOp.addi (BitVec.ofNat 32 p.val) 0#32) (BitVec.ofNat 32 k.val)
      = if p.val = k.val then 1#1 else 0#1 := by
  have h0 : IntOp.addi (BitVec.ofNat 32 p.val) 0#32 = BitVec.ofNat 32 p.val := by simp [IntOp.addi]
  rw [h0]
  by_cases h : p.val = k.val
  · rw [if_pos h, IntOp.cmpi_eq, h]
  · rw [if_neg h]
    refine eq_zero_of_ne_one ?_
    rw [IntOp.cmpi_eq]
    intro e
    have e' := congrArg BitVec.toNat e
    simp only [BitVec.toNat_ofNat] at e'
    have := p.isLt; have := k.isLt
    omega

/-- Entry (p, k) of the adjacency with self loops is the adjacency's plus one on the diagonal. -/
theorem adjSelf_apply (x1 : Arr S10000x10000) (p k : Fin 10000) :
    val_main_v6 (F := Ideal) x1 (ix2 p k) = x1 (ix2 p k) + (if p.val = k.val then (1 : EReal) else 0) := by
  rw [val_main_v6_apply, val_main_v5_apply, val_main_v4_apply, val_main_v3_apply, val_main_v0_apply, val_main_v2_apply,
    val_main_c_apply, val_main_v1_apply]
  show x1 (ix2 p k)
      + (((IntOp.cmpi .eq (IntOp.addi (BitVec.ofNat 32 p.val) 0#32) (BitVec.ofNat 32 k.val)).toNat : ℝ) : EReal) = _
  rw [diag_word]
  by_cases h : p.val = k.val
  · rw [if_pos h, if_pos h]; simp
  · rw [if_neg h, if_neg h]; simp

/-- The projected features are the specification's. -/
theorem features_eq (x0 : Arr S10000x128) (x2 : Arr S128x32) : val_main_v7 (F := Ideal) x0 x2 = support x0 x2 := by
  funext i
  obtain ⟨p, q, rfl⟩ : ∃ (p : Fin 10000) (q : Fin 32), i = ix2 p q := ⟨i 0, i 1, eq_ix2 i⟩
  rw [val_main_v7_apply]
  show _ = ∑ k : Fin 128, x0 (ix2 p k) * x2 (ix2 k q)
  refine Finset.sum_congr rfl fun k _ => ?_
  have el : lidx_main_v7 (ix2 p q) k = ix2 p k := funext fun a => Fin.ext (by match a with | ⟨0, _⟩ => rfl | ⟨1, _⟩ => rfl)
  have er : ridx_main_v7 (ix2 p q) k = ix2 k q := funext fun a => Fin.ext (by match a with | ⟨0, _⟩ => rfl | ⟨1, _⟩ => rfl)
  rw [el, er]

/-- Row `p` of the adjacency with self loops times a real matrix `s`: the adjacency's row times `s`, plus row `p` of `s`. -/
theorem adjTimes {N : ℕ} (x1 : Arr S10000x10000) (h1 : AllReal x1) (s : Mat 10000 N) (hs : AllReal s) (p : Fin 10000)
    (q : Fin N) :
    ∑ k : Fin 10000, val_main_v6 (F := Ideal) x1 (ix2 p k) * s (ix2 k q) = rowsTimes x1 s (ix2 p q) + s (ix2 p q) := by
  refine (Finset.sum_congr rfl fun k _ => ?_).trans (selfLoop x1 s h1 hs p q)
  rw [adjSelf_apply]

/-- The first aggregation: the adjacency's row times the features, plus the node's own features. -/
theorem aggregate1_apply (x0 : Arr S10000x128) (x1 : Arr S10000x10000) (x2 : Arr S128x32) (h0 : AllReal x0)
    (h1 : AllReal x1) (h2 : AllReal x2) (p : Fin 10000) (q : Fin 32) :
    val_main_v8 (F := Ideal) x0 x1 x2 (ix2 p q)
      = rowsTimes x1 (support x0 x2) (ix2 p q) + support x0 x2 (ix2 p q) := by
  rw [val_main_v8_apply]
  refine (Finset.sum_congr rfl fun k _ => ?_).trans
    (adjTimes x1 h1 (support x0 x2) (support_real x0 x2 h0 h2) p q)
  have el : lidx_main_v8 (ix2 p q) k = ix2 p k := funext fun a => Fin.ext (by match a with | ⟨0, _⟩ => rfl | ⟨1, _⟩ => rfl)
  have er : ridx_main_v8 (ix2 p q) k = ix2 k q := funext fun a => Fin.ext (by match a with | ⟨0, _⟩ => rfl | ⟨1, _⟩ => rfl)
  rw [el, er, features_eq]

/-- With the bias row: the specification's first convolution. -/
theorem conv1_apply (x0 : Arr S10000x128) (x1 : Arr S10000x10000) (x2 : Arr S128x32) (x3 : Arr S32) (h0 : AllReal x0)
    (h1 : AllReal x1) (h2 : AllReal x2) (p : Fin 10000) (q : Fin 32) :
    val_main_v11 (F := Ideal) x0 x1 x2 x3 (ix2 p q)
      = conv x1 (support x0 x2) (support x0 x2) (fun q => x3 (ix1 q)) p q := by
  rw [val_main_v11_apply, aggregate1_apply x0 x1 x2 h0 h1 h2, val_main_v10_apply, val_main_v9_apply]
  have e : idx_main_v9 (idx_main_v10 (ix2 p q)) = ix1 q := funext fun a => Fin.ext (by match a with | ⟨0, _⟩ => rfl)
  rw [e]
  rfl

/-- The row's mean. -/
theorem mean_apply (x0 : Arr S10000x128) (x1 : Arr S10000x10000) (x2 : Arr S128x32) (x3 : Arr S32) (p : Fin 10000) :
    val_main_v15 (F := Ideal) x0 x1 x2 x3 (ix2 p (0 : Fin 1))
      = rowMean (fun q' : Fin 32 => val_main_v11 (F := Ideal) x0 x1 x2 x3 (ix2 p q')) := by
  rw [val_main_v15_apply, val_main_v13_apply, val_main_v12_apply, val_main_v14_apply, val_main_cst_0_apply,
    val_main_cst_apply]
  have e : ∀ k : Fin 32, idx_main_v12 (idx_main_v13 (ix2 p (0 : Fin 1))) k = ix2 p k := fun k => funext fun a => Fin.ext (by match a with | ⟨0, _⟩ => rfl | ⟨1, _⟩ => rfl)
  unfold rowMean width
  simp only [e, Ideal.hostDivf_def, Ideal.ofBits_def, Ideal.ofBits_zero_f32, zero_add]

/-- The centred row. -/
theorem centred_apply (x0 : Arr S10000x128) (x1 : Arr S10000x10000) (x2 : Arr S128x32) (x3 : Arr S32) (p : Fin 10000)
    (q : Fin 32) :
    val_main_v17 (F := Ideal) x0 x1 x2 x3 (ix2 p q)
      = centred (fun q' : Fin 32 => val_main_v11 (F := Ideal) x0 x1 x2 x3 (ix2 p q')) q := by
  rw [val_main_v17_apply, val_main_v16_apply]
  have e : idx_main_v16 (ix2 p q) = ix2 p (0 : Fin 1) := funext fun a => Fin.ext (by match a with | ⟨0, _⟩ => rfl | ⟨1, _⟩ => rfl)
  rw [e, mean_apply]
  rfl

/-- The centred row's norm. -/
theorem norm_apply (x0 : Arr S10000x128) (x1 : Arr S10000x10000) (x2 : Arr S128x32) (x3 : Arr S32) (p : Fin 10000) :
    val_main_v18 (F := Ideal) x0 x1 x2 x3 (ix2 p (0 : Fin 1))
      = rowNorm (fun q' : Fin 32 => val_main_v11 (F := Ideal) x0 x1 x2 x3 (ix2 p q')) := by
  rw [val_main_v18_apply, val_main_call0_v2_apply, val_main_call0_v1_apply, val_main_call0_cst_apply]
  have e : ∀ k : Fin 32, idx_main_call0_v1 (idx_main_call0_v2 (ix2 p (0 : Fin 1))) k = ix2 p k := fun k => funext fun a => Fin.ext (by match a with | ⟨0, _⟩ => rfl | ⟨1, _⟩ => rfl)
  unfold rowNorm
  simp only [e, val_main_call0_v0_apply, centred_apply, Ideal.hostUnary_sqrt_def, Ideal.ofBits_def,
    Ideal.ofBits_zero_f32, zero_add, Ideal.mulf_def]

/-- The float word of one is one. -/
theorem one_word : Ideal.ofBits .f32 0x3F800000#32 = 1 := by
  simp [Ideal.ofBits, Ideal.ieee, -EReal.coe_mul]; norm_num

/-- The hidden activation: the centred row over its norm plus the constant, clamped at zero. -/
theorem relu_apply (x0 : Arr S10000x128) (x1 : Arr S10000x10000) (x2 : Arr S128x32) (x3 : Arr S32) (p : Fin 10000)
    (q : Fin 32) :
    val_main_v25 (F := Ideal) x0 x1 x2 x3 (ix2 p q)
      = pairNormRelu (fun q' : Fin 32 => val_main_v11 (F := Ideal) x0 x1 x2 x3 (ix2 p q')) q := by
  rw [val_main_v25_apply, val_main_v24_apply, val_main_v20_apply, val_main_v19_apply, val_main_cst_1_apply,
    val_main_v23_apply, val_main_v22_apply, val_main_v21_apply, val_main_cst_2_apply, val_main_call1_v0_apply,
    val_main_call1_cst_apply, centred_apply]
  have e : idx_main_v23 (ix2 p q) = ix2 p (0 : Fin 1) := funext fun a => Fin.ext (by match a with | ⟨0, _⟩ => rfl | ⟨1, _⟩ => rfl)
  rw [e, norm_apply]
  unfold pairNormRelu eps
  simp only [Ideal.maximumf_def, Ideal.hostDivf_def, Ideal.mulf_def, Ideal.addf_def, Ideal.ofBits_def, one_word,
    one_mul, Ideal.ofBits_zero_f32]

/-- The hidden activations are the specification's. -/
theorem hidden_eq (x0 : Arr S10000x128) (x1 : Arr S10000x10000) (x2 : Arr S128x32) (x3 : Arr S32) (h0 : AllReal x0)
    (h1 : AllReal x1) (h2 : AllReal x2) :
    val_main_v25 (F := Ideal) x0 x1 x2 x3
      = hidden x1 (support x0 x2) (support x0 x2) (fun q => x3 (ix1 q)) := by
  funext i
  obtain ⟨p, q, rfl⟩ : ∃ (p : Fin 10000) (q : Fin 32), i = ix2 p q := ⟨i 0, i 1, eq_ix2 i⟩
  rw [relu_apply]
  have e : (fun q' : Fin 32 => val_main_v11 (F := Ideal) x0 x1 x2 x3 (ix2 p q'))
      = conv x1 (support x0 x2) (support x0 x2) (fun q => x3 (ix1 q)) p :=
    funext fun q' => conv1_apply x0 x1 x2 x3 h0 h1 h2 p q'
  rw [e]
  rfl

/-- The first layer's result is the specification's. -/
theorem layer1_eq (x0 : Arr S10000x128) (x1 : Arr S10000x10000) (x2 : Arr S128x32) (x3 : Arr S32) (x4 : Arr S32x16)
    (h0 : AllReal x0) (h1 : AllReal x1) (h2 : AllReal x2) :
    val_main_v26 (F := Ideal) x0 x1 x2 x3 x4 = support2 x0 x1 x2 (fun q => x3 (ix1 q)) x4 := by
  funext i
  obtain ⟨p, q, rfl⟩ : ∃ (p : Fin 10000) (q : Fin 16), i = ix2 p q := ⟨i 0, i 1, eq_ix2 i⟩
  rw [val_main_v26_apply, hidden_eq x0 x1 x2 x3 h0 h1 h2]
  show _ = ∑ k : Fin 32, hidden x1 (support x0 x2) (support x0 x2) (fun q => x3 (ix1 q)) (ix2 p k) * x4 (ix2 k q)
  refine Finset.sum_congr rfl fun k _ => ?_
  have el : lidx_main_v26 (ix2 p q) k = ix2 p k := funext fun a => Fin.ext (by match a with | ⟨0, _⟩ => rfl | ⟨1, _⟩ => rfl)
  have er : ridx_main_v26 (ix2 p q) k = ix2 k q := funext fun a => Fin.ext (by match a with | ⟨0, _⟩ => rfl | ⟨1, _⟩ => rfl)
  rw [el, er]

end Cert.RefValue

end
-- ==== Proof.RefValue.lean ====
/-
  The reference's second layer, stage by stage, is the specification's; hence the reference is the specification.

  The second aggregation multiplies the adjacency with self loops by the first layer's result, which is real, so the
  self-loop law applies again; with the bias row it is the specification's second convolution. The reference's row
  maximum is a fold of the maximum from minus infinity over the row's 16 entries, in whatever order, and the further
  maximum with minus infinity changes nothing (minus infinity is the least extended real). The row less its maximum,
  less the logarithm of the sum of the exponentials of that difference, is the logarithm of the softmax.
-/
import proofs.«168926_g35270271435312_cont_8to1_b_957_4_alg».proof.Proof.RefLayer1

noncomputable section

namespace Cert.RefValue

open Idealize.ShloMosaic Idealize.ShloMosaic.ValueIdx Cert.LibPlainDot Cert.Spec Cert.RefLaw Cert.ReferenceIdeal
  Cert.ReferenceIdeal.Read

/-- The second aggregation: the adjacency's row times the first layer's result, plus the node's own row of it. -/
theorem aggregate2_apply (x0 : Arr S10000x128) (x1 : Arr S10000x10000) (x2 : Arr S128x32) (x3 : Arr S32) (x4 : Arr S32x16)
    (h0 : AllReal x0) (h1 : AllReal x1) (h2 : AllReal x2) (h3 : AllReal x3) (h4 : AllReal x4) (p : Fin 10000) (q : Fin 16) :
    val_main_v27 (F := Ideal) x0 x1 x2 x3 x4 (ix2 p q)
      = rowsTimes x1 (support2 x0 x1 x2 (fun q => x3 (ix1 q)) x4) (ix2 p q) + support2 x0 x1 x2 (fun q => x3 (ix1 q)) x4 (ix2 p q) := by
  rw [val_main_v27_apply]
  refine (Finset.sum_congr rfl fun k _ => ?_).trans
    (adjTimes x1 h1 (support2 x0 x1 x2 (fun q => x3 (ix1 q)) x4)
      (support2_real x0 x1 x2 (fun q => x3 (ix1 q)) x4 h0 h1 h2 (fun q => h3 (ix1 q)) h4) p q)
  have el : lidx_main_v27 (ix2 p q) k = ix2 p k := funext fun a => Fin.ext (by match a with | ⟨0, _⟩ => rfl | ⟨1, _⟩ => rfl)
  have er : ridx_main_v27 (ix2 p q) k = ix2 k q := funext fun a => Fin.ext (by match a with | ⟨0, _⟩ => rfl | ⟨1, _⟩ => rfl)
  rw [el, er, layer1_eq x0 x1 x2 x3 x4 h0 h1 h2]

/-- With the bias row: the specification's second convolution. -/
theorem conv2_apply (x0 : Arr S10000x128) (x1 : Arr S10000x10000) (x2 : Arr S128x32) (x3 : Arr S32) (x4 : Arr S32x16) (x5 : Arr S16)
    (h0 : AllReal x0) (h1 : AllReal x1) (h2 : AllReal x2) (h3 : AllReal x3) (h4 : AllReal x4) (p : Fin 10000) (q : Fin 16) :
    val_main_v30 (F := Ideal) x0 x1 x2 x3 x4 x5 (ix2 p q)
      = conv x1 (support2 x0 x1 x2 (fun q => x3 (ix1 q)) x4) (support2 x0 x1 x2 (fun q => x3 (ix1 q)) x4) (fun q => x5 (ix1 q)) p q := by
  rw [val_main_v30_apply, aggregate2_apply x0 x1 x2 x3 x4 h0 h1 h2 h3 h4, val_main_v29_apply, val_main_v28_apply]
  have e : idx_main_v28 (idx_main_v29 (ix2 p q)) = ix1 q := funext fun a => Fin.ext (by match a with | ⟨0, _⟩ => rfl)
  rw [e]
  rfl

/-- The reference's row maximum is the fold of the maximum from minus infinity over the row. -/
theorem rowMax_apply (x0 : Arr S10000x128) (x1 : Arr S10000x10000) (x2 : Arr S128x32) (x3 : Arr S32) (x4 : Arr S32x16) (x5 : Arr S16) (p : Fin 10000) :
    val_main_call2_v0 (F := Ideal) x0 x1 x2 x3 x4 x5 (ix1 p) = rowMax (fun q' : Fin 16 => val_main_v30 (F := Ideal) x0 x1 x2 x3 x4 x5 (ix2 p q')) := by
  unfold val_main_call2_v0
  generalize val_main_v30 (F := Ideal) x0 x1 x2 x3 x4 x5 = z
  have hR : S10000x16.Reduces [1] S10000 := by decide
  refine (Host.reduce_eq_fold_single (FloatOps.maximumf (F := Ideal) (φ := .f32)) z (val_main_call2_cst (F := Ideal))
    Gen.reducesTo_S10000x16_S10000_d1 hR Gen.h_S_ (ix1 p)).trans ?_
  have e : (z ∘ hR.lift (ix1 p)) = fun q' : Fin 16 => z (ix2 p q') :=
    funext fun k => congrArg z (funext fun a => Fin.ext (by match a with | ⟨0, _⟩ => rfl | ⟨1, _⟩ => rfl))
  rw [e]
  rfl

/-- The float word of minus infinity is the least extended real. -/
theorem negInf_word : Ideal.ofBits .f32 0xFF800000#32 = ⊥ := by simp [Ideal.ofBits, Ideal.ieee]

/-- The row less its maximum. -/
theorem shifted_apply (x0 : Arr S10000x128) (x1 : Arr S10000x10000) (x2 : Arr S128x32) (x3 : Arr S32) (x4 : Arr S32x16) (x5 : Arr S16) (p : Fin 10000) (q : Fin 16) :
    val_main_call2_v5 (F := Ideal) x0 x1 x2 x3 x4 x5 (ix2 p q) = shifted (fun q' : Fin 16 => val_main_v30 (F := Ideal) x0 x1 x2 x3 x4 x5 (ix2 p q')) q := by
  rw [val_main_call2_v5_apply, val_main_call2_v4_apply, val_main_call2_v3_apply, val_main_call2_v2_apply,
    val_main_call2_v1_apply, val_main_call2_cst_0_apply]
  have e : idx_main_call2_v3 (idx_main_call2_v4 (ix2 p q)) = ix1 p := funext fun a => Fin.ext (by match a with | ⟨0, _⟩ => rfl)
  rw [e, rowMax_apply]
  unfold shifted
  simp only [Ideal.maximumf_def, Ideal.subf_def, Ideal.ofBits_def, negInf_word, max_bot_left]

/-- The logarithm of the softmax of the row. -/
theorem logSoftmax_apply (x0 : Arr S10000x128) (x1 : Arr S10000x10000) (x2 : Arr S128x32) (x3 : Arr S32) (x4 : Arr S32x16) (x5 : Arr S16) (p : Fin 10000) (q : Fin 16) :
    val_main_v31 (F := Ideal) x0 x1 x2 x3 x4 x5 (ix2 p q) = logSoftmax (fun q' : Fin 16 => val_main_v30 (F := Ideal) x0 x1 x2 x3 x4 x5 (ix2 p q')) q := by
  rw [val_main_v31_apply, val_main_call2_v10_apply, val_main_call2_v9_apply, val_main_call2_v8_apply,
    val_main_call2_v7_apply, val_main_call2_cst_1_apply, shifted_apply]
  have e : ∀ k : Fin 16, idx_main_call2_v7 (idx_main_call2_v8 (idx_main_call2_v10 (ix2 p q))) k = ix2 p k :=
    fun k => funext fun a => Fin.ext (by match a with | ⟨0, _⟩ => rfl | ⟨1, _⟩ => rfl)
  unfold logSoftmax
  simp only [e, val_main_call2_v6_apply, shifted_apply, Ideal.hostUnary_log_def, Ideal.hostUnary_exp_def,
    Ideal.subf_def, Ideal.ofBits_def, Ideal.ofBits_zero_f32, zero_add]

/-- The reference, on real inputs, is the specification. -/
theorem ref_eq (x0 : (⟨Cert.ReferenceIdeal.S10000x128, .f32⟩ : BufTy).Contents (Elt Ideal))
    (x1 : (⟨Cert.ReferenceIdeal.S10000x10000, .f32⟩ : BufTy).Contents (Elt Ideal))
    (x2 : (⟨Cert.ReferenceIdeal.S128x32, .f32⟩ : BufTy).Contents (Elt Ideal))
    (x3 : (⟨Cert.ReferenceIdeal.S32, .f32⟩ : BufTy).Contents (Elt Ideal))
    (x4 : (⟨Cert.ReferenceIdeal.S32x16, .f32⟩ : BufTy).Contents (Elt Ideal))
    (x5 : (⟨Cert.ReferenceIdeal.S16, .f32⟩ : BufTy).Contents (Elt Ideal))
    (h0 : Cert.RefLaw.AllReal x0) (h1 : Cert.RefLaw.AllReal x1) (h2 : Cert.RefLaw.AllReal x2)
    (h3 : Cert.RefLaw.AllReal x3) (h4 : Cert.RefLaw.AllReal x4) (h5 : Cert.RefLaw.AllReal x5) :
    Cert.ReferenceIdeal.Read.val_main_v31 (F := Ideal) x0 x1 x2 x3 x4 x5
      = Cert.Spec.out x0 x1 x2 (fun q => x3 (Idealize.ShloMosaic.ValueIdx.ix1 q)) x4
          (fun q => x5 (Idealize.ShloMosaic.ValueIdx.ix1 q)) := by
  funext i
  obtain ⟨p, q, rfl⟩ : ∃ (p : Fin 10000) (q : Fin 16), i = ix2 p q := ⟨i 0, i 1, eq_ix2 i⟩
  rw [logSoftmax_apply]
  have e : (fun q' : Fin 16 => val_main_v30 (F := Ideal) x0 x1 x2 x3 x4 x5 (ix2 p q'))
      = conv x1 (support2 x0 x1 x2 (fun q => x3 (ix1 q)) x4) (support2 x0 x1 x2 (fun q => x3 (ix1 q)) x4) (fun q => x5 (ix1 q)) p :=
    funext fun q' => conv2_apply x0 x1 x2 x3 x4 x5 h0 h1 h2 h3 h4 p q'
  rw [e]
  rfl

end Cert.RefValue

end
-- ==== Proof.Finite.lean ====
/-
  From the precondition to finiteness.

  The precondition is the conjunction, over the six inputs, of "every entry has absolute value below plus infinity".
  On the extended reals the absolute value `max x (-x)` is plus infinity at both infinities, so an entry whose absolute
  value is below plus infinity is a real number.
-/
import proofs.«168926_g35270271435312_cont_8to1_b_957_4_alg».proof.Pre_finite_inputs
import proofs.«168926_g35270271435312_cont_8to1_b_957_4_alg».proof.Proof.RefLaw
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun _ _ => funext fun d => d.elim0⟩

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- If the conjunction over all entries of "the absolute value is below plus infinity" holds, every entry is real. -/
theorem allReal_of_all {S : Shape} (x : FVec Ideal S .f32) (hb : S_.BroadcastsInDim S (![] : Fin 0 → Fin S.rank))
    {axes : List (Fin S.rank)} (hr : S.ReducesTo axes S_) (hS : 0 < S_.numel)
    (e : Host.reduce IntOp.andi (cmpf .olt (Host.absf x) (broadcastInDim S ![] hb (constant S_ .f32 0x7F800000#32)))
        (constantI S_ 1 1#1) hr hS ix0 = 1#1) : Cert.RefLaw.AllReal x := by
  intro i
  have hi := Host.reduce_andi_all _ _ hr hS ix0 e i
  exact real_of_abs_lt (x i) hi

/-- The precondition makes every entry of every input a real. -/
theorem of_pre [Cert.Pre_finite_inputs.Facts] (x0 : FVec Ideal Cert.Pre_finite_inputs.S10000x128 .f32)
    (x1 : FVec Ideal Cert.Pre_finite_inputs.S10000x10000 .f32) (x2 : FVec Ideal Cert.Pre_finite_inputs.S128x32 .f32)
    (x3 : FVec Ideal Cert.Pre_finite_inputs.S32 .f32) (x4 : FVec Ideal Cert.Pre_finite_inputs.S32x16 .f32)
    (x5 : FVec Ideal Cert.Pre_finite_inputs.S16 .f32)
    (h : Cert.Pre_finite_inputs.fn (F := Ideal) x0 x1 x2 x3 x4 x5 = fun _ => 1#1) :
    Cert.RefLaw.AllReal x0 ∧ Cert.RefLaw.AllReal x1 ∧ Cert.RefLaw.AllReal x2 ∧ Cert.RefLaw.AllReal x3
      ∧ Cert.RefLaw.AllReal x4 ∧ Cert.RefLaw.AllReal x5 := by
  have e := congrFun h ix0
  dsimp only [fn, fn_part1, andi] at e
  rw [IntOp.andi_eq_one, IntOp.andi_eq_one, IntOp.andi_eq_one, IntOp.andi_eq_one, IntOp.andi_eq_one] at e
  obtain ⟨⟨⟨⟨⟨e0, e1⟩, e2⟩, e3⟩, e4⟩, e5⟩ := e
  exact ⟨allReal_of_all x0 _ _ _ e0, allReal_of_all x1 _ _ _ e1, allReal_of_all x2 _ _ _ e2,
    allReal_of_all x3 _ _ _ e3, allReal_of_all x4 _ _ _ e4, allReal_of_all x5 _ _ _ e5⟩

end Cert.Finite

end
-- ==== Proof.lean ====
/-
  Two graph-convolution layers over a dense adjacency with self loops, as three kernels against a plain reference.

  The kernels never form `adj + I`: each layer computes `adj·s + s + b` on blocks of 400 rows, where the reference
  computes `(adj + I)·s + b`. On the extended reals the two agree when `adj` and `s` are finite (distributivity
  fails at the infinities), so the precondition is used: the inputs are finite, hence so is the first feature matrix
  `x·W0`, and — through the row normalisation, whose divisor is a norm plus a positive constant — so is the second. Every
  later step (centring by the row mean, dividing by the row norm plus the constant, clamping at zero, projecting; the
  logarithm of the softmax from the row maximum) is row-wise and spelt the same on both sides.

  The modules: `Spec` states the network as one function of the six arguments (on any number of rows, so that a block of
  rows and the whole array share a definition); `Payloads`, `SpecRows`, `IdealValue0/1/2`, `IdealOut` show that the three
  kernels' write-backs leave that function in the result array; `RefLaw`, `Finite`, `RefLayer1`, `RefValue` show that the
  reference's last stage is the same function of finite arguments; `RefRun` is the reference's run. The frames: each
  kernel region is entered from the buffer contents the previous step left (`IdealRegion0/1/2`, `IdealShare`, `IdealRun` at
  the ideal values; `BitsRegion0/1/2`, `BitsShare`, `BitsRun` for the program on words); the second and third kernels read
  one array through two windows, each at half of its share.
-/
import proofs.«168926_g35270271435312_cont_8to1_b_957_4_alg».proof.Defs
import proofs.«168926_g35270271435312_cont_8to1_b_957_4_alg».proof.Proof.IdealRun
import proofs.«168926_g35270271435312_cont_8to1_b_957_4_alg».proof.Proof.IdealOut
import proofs.«168926_g35270271435312_cont_8to1_b_957_4_alg».proof.Proof.BitsRun
import proofs.«168926_g35270271435312_cont_8to1_b_957_4_alg».proof.Proof.RefRun
import proofs.«168926_g35270271435312_cont_8to1_b_957_4_alg».proof.Proof.RefValue
import proofs.«168926_g35270271435312_cont_8to1_b_957_4_alg».proof.Proof.Finite
import proofs.«168926_g35270271435312_cont_8to1_b_957_4_alg».proof.Proof.Gen.Kernel
import proofs.«168926_g35270271435312_cont_8to1_b_957_4_alg».proof.Proof.Gen.KernelIdeal
import proofs.«168926_g35270271435312_cont_8to1_b_957_4_alg».proof.Proof.Gen.ReferenceIdeal
import proofs.«168926_g35270271435312_cont_8to1_b_957_4_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

/-- The program on words runs to the end with its arguments unchanged. -/
theorem frame_k : Cert.frame_Kernel := fun m ρ _ => Cert.Kernel.Hand.frame (F := Bits) m ρ

/-- So does the program at the ideal values. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- Both runs end with the result array at the network's function of the arguments: the kernels' by their write-backs,
    the reference's by its last stage, the arguments finite by the precondition and equal by hypothesis. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun q => m ((c.tc : Thread Cert.KernelIdeal.nD Cert.KernelIdeal.τ).loc Cert.KernelIdeal.main_arg3) (ix1 q))
      (m ((c.tc : Thread Cert.KernelIdeal.nD Cert.KernelIdeal.τ).loc Cert.KernelIdeal.main_arg4))
      (fun q => m ((c.tc : Thread Cert.KernelIdeal.nD Cert.KernelIdeal.τ).loc Cert.KernelIdeal.main_arg5) (ix1 q)), ?_, ?_⟩
  · exact (θ_run Cert.KernelIdeal.defs _ _).mono
      (fun _ h c => ⟨(h c).1.trans (Cert.KernelIdeal.HandValue.kernel_out m ρ c), (h c).2⟩)
      (Cert.KernelIdeal.Hand.run_value (F := Ideal) m ρ)
  · refine (θ_run Cert.ReferenceIdeal.defs _ _).mono (fun _ h c => ⟨(h c).1.trans ?_, (h c).2⟩)
      (Cert.RefRun.run (F := Ideal) m' ρ')
    obtain ⟨h0, h1, h2, h3, h4, h5⟩ := Cert.Finite.of_pre _ _ _ _ _ _ (hpre c)
    rw [(hagree c).1, (hagree c).2.1, (hagree c).2.2.1, (hagree c).2.2.2.1, (hagree c).2.2.2.2.1, (hagree c).2.2.2.2.2]
    exact Cert.RefValue.ref_eq _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
